-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S1x128 : Shape := ⟨2, ![1, 128]⟩
abbrev S1x5 : Shape := ⟨2, ![1, 5]⟩
abbrev S5 : Shape := ⟨1, ![5]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 28
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S1x128, .f32⟩
  | .hbm, ⟨3, _⟩ => ⟨S1x5, .f32⟩
  | .hbm, ⟨4, _⟩ => ⟨S5, .f32⟩
  | .hbm, ⟨5, _⟩ => ⟨S1x128, .f32⟩
  | .hbm, ⟨6, _⟩ => ⟨S1x5, .f32⟩
  | .hbm, ⟨7, _⟩ => ⟨S5, .f32⟩
  | .hbm, ⟨8, _⟩ => ⟨S1x128, .f32⟩
  | .hbm, ⟨9, _⟩ => ⟨S1x5, .f32⟩
  | .hbm, ⟨10, _⟩ => ⟨S5, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x128, .f32⟩
  | .local _ .vmem, ⟨5, _⟩ => ⟨S1x128, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1x128, .f32⟩
  | .local _ .vmem, ⟨11, _⟩ => ⟨S1x128, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1x128, .f32⟩
  | .local _ .vmem, ⟨17, _⟩ => ⟨S1x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev main_call1_v0 : Ref sig .tc := ⟨.hbm, 5, rfl⟩
abbrev main_call1_v1 : Ref sig .tc := ⟨.hbm, 6, rfl⟩
abbrev main_v1 : Ref sig .tc := ⟨.hbm, 7, rfl⟩
abbrev main_call2_v0 : Ref sig .tc := ⟨.hbm, 8, rfl⟩
abbrev main_call2_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_cst_5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg0 : BitVec 32 := BitVec.ofNat 32 (i 0).val
  let c3_i32_45 : BitVec 32 := 3#32
  let v112 : BitVec 1 := Scalar.cmpi .eq arg0 c3_i32_45
  let arg1 : BitVec 32 := BitVec.ofNat 32 (i 1).val
  let c3_i32_46 : BitVec 32 := 3#32
  let v113 : BitVec 1 := Scalar.cmpi .eq arg1 c3_i32_46
  let v114 : BitVec 1 := Scalar.andi v112 v113
  let v115 : BitVec 32 := Scalar.extui v114
  let c0_i32_47 : BitVec 32 := 0#32
  let v116 : BitVec 1 := Scalar.cmpi .ne v115 c0_i32_47
  v116

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![4, 4], ![false, false]⟩

def k1_cond2 (i : grid1.Coords) : BitVec 1 :=
  let arg0 : BitVec 32 := BitVec.ofNat 32 (i 0).val
  let c3_i32_45 : BitVec 32 := 3#32
  let v112 : BitVec 1 := Scalar.cmpi .eq arg0 c3_i32_45
  let arg1 : BitVec 32 := BitVec.ofNat 32 (i 1).val
  let c3_i32_46 : BitVec 32 := 3#32
  let v113 : BitVec 1 := Scalar.cmpi .eq arg1 c3_i32_46
  let v114 : BitVec 1 := Scalar.andi v112 v113
  let v115 : BitVec 32 := Scalar.extui v114
  let c0_i32_47 : BitVec 32 := 0#32
  let v116 : BitVec 1 := Scalar.cmpi .ne v115 c0_i32_47
  v116

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![4, 4], ![false, false]⟩

def k2_cond2 (i : grid2.Coords) : BitVec 1 :=
  let arg0 : BitVec 32 := BitVec.ofNat 32 (i 0).val
  let c3_i32_45 : BitVec 32 := 3#32
  let v112 : BitVec 1 := Scalar.cmpi .eq arg0 c3_i32_45
  let arg1 : BitVec 32 := BitVec.ofNat 32 (i 1).val
  let c3_i32_46 : BitVec 32 := 3#32
  let v113 : BitVec 1 := Scalar.cmpi .eq arg1 c3_i32_46
  let v114 : BitVec 1 := Scalar.andi v112 v113
  let v115 : BitVec 32 := Scalar.extui v114
  let c0_i32_47 : BitVec 32 := 0#32
  let v116 : BitVec 1 := Scalar.cmpi .ne v115 c0_i32_47
  v116

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  slices_S1x128_S1x5_0_0 : S1x128.Slices ![0, 0] S1x5
  shapeCasts_S1x5_S5 : S1x5.ShapeCasts S5
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  reduces_S1024x256_S1024 : S1024x256.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1x128_d1_w32 : S1x128.Iotas .tc 32 [1]
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  reducesTo_S5_S_d0 : S5.ReducesTo [0] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .f32 = 32 ∨ (Rect.block (s := S4096x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .f32 = 32 ∨ (Rect.block (s := S4096x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call1_v0) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call2_v0) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 256
  | .vmem => 0
  | .smem => 0
  | _ => 0

abbrev hbmTy0_0 (i : Nat) : BufTy := match i % 128 with
  | 0 => ⟨S4096x256, .f32⟩
  | 1 => ⟨S4096x256, .f32⟩
  | 2 => ⟨S4096x256, .f32⟩
  | 3 => ⟨S_, .f32⟩
  | 4 => ⟨S4096, .f32⟩
  | 5 => ⟨S4096x256, .f32⟩
  | 6 => ⟨S_, .f32⟩
  | 7 => ⟨S4096, .f32⟩
  | 8 => ⟨S4096x1, .f32⟩
  | 9 => ⟨S1x4096, .f32⟩
  | 10 => ⟨S4096x4096, .f32⟩
  | 11 => ⟨S4096x4096, .f32⟩
  | 12 => ⟨S4096x4096, .f32⟩
  | 13 => ⟨S256x4096, .f32⟩
  | 14 => ⟨S4096x4096, .f32⟩
  | 15 => ⟨S_, .f32⟩
  | 16 => ⟨S4096x4096, .f32⟩
  | 17 => ⟨S4096x4096, .f32⟩
  | 18 => ⟨S4096x4096, .f32⟩
  | 19 => ⟨S_, .f32⟩
  | 20 => ⟨S4096x4096, .f32⟩
  | 21 => ⟨S4096x4096, .f32⟩
  | 22 => ⟨S4096x256, .f32⟩
  | 23 => ⟨S_, .f32⟩
  | 24 => ⟨S4096, .f32⟩
  | 25 => ⟨S4096x256, .f32⟩
  | 26 => ⟨S_, .f32⟩
  | 27 => ⟨S4096, .f32⟩
  | 28 => ⟨S4096x1, .f32⟩
  | 29 => ⟨S1x4096, .f32⟩
  | 30 => ⟨S4096x4096, .f32⟩
  | 31 => ⟨S4096x4096, .f32⟩
  | 32 => ⟨S4096x4096, .f32⟩
  | 33 => ⟨S256x4096, .f32⟩
  | 34 => ⟨S4096x4096, .f32⟩
  | 35 => ⟨S_, .f32⟩
  | 36 => ⟨S4096x4096, .f32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S4096x256, .f32⟩
  | 43 => ⟨S_, .f32⟩
  | 44 => ⟨S4096, .f32⟩
  | 45 => ⟨S4096x256, .f32⟩
  | 46 => ⟨S_, .f32⟩
  | 47 => ⟨S4096, .f32⟩
  | 48 => ⟨S4096x1, .f32⟩
  | 49 => ⟨S1x4096, .f32⟩
  | 50 => ⟨S4096x4096, .f32⟩
  | 51 => ⟨S4096x4096, .f32⟩
  | 52 => ⟨S4096x4096, .f32⟩
  | 53 => ⟨S256x4096, .f32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S_, .f32⟩
  | 63 => ⟨S_, .f32⟩
  | 64 => ⟨S_, .f32⟩
  | 65 => ⟨S_, .f32⟩
  | 66 => ⟨S4096x4096, .f32⟩
  | 67 => ⟨S4096x4096, .f32⟩
  | 68 => ⟨S4096x4096, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S4096x4096, .f32⟩
  | 80 => ⟨S4096x4096, .f32⟩
  | 81 => ⟨S4096x4096, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S4096x4096, .f32⟩
  | 93 => ⟨S4096x4096, .f32⟩
  | 94 => ⟨S4096x4096, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S4096x4096, .f32⟩
  | 106 => ⟨S4096x4096, .f32⟩
  | 107 => ⟨S4096x4096, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S4096x4096, .f32⟩
  | 118 => ⟨S4096x4096, .f32⟩
  | 119 => ⟨S4096x4096, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x256, .f32⟩

abbrev hbmTy0_1 (i : Nat) : BufTy := match i % 128 with
  | 0 => ⟨S_, .f32⟩
  | 1 => ⟨S4096x4096, .f32⟩
  | 2 => ⟨S4096x4096, .f32⟩
  | 3 => ⟨S4096x4096, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S4096x4096, .f32⟩
  | 14 => ⟨S4096x4096, .f32⟩
  | 15 => ⟨S4096x4096, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S4096x4096, .f32⟩
  | 26 => ⟨S4096x4096, .f32⟩
  | 27 => ⟨S4096x4096, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S4096x4096, .f32⟩
  | 38 => ⟨S4096x4096, .f32⟩
  | 39 => ⟨S4096x4096, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S4096x4096, .f32⟩
  | 50 => ⟨S4096x4096, .f32⟩
  | 51 => ⟨S4096x4096, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S4096x4096, .f32⟩
  | 62 => ⟨S4096x4096, .f32⟩
  | 63 => ⟨S4096x4096, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S4096x4096, .f32⟩
  | 74 => ⟨S4096x4096, .f32⟩
  | 75 => ⟨S4096x4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S4096x4096, .f32⟩
  | 86 => ⟨S4096x4096, .f32⟩
  | 87 => ⟨S4096x4096, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S4096x4096, .f32⟩
  | 98 => ⟨S4096x4096, .f32⟩
  | 99 => ⟨S4096x4096, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S4096x4096, .f32⟩
  | 110 => ⟨S4096x4096, .f32⟩
  | 111 => ⟨S4096x4096, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_10 : Ref sig .tc := ⟨.hbm, 59, rfl⟩
abbrev main_v46 : Ref sig .tc := ⟨.hbm, 60, rfl⟩
abbrev main_v47 : Ref sig .tc := ⟨.hbm, 61, rfl⟩
abbrev main_cst_11 : Ref sig .tc := ⟨.hbm, 62, rfl⟩
abbrev main_cst_12 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_cst_14 : Ref sig .tc := ⟨.hbm, 71, rfl⟩
abbrev main_v54 : Ref sig .tc := ⟨.hbm, 72, rfl⟩
abbrev main_cst_15 : Ref sig .tc := ⟨.hbm, 73, rfl⟩
abbrev main_v55 : Ref sig .tc := ⟨.hbm, 74, rfl⟩
abbrev main_cst_16 : Ref sig .tc := ⟨.hbm, 75, rfl⟩
abbrev main_cst_17 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_18 : Ref sig .tc := ⟨.hbm, 82, rfl⟩
abbrev main_v61 : Ref sig .tc := ⟨.hbm, 83, rfl⟩
abbrev main_cst_19 : Ref sig .tc := ⟨.hbm, 84, rfl⟩
abbrev main_v62 : Ref sig .tc := ⟨.hbm, 85, rfl⟩
abbrev main_cst_20 : Ref sig .tc := ⟨.hbm, 86, rfl⟩
abbrev main_v63 : Ref sig .tc := ⟨.hbm, 87, rfl⟩
abbrev main_cst_21 : Ref sig .tc := ⟨.hbm, 88, rfl⟩
abbrev main_cst_22 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_23 : Ref sig .tc := ⟨.hbm, 95, rfl⟩
abbrev main_v69 : Ref sig .tc := ⟨.hbm, 96, rfl⟩
abbrev main_cst_24 : Ref sig .tc := ⟨.hbm, 97, rfl⟩
abbrev main_v70 : Ref sig .tc := ⟨.hbm, 98, rfl⟩
abbrev main_cst_25 : Ref sig .tc := ⟨.hbm, 99, rfl⟩
abbrev main_v71 : Ref sig .tc := ⟨.hbm, 100, rfl⟩
abbrev main_cst_26 : Ref sig .tc := ⟨.hbm, 101, rfl⟩
abbrev main_cst_27 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_28 : Ref sig .tc := ⟨.hbm, 108, rfl⟩
abbrev main_v77 : Ref sig .tc := ⟨.hbm, 109, rfl⟩
abbrev main_cst_29 : Ref sig .tc := ⟨.hbm, 110, rfl⟩
abbrev main_v78 : Ref sig .tc := ⟨.hbm, 111, rfl⟩
abbrev main_v79 : Ref sig .tc := ⟨.hbm, 112, rfl⟩
abbrev main_cst_30 : Ref sig .tc := ⟨.hbm, 113, rfl⟩
abbrev main_cst_31 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_32 : Ref sig .tc := ⟨.hbm, 120, rfl⟩
abbrev main_v85 : Ref sig .tc := ⟨.hbm, 121, rfl⟩
abbrev main_cst_33 : Ref sig .tc := ⟨.hbm, 122, rfl⟩
abbrev main_v86 : Ref sig .tc := ⟨.hbm, 123, rfl⟩
abbrev main_v87 : Ref sig .tc := ⟨.hbm, 124, rfl⟩
abbrev main_cst_34 : Ref sig .tc := ⟨.hbm, 125, rfl⟩
abbrev main_cst_35 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_36 : Ref sig .tc := ⟨.hbm, 132, rfl⟩
abbrev main_v93 : Ref sig .tc := ⟨.hbm, 133, rfl⟩
abbrev main_cst_37 : Ref sig .tc := ⟨.hbm, 134, rfl⟩
abbrev main_v94 : Ref sig .tc := ⟨.hbm, 135, rfl⟩
abbrev main_v95 : Ref sig .tc := ⟨.hbm, 136, rfl⟩
abbrev main_cst_38 : Ref sig .tc := ⟨.hbm, 137, rfl⟩
abbrev main_cst_39 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_40 : Ref sig .tc := ⟨.hbm, 144, rfl⟩
abbrev main_v101 : Ref sig .tc := ⟨.hbm, 145, rfl⟩
abbrev main_cst_41 : Ref sig .tc := ⟨.hbm, 146, rfl⟩
abbrev main_v102 : Ref sig .tc := ⟨.hbm, 147, rfl⟩
abbrev main_v103 : Ref sig .tc := ⟨.hbm, 148, rfl⟩
abbrev main_cst_42 : Ref sig .tc := ⟨.hbm, 149, rfl⟩
abbrev main_cst_43 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_44 : Ref sig .tc := ⟨.hbm, 156, rfl⟩
abbrev main_v109 : Ref sig .tc := ⟨.hbm, 157, rfl⟩
abbrev main_cst_45 : Ref sig .tc := ⟨.hbm, 158, rfl⟩
abbrev main_v110 : Ref sig .tc := ⟨.hbm, 159, rfl⟩
abbrev main_v111 : Ref sig .tc := ⟨.hbm, 160, rfl⟩
abbrev main_cst_46 : Ref sig .tc := ⟨.hbm, 161, rfl⟩
abbrev main_cst_47 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_48 : Ref sig .tc := ⟨.hbm, 168, rfl⟩
abbrev main_v117 : Ref sig .tc := ⟨.hbm, 169, rfl⟩
abbrev main_cst_49 : Ref sig .tc := ⟨.hbm, 170, rfl⟩
abbrev main_v118 : Ref sig .tc := ⟨.hbm, 171, rfl⟩
abbrev main_v119 : Ref sig .tc := ⟨.hbm, 172, rfl⟩
abbrev main_cst_50 : Ref sig .tc := ⟨.hbm, 173, rfl⟩
abbrev main_cst_51 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_52 : Ref sig .tc := ⟨.hbm, 180, rfl⟩
abbrev main_v125 : Ref sig .tc := ⟨.hbm, 181, rfl⟩
abbrev main_cst_53 : Ref sig .tc := ⟨.hbm, 182, rfl⟩
abbrev main_v126 : Ref sig .tc := ⟨.hbm, 183, rfl⟩
abbrev main_v127 : Ref sig .tc := ⟨.hbm, 184, rfl⟩
abbrev main_cst_54 : Ref sig .tc := ⟨.hbm, 185, rfl⟩
abbrev main_cst_55 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_cst_56 : Ref sig .tc := ⟨.hbm, 192, rfl⟩
abbrev main_v133 : Ref sig .tc := ⟨.hbm, 193, rfl⟩
abbrev main_cst_57 : Ref sig .tc := ⟨.hbm, 194, rfl⟩
abbrev main_v134 : Ref sig .tc := ⟨.hbm, 195, rfl⟩
abbrev main_v135 : Ref sig .tc := ⟨.hbm, 196, rfl⟩
abbrev main_cst_58 : Ref sig .tc := ⟨.hbm, 197, rfl⟩
abbrev main_cst_59 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_cst_60 : Ref sig .tc := ⟨.hbm, 204, rfl⟩
abbrev main_v141 : Ref sig .tc := ⟨.hbm, 205, rfl⟩
abbrev main_cst_61 : Ref sig .tc := ⟨.hbm, 206, rfl⟩
abbrev main_v142 : Ref sig .tc := ⟨.hbm, 207, rfl⟩
abbrev main_v143 : Ref sig .tc := ⟨.hbm, 208, rfl⟩
abbrev main_cst_62 : Ref sig .tc := ⟨.hbm, 209, rfl⟩
abbrev main_cst_63 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_cst_64 : Ref sig .tc := ⟨.hbm, 216, rfl⟩
abbrev main_v149 : Ref sig .tc := ⟨.hbm, 217, rfl⟩
abbrev main_cst_65 : Ref sig .tc := ⟨.hbm, 218, rfl⟩
abbrev main_v150 : Ref sig .tc := ⟨.hbm, 219, rfl⟩
abbrev main_v151 : Ref sig .tc := ⟨.hbm, 220, rfl⟩
abbrev main_cst_66 : Ref sig .tc := ⟨.hbm, 221, rfl⟩
abbrev main_cst_67 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_cst_68 : Ref sig .tc := ⟨.hbm, 228, rfl⟩
abbrev main_v157 : Ref sig .tc := ⟨.hbm, 229, rfl⟩
abbrev main_cst_69 : Ref sig .tc := ⟨.hbm, 230, rfl⟩
abbrev main_v158 : Ref sig .tc := ⟨.hbm, 231, rfl⟩
abbrev main_v159 : Ref sig .tc := ⟨.hbm, 232, rfl⟩
abbrev main_cst_70 : Ref sig .tc := ⟨.hbm, 233, rfl⟩
abbrev main_cst_71 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_cst_72 : Ref sig .tc := ⟨.hbm, 240, rfl⟩
abbrev main_v165 : Ref sig .tc := ⟨.hbm, 241, rfl⟩
abbrev main_cst_73 : Ref sig .tc := ⟨.hbm, 242, rfl⟩
abbrev main_v166 : Ref sig .tc := ⟨.hbm, 243, rfl⟩
abbrev main_v167 : Ref sig .tc := ⟨.hbm, 244, rfl⟩
abbrev main_cst_74 : Ref sig .tc := ⟨.hbm, 245, rfl⟩
abbrev main_v168 : Ref sig .tc := ⟨.hbm, 246, rfl⟩
abbrev main_cst_75 : Ref sig .tc := ⟨.hbm, 247, rfl⟩
abbrev main_v169 : Ref sig .tc := ⟨.hbm, 248, rfl⟩
abbrev main_cst_76 : Ref sig .tc := ⟨.hbm, 249, rfl⟩
abbrev main_v170 : Ref sig .tc := ⟨.hbm, 250, rfl⟩
abbrev main_cst_77 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x256_S256x4096_1_0 : S4096x256.Transposes [1, 0] S256x4096
  bcast_S_S4096x4096 : S_.BroadcastsInDim S4096x4096 (![] : Fin 0 → Fin S4096x4096.rank)
  reducesTo_S4096x4096_S_d0_1 : S4096x4096.ReducesTo [0, 1] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.K.Base0.lean ====
/-
  One pairwise-distance region (region 0) of the multi-bandwidth kernel sum: the grid is 4 x 4 tiles; at the first tile
  the one-row accumulator is cleared, at every tile five lane-masked partial sums are added onto it, and at the last
  tile the accumulator is copied into the output row. This file fixes the vocabulary the three control cases share:
  the two conditions as functions of the grid coordinates and their closed forms over the sixteen points, where the
  output window is idle, the staging and accumulator memrefs, and the region invariant with the accumulator split off.
-/
import proofs.«152674_j2757369004769_1_alg».proof.Proof.Gen.Kernel.Launch
import proofs.«152674_j2757369004769_1_alg».proof.Proof.Gen.Kernel.Skeleton
import proofs.«152674_j2757369004769_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: both grid coordinates are 0. -/
abbrev first0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem first0_iff : ∀ t : Fin cfg0.N, first0 (grid0.coords t) ↔ t.val = 0 :=
  (by decide +kernel : ∀ t : Fin grid0.N, first0 (grid0.coords t) ↔ t.val = 0)

/-- The body's last condition: both grid coordinates are 3. -/
abbrev last0 (i : grid0.Coords) : Prop := k0_cond2 i = 1#1
/-- It holds at point 15 only. -/
theorem last0_iff : ∀ t : Fin cfg0.N, last0 (grid0.coords t) ↔ t.val = 15 :=
  (by decide +kernel : ∀ t : Fin grid0.N, last0 (grid0.coords t) ↔ t.val = 15)

/-- The two input windows are never idle. -/
theorem live0_0 : ∀ t : Fin cfg0.N, cfg0.idle 0 (grid0.coords t) = false := by decide +kernel
theorem live0_1 : ∀ t : Fin cfg0.N, cfg0.idle 1 (grid0.coords t) = false := by decide +kernel
/-- The output window is idle, and not written back, away from the last point; live at the last point. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-- The output's staging buffer as a view, through which its contents are stated. -/
abbrev VO0 : View sig .tc .vmem S1x128 .f32 := (Memref.whole cc0_stg2_0 : Memref sig .tc .vmem S1x128 .f32).view
/-- Each window's current staging memref at point `t`, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0 : Memref sig .tc .vmem S1x128 .f32 := Memref.whole cc0_scratch0
abbrev VS0 : View sig .tc .vmem S1x128 .f32 := scM0.view

/-- The core's other scoped buffers that are no staging buffer of this region (the other regions' staging buffers and
    accumulators), each at some contents: they ride through the region untouched. -/
def others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The class invariant with the accumulator split off as a memref owned at some contents. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA Pipeline.scopedRest others0
  rw [bigSep_erase (i := cc0_scratch0) (by decide)]
  simp only [scM0, owns_whole]
  rfl

end Cert.Kernel.Pair

end
-- ==== Proof.K.RunA0.lean ====
/-
  Region 0, the first tile: the accumulator is cleared and the five lane-masked partial sums of the tile are added onto it; the output row is left untouched. The body's run on any whole staging memrefs, the pieces the accumulator ends with found by the run.
-/
import proofs.«152674_j2757369004769_1_alg».proof.Proof.K.Base0

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first tile: from the two input blocks `x0`, `x1`, the output buffer at `xi` (handed back untouched) and the
    accumulator at anything, it runs to the continuation with the inputs as they were and the accumulator with its pieces written. -/
noncomputable def run0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first0 i) (hc1 : ¬last0 i)
    (x0 x1 : Vec F S1024x256 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__pair_kernel i arg2 harg2 arg3 harg3 arg4 harg4 arg5 harg5) K } := by
  refine ⟨?_, fun xi E K => ?run⟩
  case run =>
    simp only [cc0__pair_kernel_eq_skeleton]; unfold cc0__pair_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Pair

end
-- ==== Proof.K.RunB0.lean ====
/-
  Region 0, a middle tile: the five lane-masked partial sums of the tile are added onto what the accumulator held; the output row is left untouched.
-/
import proofs.«152674_j2757369004769_1_alg».proof.Proof.K.RunA0

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: from the two input blocks, the output buffer at `xi` (handed back untouched) and the
    accumulator at what the tile before left (`xs`). -/
noncomputable def run0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : ¬last0 i)
    (x0 x1 : Vec F S1024x256 .f32) (xs : Vec F S1x128 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__pair_kernel i arg2 harg2 arg3 harg3 arg4 harg4 arg5 harg5) K } := by
  refine ⟨?_, fun xi E K => ?run⟩
  case run =>
    simp only [cc0__pair_kernel_eq_skeleton]; unfold cc0__pair_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Pair

end
-- ==== Proof.K.RunC0.lean ====
/-
  Region 0, the last tile: the five lane-masked partial sums of the tile are added onto what the accumulator held, and the accumulator is copied into the output row.
-/
import proofs.«152674_j2757369004769_1_alg».proof.Proof.K.RunB0

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last tile: from the two input blocks, the output buffer at anything and the accumulator at what the tile
    before left (`xs`); the output buffer and the accumulator end with their pieces written. -/
noncomputable def run0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) :
    Σ' (LO : List (View.Piece (Elt F) S1x128 .f32)), { LS : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__pair_kernel i arg2 harg2 arg3 harg3 arg4 harg4 arg5 harg5) K } := by
  refine ⟨?_, ?_, fun E K => ?run⟩
  case run =>
    simp only [cc0__pair_kernel_eq_skeleton]; unfold cc0__pair_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Pair

end
-- ==== Proof.K.Points0.lean ====
/-
  Region 0, point by point: what the accumulator and the output's staging buffer hold after each of the sixteen tiles (a recursion on the tile: the first tile's case at 0, the last tile's at 15, a middle tile's between, each over what the tile before left in the accumulator), the region invariant carrying the accumulator at those contents, the proof data over any region-entry contents, and the body's obligation at every tile.
-/
import proofs.«152674_j2757369004769_1_alg».proof.Proof.K.RunC0

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output's staging buffer where the body stores nothing into it: a placeholder nothing consults. -/
def idleOut0 : Vec F S1x128 .f32 := VO0.read (Elt F) (VO0.writes (Elt F) VO0.junk [])

/-! ## What each case leaves -/

theorem scover0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first0 i) (hc1 : ¬last0 i)
    (x0 x1 : Vec F S1024x256 .f32) (y : S1x128.Idx) : ∃ pc ∈ (run0_A c i arg2 harg2 arg3 harg3 arg4 harg4 arg5 harg5 hc0 hc1 x0 x1).1, y ∈ pc.1.set :=
  View.cover_of_tiledL (run0_A c i arg2 harg2 arg3 harg3 arg4 harg4 arg5 harg5 hc0 hc1 x0 x1).1 S1x128.size (by sl_kernel_rfl) y
/-- The accumulator after the first tile. -/
def sout0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first0 i) (hc1 : ¬last0 i)
    (x0 x1 : Vec F S1024x256 .f32) : Vec F S1x128 .f32 :=
  VS0.read (Elt F) (VS0.writes (Elt F) VS0.junk (run0_A c i arg2 harg2 arg3 harg3 arg4 harg4 arg5 harg5 hc0 hc1 x0 x1).1)

theorem scover0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : ¬last0 i)
    (x0 x1 : Vec F S1024x256 .f32) (xs : Vec F S1x128 .f32) (y : S1x128.Idx) : ∃ pc ∈ (run0_B c i arg2 harg2 arg3 harg3 arg4 harg4 arg5 harg5 hc0 hc1 x0 x1 xs).1, y ∈ pc.1.set :=
  View.cover_of_tiledL (run0_B c i arg2 harg2 arg3 harg3 arg4 harg4 arg5 harg5 hc0 hc1 x0 x1 xs).1 S1x128.size (by sl_kernel_rfl) y
/-- The accumulator after a middle tile, over what the tile before left. -/
def sout0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : ¬last0 i)
    (x0 x1 : Vec F S1024x256 .f32) (xs : Vec F S1x128 .f32) : Vec F S1x128 .f32 :=
  VS0.read (Elt F) (VS0.writes (Elt F) VS0.junk (run0_B c i arg2 harg2 arg3 harg3 arg4 harg4 arg5 harg5 hc0 hc1 x0 x1 xs).1)

theorem cover0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) (y : S1x128.Idx) : ∃ pc ∈ (run0_C c i arg2 harg2 arg3 harg3 arg4 harg4 arg5 harg5 hc0 hc1 x0 x1 xs).1, y ∈ pc.1.set :=
  View.cover_of_tiledL (run0_C c i arg2 harg2 arg3 harg3 arg4 harg4 arg5 harg5 hc0 hc1 x0 x1 xs).1 S1x128.size (by sl_kernel_rfl) y
/-- The output's staging buffer after the last tile. -/
def out0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) : Vec F S1x128 .f32 :=
  VO0.read (Elt F) (VO0.writes (Elt F) VO0.junk (run0_C c i arg2 harg2 arg3 harg3 arg4 harg4 arg5 harg5 hc0 hc1 x0 x1 xs).1)
theorem scover0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) (y : S1x128.Idx) : ∃ pc ∈ (run0_C c i arg2 harg2 arg3 harg3 arg4 harg4 arg5 harg5 hc0 hc1 x0 x1 xs).2.1, y ∈ pc.1.set :=
  View.cover_of_tiledL (run0_C c i arg2 harg2 arg3 harg3 arg4 harg4 arg5 harg5 hc0 hc1 x0 x1 xs).2.1 S1x128.size (by sl_kernel_rfl) y
/-- The accumulator after the last tile. -/
def sout0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) : Vec F S1x128 .f32 :=
  VS0.read (Elt F) (VS0.writes (Elt F) VS0.junk (run0_C c i arg2 harg2 arg3 harg3 arg4 harg4 arg5 harg5 hc0 hc1 x0 x1 xs).2.1)

/-! ## The accumulation, point by point -/

/-- What the output's staging buffer and the accumulator hold after the body at position `n`. -/
def outsAt0 (c : Dev nD) : (n : ℕ) → n < cfg0.N → Vec F S1x128 .f32 × Vec F S1x128 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((first0_iff ⟨0, hn⟩).mpr rfl) (fun h => absurd ((last0_iff ⟨0, hn⟩).mp h) (show ¬ (0 : ℕ) = 15 by decide)) (iblk0 V c 0 ⟨0, hn⟩) (iblk0 V c 1 ⟨0, hn⟩))
  | n + 1, hn =>
    if h2 : n + 1 = 15 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((first0_iff ⟨n + 1, hn⟩).mp h) (Nat.succ_ne_zero n)) ((last0_iff ⟨n + 1, hn⟩).mpr h2) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((first0_iff ⟨n + 1, hn⟩).mp h) (Nat.succ_ne_zero n)) ((last0_iff ⟨n + 1, hn⟩).mpr h2) (iblk0 V c 0 ⟨n + 1, hn⟩) (iblk0 V c 1 ⟨n + 1, hn⟩) (outsAt0 c n (Nat.lt_of_succ_lt hn)).2)
    else
      (idleOut0,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((first0_iff ⟨n + 1, hn⟩).mp h) (Nat.succ_ne_zero n)) (fun h => h2 ((last0_iff ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) (h1 : ¬t.val = 15) :
    outsAt0 V c t.val t.isLt = (idleOut0, sout0_A c (grid0.coords t) (ms0_0 t) (hs0_0 t) (ms0_1 t) (hs0_1 t) (ms0_2 t) (hs0_2 t) scM0 (Memref.isWhole_whole _) ((first0_iff t).mpr h0) (fun h => h1 ((last0_iff t).mp h)) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 15) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((first0_iff t).mp h)) (fun h => h1 ((last0_iff t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 15) :
    outsAt0 V c t.val t.isLt = (out0_C c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first tile the class's; afterwards the accumulator at what the
    tile before left, beside the other scoped buffers and the generator register. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ others0 (F := F) c) ∗ (∃ r, prngReg c r)) := by
  cases n with
  | zero => exact absurd rfl hz
  | succ n => rfl

/-! ## The proof data -/

/-- The proof data of the region on core `c` over the entry contents `V`: after the body at point `t` each input's buffer at
    its block and the output's at `outsAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any tile: the closed forms say which case the tile is in; the invariant hands the body the accumulator at what
    the tile before left (at anything at the first tile) and takes it back at this tile's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val = 0
  · have h1 : ¬t.val = 15 := by omega
    rw [Dat.leavesExact_idle (dat0 V c) 2 t (idle0_2 t (fun h => h1 ((last0_iff t).mp h))) (noFlush0_2 t (fun h => h1 ((last0_iff t).mp h)))]
    rw [outsAt0_A V c t h0 h1]
    unfold sout0_A; (try dsimp only)
    rw [PhiS0_castSucc V c t, PhiS0_zero V c _ _ h0, PhiA0_eq]
    iintro ⟨⟨⟨HS, Hoth⟩, Hg⟩, Ho, ⟨%d0, H0⟩, ⟨%d1, H1⟩, ⟨%d2, H2⟩⟩
    iapply ((run0_A c (grid0.coords t) _ _ _ _ _ _ _ _ ((first0_iff t).mpr h0) (fun h => h1 ((last0_iff t).mp h)) (iblk0 V c 0 t) (iblk0 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hg Hoth]
    · isplitl [HS Hoth]
      · isplitl [HS]
        · unfold owns; iexists _; isplitr
          swap; · iexact HS
          ipureintro; exact View.read_writes_of_cover _ _ _ _ _ (scover0_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 15
    · rw [show (dat0 V c).leavesExact 2 t = owns (c : Thread nD τ) (ms0_2 t) fullShare ((dat0 V c).after 2 t) from by
        unfold Dat.leavesExact; rw [live0_2 t ((last0_iff t).mpr h1)], after0_2]
      rw [outsAt0_C V c t h0 h1]
      unfold out0_C sout0_C; (try dsimp only)
      rw [PhiS0_castSucc V c t, PhiS0_pos V c _ _ h0]
      iintro ⟨⟨⟨HS, Hoth⟩, Hg⟩, Ho, ⟨%d0, H0⟩, ⟨%d1, H1⟩, ⟨%d2, H2⟩⟩
      iapply ((run0_C c (grid0.coords t) _ _ _ _ _ _ _ _ (fun h => h0 ((first0_iff t).mp h)) ((last0_iff t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idle0_2 t (fun h => h1 ((last0_iff t).mp h))) (noFlush0_2 t (fun h => h1 ((last0_iff t).mp h)))]
      rw [outsAt0_B V c t h0 h1]
      unfold sout0_B; (try dsimp only)
      rw [PhiS0_castSucc V c t, PhiS0_pos V c _ _ h0]
      iintro ⟨⟨⟨HS, Hoth⟩, Hg⟩, Ho, ⟨%d0, H0⟩, ⟨%d1, H1⟩, ⟨%d2, H2⟩⟩
      iapply ((run0_B c (grid0.coords t) _ _ _ _ _ _ _ _ (fun h => h0 ((first0_iff t).mp h)) (fun h => h1 ((last0_iff t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first tile. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last tile the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS, Hoth⟩, Hg⟩
  isplitl [HS Hoth]
  · isplitl [HS]
    · iexists _; iexact HS
    iexact Hoth
  iexact Hg

end Cert.Kernel.Pair

end
-- ==== Proof.K.Base1.lean ====
/-
  One pairwise-distance region (region 1) of the multi-bandwidth kernel sum: the grid is 4 x 4 tiles; at the first tile
  the one-row accumulator is cleared, at every tile five lane-masked partial sums are added onto it, and at the last
  tile the accumulator is copied into the output row. This file fixes the vocabulary the three control cases share:
  the two conditions as functions of the grid coordinates and their closed forms over the sixteen points, where the
  output window is idle, the staging and accumulator memrefs, and the region invariant with the accumulator split off.
-/
import proofs.«152674_j2757369004769_1_alg».proof.Proof.Gen.Kernel.Launch
import proofs.«152674_j2757369004769_1_alg».proof.Proof.Gen.Kernel.Skeleton
import proofs.«152674_j2757369004769_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: both grid coordinates are 0. -/
abbrev first1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem first1_iff : ∀ t : Fin cfg1.N, first1 (grid1.coords t) ↔ t.val = 0 :=
  (by decide +kernel : ∀ t : Fin grid1.N, first1 (grid1.coords t) ↔ t.val = 0)

/-- The body's last condition: both grid coordinates are 3. -/
abbrev last1 (i : grid1.Coords) : Prop := k1_cond2 i = 1#1
/-- It holds at point 15 only. -/
theorem last1_iff : ∀ t : Fin cfg1.N, last1 (grid1.coords t) ↔ t.val = 15 :=
  (by decide +kernel : ∀ t : Fin grid1.N, last1 (grid1.coords t) ↔ t.val = 15)

/-- The two input windows are never idle. -/
theorem live1_0 : ∀ t : Fin cfg1.N, cfg1.idle 0 (grid1.coords t) = false := by decide +kernel
theorem live1_1 : ∀ t : Fin cfg1.N, cfg1.idle 1 (grid1.coords t) = false := by decide +kernel
/-- The output window is idle, and not written back, away from the last point; live at the last point. -/
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-- The output's staging buffer as a view, through which its contents are stated. -/
abbrev VO1 : View sig .tc .vmem S1x128 .f32 := (Memref.whole cc1_stg2_0 : Memref sig .tc .vmem S1x128 .f32).view
/-- Each window's current staging memref at point `t`, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1 : Memref sig .tc .vmem S1x128 .f32 := Memref.whole cc1_scratch0
abbrev VS1 : View sig .tc .vmem S1x128 .f32 := scM1.view

/-- The core's other scoped buffers that are no staging buffer of this region (the other regions' staging buffers and
    accumulators), each at some contents: they ride through the region untouched. -/
def others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The class invariant with the accumulator split off as a memref owned at some contents. -/
theorem PhiA1_eq (c : Dev nD) :
    (Pipeline.ΦA spec1 c : sProp 𝕄)
      = iprop(((∃ d, owns (c : Thread nD τ) scM1 fullShare d) ∗ others1 (F := F) c) ∗ (∃ r, prngReg c r)) := by
  unfold Pipeline.ΦA Pipeline.scopedRest others1
  rw [bigSep_erase (i := cc1_scratch0) (by decide)]
  simp only [scM1, owns_whole]
  rfl

end Cert.Kernel.Pair

end
-- ==== Proof.K.RunA1.lean ====
/-
  Region 1, the first tile: the accumulator is cleared and the five lane-masked partial sums of the tile are added onto it; the output row is left untouched. The body's run on any whole staging memrefs, the pieces the accumulator ends with found by the run.
-/
import proofs.«152674_j2757369004769_1_alg».proof.Proof.K.Base1

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first tile: from the two input blocks `x0`, `x1`, the output buffer at `xi` (handed back untouched) and the
    accumulator at anything, it runs to the continuation with the inputs as they were and the accumulator with its pieces written. -/
noncomputable def run1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first1 i) (hc1 : ¬last1 i)
    (x0 x1 : Vec F S1024x256 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__pair_kernel i arg2 harg2 arg3 harg3 arg4 harg4 arg5 harg5) K } := by
  refine ⟨?_, fun xi E K => ?run⟩
  case run =>
    simp only [cc1__pair_kernel_eq_skeleton]; unfold cc1__pair_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Pair

end
-- ==== Proof.K.RunB1.lean ====
/-
  Region 1, a middle tile: the five lane-masked partial sums of the tile are added onto what the accumulator held; the output row is left untouched.
-/
import proofs.«152674_j2757369004769_1_alg».proof.Proof.K.RunA1

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: from the two input blocks, the output buffer at `xi` (handed back untouched) and the
    accumulator at what the tile before left (`xs`). -/
noncomputable def run1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : ¬last1 i)
    (x0 x1 : Vec F S1024x256 .f32) (xs : Vec F S1x128 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__pair_kernel i arg2 harg2 arg3 harg3 arg4 harg4 arg5 harg5) K } := by
  refine ⟨?_, fun xi E K => ?run⟩
  case run =>
    simp only [cc1__pair_kernel_eq_skeleton]; unfold cc1__pair_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Pair

end
-- ==== Proof.K.RunC1.lean ====
/-
  Region 1, the last tile: the five lane-masked partial sums of the tile are added onto what the accumulator held, and the accumulator is copied into the output row.
-/
import proofs.«152674_j2757369004769_1_alg».proof.Proof.K.RunB1

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last tile: from the two input blocks, the output buffer at anything and the accumulator at what the tile
    before left (`xs`); the output buffer and the accumulator end with their pieces written. -/
noncomputable def run1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) :
    Σ' (LO : List (View.Piece (Elt F) S1x128 .f32)), { LS : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__pair_kernel i arg2 harg2 arg3 harg3 arg4 harg4 arg5 harg5) K } := by
  refine ⟨?_, ?_, fun E K => ?run⟩
  case run =>
    simp only [cc1__pair_kernel_eq_skeleton]; unfold cc1__pair_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Pair

end
-- ==== Proof.K.Points1.lean ====
/-
  Region 1, point by point: what the accumulator and the output's staging buffer hold after each of the sixteen tiles (a recursion on the tile: the first tile's case at 0, the last tile's at 15, a middle tile's between, each over what the tile before left in the accumulator), the region invariant carrying the accumulator at those contents, the proof data over any region-entry contents, and the body's obligation at every tile.
-/
import proofs.«152674_j2757369004769_1_alg».proof.Proof.K.RunC1

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output's staging buffer where the body stores nothing into it: a placeholder nothing consults. -/
def idleOut1 : Vec F S1x128 .f32 := VO1.read (Elt F) (VO1.writes (Elt F) VO1.junk [])

/-! ## What each case leaves -/

theorem scover1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first1 i) (hc1 : ¬last1 i)
    (x0 x1 : Vec F S1024x256 .f32) (y : S1x128.Idx) : ∃ pc ∈ (run1_A c i arg2 harg2 arg3 harg3 arg4 harg4 arg5 harg5 hc0 hc1 x0 x1).1, y ∈ pc.1.set :=
  View.cover_of_tiledL (run1_A c i arg2 harg2 arg3 harg3 arg4 harg4 arg5 harg5 hc0 hc1 x0 x1).1 S1x128.size (by sl_kernel_rfl) y
/-- The accumulator after the first tile. -/
def sout1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first1 i) (hc1 : ¬last1 i)
    (x0 x1 : Vec F S1024x256 .f32) : Vec F S1x128 .f32 :=
  VS1.read (Elt F) (VS1.writes (Elt F) VS1.junk (run1_A c i arg2 harg2 arg3 harg3 arg4 harg4 arg5 harg5 hc0 hc1 x0 x1).1)

theorem scover1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : ¬last1 i)
    (x0 x1 : Vec F S1024x256 .f32) (xs : Vec F S1x128 .f32) (y : S1x128.Idx) : ∃ pc ∈ (run1_B c i arg2 harg2 arg3 harg3 arg4 harg4 arg5 harg5 hc0 hc1 x0 x1 xs).1, y ∈ pc.1.set :=
  View.cover_of_tiledL (run1_B c i arg2 harg2 arg3 harg3 arg4 harg4 arg5 harg5 hc0 hc1 x0 x1 xs).1 S1x128.size (by sl_kernel_rfl) y
/-- The accumulator after a middle tile, over what the tile before left. -/
def sout1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : ¬last1 i)
    (x0 x1 : Vec F S1024x256 .f32) (xs : Vec F S1x128 .f32) : Vec F S1x128 .f32 :=
  VS1.read (Elt F) (VS1.writes (Elt F) VS1.junk (run1_B c i arg2 harg2 arg3 harg3 arg4 harg4 arg5 harg5 hc0 hc1 x0 x1 xs).1)

theorem cover1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) (y : S1x128.Idx) : ∃ pc ∈ (run1_C c i arg2 harg2 arg3 harg3 arg4 harg4 arg5 harg5 hc0 hc1 x0 x1 xs).1, y ∈ pc.1.set :=
  View.cover_of_tiledL (run1_C c i arg2 harg2 arg3 harg3 arg4 harg4 arg5 harg5 hc0 hc1 x0 x1 xs).1 S1x128.size (by sl_kernel_rfl) y
/-- The output's staging buffer after the last tile. -/
def out1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) : Vec F S1x128 .f32 :=
  VO1.read (Elt F) (VO1.writes (Elt F) VO1.junk (run1_C c i arg2 harg2 arg3 harg3 arg4 harg4 arg5 harg5 hc0 hc1 x0 x1 xs).1)
theorem scover1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) (y : S1x128.Idx) : ∃ pc ∈ (run1_C c i arg2 harg2 arg3 harg3 arg4 harg4 arg5 harg5 hc0 hc1 x0 x1 xs).2.1, y ∈ pc.1.set :=
  View.cover_of_tiledL (run1_C c i arg2 harg2 arg3 harg3 arg4 harg4 arg5 harg5 hc0 hc1 x0 x1 xs).2.1 S1x128.size (by sl_kernel_rfl) y
/-- The accumulator after the last tile. -/
def sout1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) : Vec F S1x128 .f32 :=
  VS1.read (Elt F) (VS1.writes (Elt F) VS1.junk (run1_C c i arg2 harg2 arg3 harg3 arg4 harg4 arg5 harg5 hc0 hc1 x0 x1 xs).2.1)

/-! ## The accumulation, point by point -/

/-- What the output's staging buffer and the accumulator hold after the body at position `n`. -/
def outsAt1 (c : Dev nD) : (n : ℕ) → n < cfg1.N → Vec F S1x128 .f32 × Vec F S1x128 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((first1_iff ⟨0, hn⟩).mpr rfl) (fun h => absurd ((last1_iff ⟨0, hn⟩).mp h) (show ¬ (0 : ℕ) = 15 by decide)) (iblk1 V c 0 ⟨0, hn⟩) (iblk1 V c 1 ⟨0, hn⟩))
  | n + 1, hn =>
    if h2 : n + 1 = 15 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((first1_iff ⟨n + 1, hn⟩).mp h) (Nat.succ_ne_zero n)) ((last1_iff ⟨n + 1, hn⟩).mpr h2) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((first1_iff ⟨n + 1, hn⟩).mp h) (Nat.succ_ne_zero n)) ((last1_iff ⟨n + 1, hn⟩).mpr h2) (iblk1 V c 0 ⟨n + 1, hn⟩) (iblk1 V c 1 ⟨n + 1, hn⟩) (outsAt1 c n (Nat.lt_of_succ_lt hn)).2)
    else
      (idleOut1,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((first1_iff ⟨n + 1, hn⟩).mp h) (Nat.succ_ne_zero n)) (fun h => h2 ((last1_iff ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val = 0) (h1 : ¬t.val = 15) :
    outsAt1 V c t.val t.isLt = (idleOut1, sout1_A c (grid1.coords t) (ms1_0 t) (hs1_0 t) (ms1_1 t) (hs1_1 t) (ms1_2 t) (hs1_2 t) scM1 (Memref.isWhole_whole _) ((first1_iff t).mpr h0) (fun h => h1 ((last1_iff t).mp h)) (iblk1 V c 0 t) (iblk1 V c 1 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 15) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((first1_iff t).mp h)) (fun h => h1 ((last1_iff t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 15) :
    outsAt1 V c t.val t.isLt = (out1_C c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first tile the class's; afterwards the accumulator at what the
    tile before left, beside the other scoped buffers and the generator register. -/
def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ others1 (F := F) c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ others1 (F := F) c) ∗ (∃ r, prngReg c r)) := by
  cases n with
  | zero => exact absurd rfl hz
  | succ n => rfl

/-! ## The proof data -/

/-- The proof data of the region on core `c` over the entry contents `V`: after the body at point `t` each input's buffer at
    its block and the output's at `outsAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any tile: the closed forms say which case the tile is in; the invariant hands the body the accumulator at what
    the tile before left (at anything at the first tile) and takes it back at this tile's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val = 0
  · have h1 : ¬t.val = 15 := by omega
    rw [Dat.leavesExact_idle (dat1 V c) 2 t (idle1_2 t (fun h => h1 ((last1_iff t).mp h))) (noFlush1_2 t (fun h => h1 ((last1_iff t).mp h)))]
    rw [outsAt1_A V c t h0 h1]
    unfold sout1_A; (try dsimp only)
    rw [PhiS1_castSucc V c t, PhiS1_zero V c _ _ h0, PhiA1_eq]
    iintro ⟨⟨⟨HS, Hoth⟩, Hg⟩, Ho, ⟨%d0, H0⟩, ⟨%d1, H1⟩, ⟨%d2, H2⟩⟩
    iapply ((run1_A c (grid1.coords t) _ _ _ _ _ _ _ _ ((first1_iff t).mpr h0) (fun h => h1 ((last1_iff t).mp h)) (iblk1 V c 0 t) (iblk1 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hg Hoth]
    · isplitl [HS Hoth]
      · isplitl [HS]
        · unfold owns; iexists _; isplitr
          swap; · iexact HS
          ipureintro; exact View.read_writes_of_cover _ _ _ _ _ (scover1_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 15
    · rw [show (dat1 V c).leavesExact 2 t = owns (c : Thread nD τ) (ms1_2 t) fullShare ((dat1 V c).after 2 t) from by
        unfold Dat.leavesExact; rw [live1_2 t ((last1_iff t).mpr h1)], after1_2]
      rw [outsAt1_C V c t h0 h1]
      unfold out1_C sout1_C; (try dsimp only)
      rw [PhiS1_castSucc V c t, PhiS1_pos V c _ _ h0]
      iintro ⟨⟨⟨HS, Hoth⟩, Hg⟩, Ho, ⟨%d0, H0⟩, ⟨%d1, H1⟩, ⟨%d2, H2⟩⟩
      iapply ((run1_C c (grid1.coords t) _ _ _ _ _ _ _ _ (fun h => h0 ((first1_iff t).mp h)) ((last1_iff t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (scover1_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idle1_2 t (fun h => h1 ((last1_iff t).mp h))) (noFlush1_2 t (fun h => h1 ((last1_iff t).mp h)))]
      rw [outsAt1_B V c t h0 h1]
      unfold sout1_B; (try dsimp only)
      rw [PhiS1_castSucc V c t, PhiS1_pos V c _ _ h0]
      iintro ⟨⟨⟨HS, Hoth⟩, Hg⟩, Ho, ⟨%d0, H0⟩, ⟨%d1, H1⟩, ⟨%d2, H2⟩⟩
      iapply ((run1_B c (grid1.coords t) _ _ _ _ _ _ _ _ (fun h => h0 ((first1_iff t).mp h)) (fun h => h1 ((last1_iff t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (scover1_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-- What the region is entered with (the class invariant) is the invariant before the first tile. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last tile the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS, Hoth⟩, Hg⟩
  isplitl [HS Hoth]
  · isplitl [HS]
    · iexists _; iexact HS
    iexact Hoth
  iexact Hg

end Cert.Kernel.Pair

end
-- ==== Proof.K.Base2.lean ====
/-
  One pairwise-distance region (region 2) of the multi-bandwidth kernel sum: the grid is 4 x 4 tiles; at the first tile
  the one-row accumulator is cleared, at every tile five lane-masked partial sums are added onto it, and at the last
  tile the accumulator is copied into the output row. This file fixes the vocabulary the three control cases share:
  the two conditions as functions of the grid coordinates and their closed forms over the sixteen points, where the
  output window is idle, the staging and accumulator memrefs, and the region invariant with the accumulator split off.
-/
import proofs.«152674_j2757369004769_1_alg».proof.Proof.Gen.Kernel.Launch
import proofs.«152674_j2757369004769_1_alg».proof.Proof.Gen.Kernel.Skeleton
import proofs.«152674_j2757369004769_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: both grid coordinates are 0. -/
abbrev first2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem first2_iff : ∀ t : Fin cfg2.N, first2 (grid2.coords t) ↔ t.val = 0 :=
  (by decide +kernel : ∀ t : Fin grid2.N, first2 (grid2.coords t) ↔ t.val = 0)

/-- The body's last condition: both grid coordinates are 3. -/
abbrev last2 (i : grid2.Coords) : Prop := k2_cond2 i = 1#1
/-- It holds at point 15 only. -/
theorem last2_iff : ∀ t : Fin cfg2.N, last2 (grid2.coords t) ↔ t.val = 15 :=
  (by decide +kernel : ∀ t : Fin grid2.N, last2 (grid2.coords t) ↔ t.val = 15)

/-- The two input windows are never idle. -/
theorem live2_0 : ∀ t : Fin cfg2.N, cfg2.idle 0 (grid2.coords t) = false := by decide +kernel
theorem live2_1 : ∀ t : Fin cfg2.N, cfg2.idle 1 (grid2.coords t) = false := by decide +kernel
/-- The output window is idle, and not written back, away from the last point; live at the last point. -/
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

/-- The output's staging buffer as a view, through which its contents are stated. -/
abbrev VO2 : View sig .tc .vmem S1x128 .f32 := (Memref.whole cc2_stg2_0 : Memref sig .tc .vmem S1x128 .f32).view
/-- Each window's current staging memref at point `t`, and its wholeness. -/
abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
/-- The accumulator: a whole scoped buffer of the kernel's own, carried from point to point. -/
abbrev scM2 : Memref sig .tc .vmem S1x128 .f32 := Memref.whole cc2_scratch0
abbrev VS2 : View sig .tc .vmem S1x128 .f32 := scM2.view

/-- The core's other scoped buffers that are no staging buffer of this region (the other regions' staging buffers and
    accumulators), each at some contents: they ride through the region untouched. -/
def others2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The class invariant with the accumulator split off as a memref owned at some contents. -/
theorem PhiA2_eq (c : Dev nD) :
    (Pipeline.ΦA spec2 c : sProp 𝕄)
      = iprop(((∃ d, owns (c : Thread nD τ) scM2 fullShare d) ∗ others2 (F := F) c) ∗ (∃ r, prngReg c r)) := by
  unfold Pipeline.ΦA Pipeline.scopedRest others2
  rw [bigSep_erase (i := cc2_scratch0) (by decide)]
  simp only [scM2, owns_whole]
  rfl

end Cert.Kernel.Pair

end
-- ==== Proof.K.RunA2.lean ====
/-
  Region 2, the first tile: the accumulator is cleared and the five lane-masked partial sums of the tile are added onto it; the output row is left untouched. The body's run on any whole staging memrefs, the pieces the accumulator ends with found by the run.
-/
import proofs.«152674_j2757369004769_1_alg».proof.Proof.K.Base2

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first tile: from the two input blocks `x0`, `x1`, the output buffer at `xi` (handed back untouched) and the
    accumulator at anything, it runs to the continuation with the inputs as they were and the accumulator with its pieces written. -/
noncomputable def run2_A (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first2 i) (hc1 : ¬last2 i)
    (x0 x1 : Vec F S1024x256 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__pair_kernel i arg2 harg2 arg3 harg3 arg4 harg4 arg5 harg5) K } := by
  refine ⟨?_, fun xi E K => ?run⟩
  case run =>
    simp only [cc2__pair_kernel_eq_skeleton]; unfold cc2__pair_kernel_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Pair

end
-- ==== Proof.K.RunB2.lean ====
/-
  Region 2, a middle tile: the five lane-masked partial sums of the tile are added onto what the accumulator held; the output row is left untouched.
-/
import proofs.«152674_j2757369004769_1_alg».proof.Proof.K.RunA2

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: from the two input blocks, the output buffer at `xi` (handed back untouched) and the
    accumulator at what the tile before left (`xs`). -/
noncomputable def run2_B (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : ¬last2 i)
    (x0 x1 : Vec F S1024x256 .f32) (xs : Vec F S1x128 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__pair_kernel i arg2 harg2 arg3 harg3 arg4 harg4 arg5 harg5) K } := by
  refine ⟨?_, fun xi E K => ?run⟩
  case run =>
    simp only [cc2__pair_kernel_eq_skeleton]; unfold cc2__pair_kernel_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Pair

end
-- ==== Proof.K.RunC2.lean ====
/-
  Region 2, the last tile: the five lane-masked partial sums of the tile are added onto what the accumulator held, and the accumulator is copied into the output row.
-/
import proofs.«152674_j2757369004769_1_alg».proof.Proof.K.RunB2

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last tile: from the two input blocks, the output buffer at anything and the accumulator at what the tile
    before left (`xs`); the output buffer and the accumulator end with their pieces written. -/
noncomputable def run2_C (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) :
    Σ' (LO : List (View.Piece (Elt F) S1x128 .f32)), { LS : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc2__pair_kernel i arg2 harg2 arg3 harg3 arg4 harg4 arg5 harg5) K } := by
  refine ⟨?_, ?_, fun E K => ?run⟩
  case run =>
    simp only [cc2__pair_kernel_eq_skeleton]; unfold cc2__pair_kernel_skel
    simp only [k2_part1_eq_skeleton, k2_part2_eq_skeleton, k2_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Pair

end
-- ==== Proof.K.Points2.lean ====
/-
  Region 2, point by point: what the accumulator and the output's staging buffer hold after each of the sixteen tiles (a recursion on the tile: the first tile's case at 0, the last tile's at 15, a middle tile's between, each over what the tile before left in the accumulator), the region invariant carrying the accumulator at those contents, the proof data over any region-entry contents, and the body's obligation at every tile.
-/
import proofs.«152674_j2757369004769_1_alg».proof.Proof.K.RunC2

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The output's staging buffer where the body stores nothing into it: a placeholder nothing consults. -/
def idleOut2 : Vec F S1x128 .f32 := VO2.read (Elt F) (VO2.writes (Elt F) VO2.junk [])

/-! ## What each case leaves -/

theorem scover2_A (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first2 i) (hc1 : ¬last2 i)
    (x0 x1 : Vec F S1024x256 .f32) (y : S1x128.Idx) : ∃ pc ∈ (run2_A c i arg2 harg2 arg3 harg3 arg4 harg4 arg5 harg5 hc0 hc1 x0 x1).1, y ∈ pc.1.set :=
  View.cover_of_tiledL (run2_A c i arg2 harg2 arg3 harg3 arg4 harg4 arg5 harg5 hc0 hc1 x0 x1).1 S1x128.size (by sl_kernel_rfl) y
/-- The accumulator after the first tile. -/
def sout2_A (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first2 i) (hc1 : ¬last2 i)
    (x0 x1 : Vec F S1024x256 .f32) : Vec F S1x128 .f32 :=
  VS2.read (Elt F) (VS2.writes (Elt F) VS2.junk (run2_A c i arg2 harg2 arg3 harg3 arg4 harg4 arg5 harg5 hc0 hc1 x0 x1).1)

theorem scover2_B (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : ¬last2 i)
    (x0 x1 : Vec F S1024x256 .f32) (xs : Vec F S1x128 .f32) (y : S1x128.Idx) : ∃ pc ∈ (run2_B c i arg2 harg2 arg3 harg3 arg4 harg4 arg5 harg5 hc0 hc1 x0 x1 xs).1, y ∈ pc.1.set :=
  View.cover_of_tiledL (run2_B c i arg2 harg2 arg3 harg3 arg4 harg4 arg5 harg5 hc0 hc1 x0 x1 xs).1 S1x128.size (by sl_kernel_rfl) y
/-- The accumulator after a middle tile, over what the tile before left. -/
def sout2_B (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : ¬last2 i)
    (x0 x1 : Vec F S1024x256 .f32) (xs : Vec F S1x128 .f32) : Vec F S1x128 .f32 :=
  VS2.read (Elt F) (VS2.writes (Elt F) VS2.junk (run2_B c i arg2 harg2 arg3 harg3 arg4 harg4 arg5 harg5 hc0 hc1 x0 x1 xs).1)

theorem cover2_C (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) (y : S1x128.Idx) : ∃ pc ∈ (run2_C c i arg2 harg2 arg3 harg3 arg4 harg4 arg5 harg5 hc0 hc1 x0 x1 xs).1, y ∈ pc.1.set :=
  View.cover_of_tiledL (run2_C c i arg2 harg2 arg3 harg3 arg4 harg4 arg5 harg5 hc0 hc1 x0 x1 xs).1 S1x128.size (by sl_kernel_rfl) y
/-- The output's staging buffer after the last tile. -/
def out2_C (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) : Vec F S1x128 .f32 :=
  VO2.read (Elt F) (VO2.writes (Elt F) VO2.junk (run2_C c i arg2 harg2 arg3 harg3 arg4 harg4 arg5 harg5 hc0 hc1 x0 x1 xs).1)
theorem scover2_C (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) (y : S1x128.Idx) : ∃ pc ∈ (run2_C c i arg2 harg2 arg3 harg3 arg4 harg4 arg5 harg5 hc0 hc1 x0 x1 xs).2.1, y ∈ pc.1.set :=
  View.cover_of_tiledL (run2_C c i arg2 harg2 arg3 harg3 arg4 harg4 arg5 harg5 hc0 hc1 x0 x1 xs).2.1 S1x128.size (by sl_kernel_rfl) y
/-- The accumulator after the last tile. -/
def sout2_C (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) : Vec F S1x128 .f32 :=
  VS2.read (Elt F) (VS2.writes (Elt F) VS2.junk (run2_C c i arg2 harg2 arg3 harg3 arg4 harg4 arg5 harg5 hc0 hc1 x0 x1 xs).2.1)

/-! ## The accumulation, point by point -/

/-- What the output's staging buffer and the accumulator hold after the body at position `n`. -/
def outsAt2 (c : Dev nD) : (n : ℕ) → n < cfg2.N → Vec F S1x128 .f32 × Vec F S1x128 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((first2_iff ⟨0, hn⟩).mpr rfl) (fun h => absurd ((last2_iff ⟨0, hn⟩).mp h) (show ¬ (0 : ℕ) = 15 by decide)) (iblk2 V c 0 ⟨0, hn⟩) (iblk2 V c 1 ⟨0, hn⟩))
  | n + 1, hn =>
    if h2 : n + 1 = 15 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((first2_iff ⟨n + 1, hn⟩).mp h) (Nat.succ_ne_zero n)) ((last2_iff ⟨n + 1, hn⟩).mpr h2) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((first2_iff ⟨n + 1, hn⟩).mp h) (Nat.succ_ne_zero n)) ((last2_iff ⟨n + 1, hn⟩).mpr h2) (iblk2 V c 0 ⟨n + 1, hn⟩) (iblk2 V c 1 ⟨n + 1, hn⟩) (outsAt2 c n (Nat.lt_of_succ_lt hn)).2)
    else
      (idleOut2,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((first2_iff ⟨n + 1, hn⟩).mp h) (Nat.succ_ne_zero n)) (fun h => h2 ((last2_iff ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) (h1 : ¬t.val = 15) :
    outsAt2 V c t.val t.isLt = (idleOut2, sout2_A c (grid2.coords t) (ms2_0 t) (hs2_0 t) (ms2_1 t) (hs2_1 t) (ms2_2 t) (hs2_2 t) scM2 (Memref.isWhole_whole _) ((first2_iff t).mpr h0) (fun h => h1 ((last2_iff t).mp h)) (iblk2 V c 0 t) (iblk2 V c 1 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 15) :
    outsAt2 V c t.val t.isLt = (idleOut2, sout2_B c (grid2.coords t) (ms2_0 t) (hs2_0 t) (ms2_1 t) (hs2_1 t) (ms2_2 t) (hs2_2 t) scM2 (Memref.isWhole_whole _) (fun h => h0 ((first2_iff t).mp h)) (fun h => h1 ((last2_iff t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 15) :
    outsAt2 V c t.val t.isLt = (out2_C c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first tile the class's; afterwards the accumulator at what the
    tile before left, beside the other scoped buffers and the generator register. -/
def PhiS2 (c : Dev nD) : (n : ℕ) → n ≤ cfg2.N → sProp 𝕄
  | 0, _ => Pipeline.ΦA spec2 c
  | n + 1, hn => iprop((owns (c : Thread nD τ) scM2 fullShare ((outsAt2 V c n hn).2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare ((outsAt2 V c n hn).2) ∗ others2 (F := F) c) ∗ (∃ r, prngReg c r)) := rfl
theorem PhiS2_pos (c : Dev nD) (n : ℕ) (h : n ≤ cfg2.N) (hz : n ≠ 0) :
    PhiS2 V c n h = iprop((owns (c : Thread nD τ) scM2 fullShare ((outsAt2 V c (n - 1) (by omega)).2) ∗ others2 (F := F) c) ∗ (∃ r, prngReg c r)) := by
  cases n with
  | zero => exact absurd rfl hz
  | succ n => rfl

/-! ## The proof data -/

/-- The proof data of the region on core `c` over the entry contents `V`: after the body at point `t` each input's buffer at
    its block and the output's at `outsAt`; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any tile: the closed forms say which case the tile is in; the invariant hands the body the accumulator at what
    the tile before left (at anything at the first tile) and takes it back at this tile's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val = 0
  · have h1 : ¬t.val = 15 := by omega
    rw [Dat.leavesExact_idle (dat2 V c) 2 t (idle2_2 t (fun h => h1 ((last2_iff t).mp h))) (noFlush2_2 t (fun h => h1 ((last2_iff t).mp h)))]
    rw [outsAt2_A V c t h0 h1]
    unfold sout2_A; (try dsimp only)
    rw [PhiS2_castSucc V c t, PhiS2_zero V c _ _ h0, PhiA2_eq]
    iintro ⟨⟨⟨HS, Hoth⟩, Hg⟩, Ho, ⟨%d0, H0⟩, ⟨%d1, H1⟩, ⟨%d2, H2⟩⟩
    iapply ((run2_A c (grid2.coords t) _ _ _ _ _ _ _ _ ((first2_iff t).mpr h0) (fun h => h1 ((last2_iff t).mp h)) (iblk2 V c 0 t) (iblk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hg Hoth]
    · isplitl [HS Hoth]
      · isplitl [HS]
        · unfold owns; iexists _; isplitr
          swap; · iexact HS
          ipureintro; exact View.read_writes_of_cover _ _ _ _ _ (scover2_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 15
    · rw [show (dat2 V c).leavesExact 2 t = owns (c : Thread nD τ) (ms2_2 t) fullShare ((dat2 V c).after 2 t) from by
        unfold Dat.leavesExact; rw [live2_2 t ((last2_iff t).mpr h1)], after2_2]
      rw [outsAt2_C V c t h0 h1]
      unfold out2_C sout2_C; (try dsimp only)
      rw [PhiS2_castSucc V c t, PhiS2_pos V c _ _ h0]
      iintro ⟨⟨⟨HS, Hoth⟩, Hg⟩, Ho, ⟨%d0, H0⟩, ⟨%d1, H1⟩, ⟨%d2, H2⟩⟩
      iapply ((run2_C c (grid2.coords t) _ _ _ _ _ _ _ _ (fun h => h0 ((first2_iff t).mp h)) ((last2_iff t).mpr h1) (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (scover2_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idle2_2 t (fun h => h1 ((last2_iff t).mp h))) (noFlush2_2 t (fun h => h1 ((last2_iff t).mp h)))]
      rw [outsAt2_B V c t h0 h1]
      unfold sout2_B; (try dsimp only)
      rw [PhiS2_castSucc V c t, PhiS2_pos V c _ _ h0]
      iintro ⟨⟨⟨HS, Hoth⟩, Hg⟩, Ho, ⟨%d0, H0⟩, ⟨%d1, H1⟩, ⟨%d2, H2⟩⟩
      iapply ((run2_B c (grid2.coords t) _ _ _ _ _ _ _ _ (fun h => h0 ((first2_iff t).mp h)) (fun h => h1 ((last2_iff t).mp h)) (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (scover2_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every tile. -/
theorem body_obligation2 (c : Dev nD) : BodyObligation (dat2 (F := F) V c) (defs₀ (F := F)) Variants.none () Set.univ := fun t => by
  rw [bigSep_W2, bigSep_W2]
  exact sound_body2 V c t

/-- What the region is entered with (the class invariant) is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last tile the invariant gives the class invariant back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS, Hoth⟩, Hg⟩
  isplitl [HS Hoth]
  · isplitl [HS]
    · iexists _; iexact HS
    iexact Hoth
  iexact Hg

end Cert.Kernel.Pair

end
-- ==== Proof.K.Regions.lean ====
/-
  The whole program as a run: three pairwise-distance regions, each followed by the host lines that slice its output row to
  its first five lanes, then the host lines that total the lanes, scale, combine and take the square root. The contents of
  every unscoped buffer between two items are named by a fold through @main; each region is entered from the buffers at one
  boundary and left at the next, its output array at what the pipeline leaves and everything else as it was. Regions 0 and 1
  read ONE array through both input windows: its buffer is dealt between the windows, half a share each, at the entry and put
  back whole at the exit. The run ends with every unscoped buffer at the last boundary's contents.
-/
import proofs.«152674_j2757369004769_1_alg».proof.Proof.K.Points0
import proofs.«152674_j2757369004769_1_alg».proof.Proof.K.Points1
import proofs.«152674_j2757369004769_1_alg».proof.Proof.K.Points2
import proofs.«152674_j2757369004769_1_alg».proof.Proof.Gen.Kernel.Regions
import Idealize.ShloMosaic.Lib.Pipeline.RegionsLoop
import Idealize.ShloMosaic.Lib.Pipeline.FrameSuffix

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares
variable (V : (c : Dev nD) → (b : Ref sig .tc) → Buf (Elt F) ((c : Thread nD τ).loc b))

theorem arrays0_eq (c : Dev nD) (F0 : (w : Fin cfg0.W) → Buf (Elt F) ((cfg0.win w).arr.view.loc (c : Thread nD τ))) :
    ((dat0 V c).arrays F0 : sProp 𝕄)
      = iprop((((c : Thread nD τ).loc main_arg0) ↦{fullShare.left} F0 0) ∗ (((c : Thread nD τ).loc main_arg0) ↦{fullShare.right} F0 1)
          ∗ (((c : Thread nD τ).loc main_call0_v0) ↦{fullShare} F0 2)) := by
  unfold Dat.arrays
  rw [bigSep_W0]
  rw [(arr_whole0 0).set_eq_univ, (arr_whole0 2).set_eq_univ]
  rfl

theorem arrBufs0_eq (c : Dev nD) (X : (b : Ref sig .tc) → Buf (Elt F) ((c : Thread nD τ).loc b)) :
    (Pipeline.arrBufs spec0 c X : sProp 𝕄)
      = iprop((((c : Thread nD τ).loc main_arg0) ↦{fullShare} X main_arg0) ∗ (((c : Thread nD τ).loc main_call0_v0) ↦{fullShare} X main_call0_v0)) := by
  unfold Pipeline.arrBufs
  rw [show Finset.univ.image (Pipeline.arrRef spec0) = {main_arg0, main_call0_v0} from by decide]
  rw [bigSep_insert (by decide), bigSep_singleton]
  rfl

/-- At the region's entry: the two buffers behind the three windows' arrays, each whole, are the proof data's arrays —
    the one input array both input windows read dealt between them, half a share each. -/
theorem split0 (c : Dev nD) :
    (Pipeline.arrBufs spec0 c (V c) : sProp 𝕄) ⊢ (dat0 V c).arrays ((dat0 V c).arrAt · 0) := by
  rw [arrays0_eq, arrBufs0_eq]
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-- At the region's exit: the arrays at what the pipeline leaves are the two buffers whole again, the input array as it was
    and the output array at its final contents. -/
theorem join0 (c : Dev nD) (X : (b : Ref sig .tc) → Buf (Elt F) ((c : Thread nD τ).loc b))
    (h0 : X main_arg0 = V c main_arg0) (h2 : X main_call0_v0 = (dat0 V c).arrAt 2 cfg0.N) :
    ((dat0 V c).arrays ((dat0 V c).arrAt · cfg0.N) : sProp 𝕄) ⊢ Pipeline.arrBufs spec0 c X := by
  rw [arrays0_eq, arrBufs0_eq, (dat0 V c).arrAt_in 0 rfl, (dat0 V c).arrAt_in 1 rfl, h0, h2]
  iintro ⟨Hl, Hr, Ho⟩
  isplitl [Hl Hr]
  · iapply (pointsTo_share (PosShare.mem_left_op_right fullShare)).2
    isplitl [Hl]; · iexact Hl
    iexact Hr
  iexact Ho

theorem arrays1_eq (c : Dev nD) (F0 : (w : Fin cfg1.W) → Buf (Elt F) ((cfg1.win w).arr.view.loc (c : Thread nD τ))) :
    ((dat1 V c).arrays F0 : sProp 𝕄)
      = iprop((((c : Thread nD τ).loc main_arg1) ↦{fullShare.left} F0 0) ∗ (((c : Thread nD τ).loc main_arg1) ↦{fullShare.right} F0 1)
          ∗ (((c : Thread nD τ).loc main_call1_v0) ↦{fullShare} F0 2)) := by
  unfold Dat.arrays
  rw [bigSep_W1]
  rw [(arr_whole1 0).set_eq_univ, (arr_whole1 2).set_eq_univ]
  rfl

theorem arrBufs1_eq (c : Dev nD) (X : (b : Ref sig .tc) → Buf (Elt F) ((c : Thread nD τ).loc b)) :
    (Pipeline.arrBufs spec1 c X : sProp 𝕄)
      = iprop((((c : Thread nD τ).loc main_arg1) ↦{fullShare} X main_arg1) ∗ (((c : Thread nD τ).loc main_call1_v0) ↦{fullShare} X main_call1_v0)) := by
  unfold Pipeline.arrBufs
  rw [show Finset.univ.image (Pipeline.arrRef spec1) = {main_arg1, main_call1_v0} from by decide]
  rw [bigSep_insert (by decide), bigSep_singleton]
  rfl

/-- At the region's entry: the two buffers behind the three windows' arrays, each whole, are the proof data's arrays —
    the one input array both input windows read dealt between them, half a share each. -/
theorem split1 (c : Dev nD) :
    (Pipeline.arrBufs spec1 c (V c) : sProp 𝕄) ⊢ (dat1 V c).arrays ((dat1 V c).arrAt · 0) := by
  rw [arrays1_eq, arrBufs1_eq]
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-- At the region's exit: the arrays at what the pipeline leaves are the two buffers whole again, the input array as it was
    and the output array at its final contents. -/
theorem join1 (c : Dev nD) (X : (b : Ref sig .tc) → Buf (Elt F) ((c : Thread nD τ).loc b))
    (h0 : X main_arg1 = V c main_arg1) (h2 : X main_call1_v0 = (dat1 V c).arrAt 2 cfg1.N) :
    ((dat1 V c).arrays ((dat1 V c).arrAt · cfg1.N) : sProp 𝕄) ⊢ Pipeline.arrBufs spec1 c X := by
  rw [arrays1_eq, arrBufs1_eq, (dat1 V c).arrAt_in 0 rfl, (dat1 V c).arrAt_in 1 rfl, h0, h2]
  iintro ⟨Hl, Hr, Ho⟩
  isplitl [Hl Hr]
  · iapply (pointsTo_share (PosShare.mem_left_op_right fullShare)).2
    isplitl [Hl]; · iexact Hl
    iexact Hr
  iexact Ho

end Shares

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its output array at what the pipeline leaves, every other buffer as entered. -/
def W1 (c : Dev nD) : Valuation τ sig (Elt F) :=
  Function.update (W0 m ρ c) main_call0_v0 ((dat0 (V0 m ρ) c).arrAt 2 cfg0.N)
abbrev V1 : (c : Dev nD) → (b : Ref sig .tc) → Buf (Elt F) ((c : Thread nD τ).loc b) := fun c b => W1 m ρ c b
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
def W3 (c : Dev nD) : Valuation τ sig (Elt F) :=
  Function.update (W2 m ρ c) main_call1_v0 ((dat1 (V2 m ρ) c).arrAt 2 cfg1.N)
abbrev V3 : (c : Dev nD) → (b : Ref sig .tc) → Buf (Elt F) ((c : Thread nD τ).loc b) := fun c b => W3 m ρ c b
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Function.update (W4 m ρ c) main_call2_v0 ((dat2 (V4 m ρ) c).arrAt 2 cfg2.N)
abbrev V5 : (c : Dev nD) → (b : Ref sig .tc) → Buf (Elt F) ((c : Thread nD τ).loc b) := fun c b => W5 m ρ c b
abbrev W6 : Dev nD → Valuation τ sig (Elt F) := fun c => StableHlo.after hostOps3 (W5 m ρ c)
abbrev W7 : Dev nD → Valuation τ sig (Elt F) := fun c => StableHlo.after hostOps3_1 (W6 m ρ c)

theorem W1_out (c : Dev nD) : V1 m ρ c main_call0_v0 = (dat0 (V0 m ρ) c).arrAt 2 cfg0.N := by
  show W1 m ρ c _ = _
  unfold W1; exact Function.update_self ..
theorem W1_of_ne (c : Dev nD) (b : Ref sig .tc) (h : b ≠ main_call0_v0) : V1 m ρ c b = V0 m ρ c b := by
  show W1 m ρ c _ = W0 m ρ c _
  unfold W1; exact Function.update_of_ne (StableHlo.devRef_ne_of_ne h : (Proc.devRef .tc b : DevRef τ sig) ≠ Proc.devRef .tc main_call0_v0) ..
theorem W1_in (c : Dev nD) : V1 m ρ c main_arg0 = V0 m ρ c main_arg0 := W1_of_ne m ρ c main_arg0 (by decide)
theorem hrest0 (c : Dev nD) : ∀ b, b ∉ Finset.univ.image (Pipeline.arrRef spec0) → V1 m ρ c b = V0 m ρ c b :=
  fun b hb => W1_of_ne m ρ c b fun e => hb (Finset.mem_image.mpr ⟨2, Finset.mem_univ _, e.symm⟩)

theorem W3_out (c : Dev nD) : V3 m ρ c main_call1_v0 = (dat1 (V2 m ρ) c).arrAt 2 cfg1.N := by
  show W3 m ρ c _ = _
  unfold W3; exact Function.update_self ..
theorem W3_of_ne (c : Dev nD) (b : Ref sig .tc) (h : b ≠ main_call1_v0) : V3 m ρ c b = V2 m ρ c b := by
  show W3 m ρ c _ = W2 m ρ c _
  unfold W3; exact Function.update_of_ne (StableHlo.devRef_ne_of_ne h : (Proc.devRef .tc b : DevRef τ sig) ≠ Proc.devRef .tc main_call1_v0) ..
theorem W3_in (c : Dev nD) : V3 m ρ c main_arg1 = V2 m ρ c main_arg1 := W3_of_ne m ρ c main_arg1 (by decide)
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

theorem W5_out (c : Dev nD) : V5 m ρ c main_call2_v0 = (dat2 (V4 m ρ) c).arrAt 2 cfg2.N := by
  show W5 m ρ c _ = _
  unfold W5; exact Function.update_self ..
theorem W5_of_ne (c : Dev nD) (b : Ref sig .tc) (h : b ≠ main_call2_v0) : V5 m ρ c b = V4 m ρ c b := by
  show W5 m ρ c _ = W4 m ρ c _
  unfold W5; exact Function.update_of_ne (StableHlo.devRef_ne_of_ne h : (Proc.devRef .tc b : DevRef τ sig) ≠ Proc.devRef .tc main_call2_v0) ..
theorem hrest2 (c : Dev nD) : ∀ b, b ∉ Finset.univ.image (Pipeline.arrRef spec2) → V5 m ρ c b = V4 m ρ c b :=
  fun b hb => W5_of_ne m ρ c b fun e => hb (Finset.mem_image.mpr ⟨2, Finset.mem_univ _, e.symm⟩)
theorem hF2 (c : Dev nD) (w : Fin cfg2.W) : (dat2 (V4 m ρ) c).arrAt w cfg2.N = V5 m ρ c (Pipeline.arrRef spec2 w) :=
  match w with
  | ⟨0, _⟩ => ((dat2 (V4 m ρ) c).arrAt_in 0 rfl _).trans (W5_of_ne m ρ c main_arg0 (by decide)).symm
  | ⟨1, _⟩ => ((dat2 (V4 m ρ) c).arrAt_in 1 rfl _).trans (W5_of_ne m ρ c main_arg1 (by decide)).symm
  | ⟨2, _⟩ => (W5_out m ρ c).symm

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W0`, left at `W1`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit : (unscopedBufs c (V0 m ρ c) : sProp 𝕄) ⊢ iprop((pdats m ρ 0 c).arrays ((pdats m ρ 0 c).arrAt · 0) ∗ Pipeline.unscopedRest spec0 c (V0 m ρ c)) := by
      rw [Pipeline.unscopedBufs_split₀ cfgs 0 winFacts₀0.arr_unscoped c (V0 m ρ c)]
      exact sep_mono (split0 (V0 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V0 m ρ c)) ⊢ (unscopedBufs c (V1 m ρ c) : sProp 𝕄) := by
      rw [Pipeline.unscopedBufs_split₀ cfgs 0 winFacts₀0.arr_unscoped c (V1 m ρ c)]
      refine sep_mono (join0 (V0 m ρ) c (V1 m ρ c) (W1_in m ρ c) (W1_out m ρ c)) (Entails.of_eq ?_)
      unfold Pipeline.unscopedRest
      exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄) ⊢ iprop((pdats m ρ 1 c).arrays ((pdats m ρ 1 c).arrAt · 0) ∗ Pipeline.unscopedRest spec1 c (V2 m ρ c)) := by
      rw [Pipeline.unscopedBufs_split₀ cfgs 1 winFacts₀1.arr_unscoped c (V2 m ρ c)]
      exact sep_mono (split1 (V2 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c)) ⊢ (unscopedBufs c (V3 m ρ c) : sProp 𝕄) := by
      rw [Pipeline.unscopedBufs_split₀ cfgs 1 winFacts₀1.arr_unscoped c (V3 m ρ c)]
      refine sep_mono (join1 (V2 m ρ) c (V3 m ρ c) (W3_in m ρ c) (W3_out m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. -/
def reg2 : Pipeline.RegionSeg (pcfgs (F := F)) adm (pdats m ρ) () defs₀ 𝒱₀ L lv 2 where
  win := launch2.win.to₀
  block_pos := block_pos2
  stage_whole := stage_whole2
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .host (hseg hostOps3_1 hostOps3_1_sub hostOps3_1_fresh (W6 m ρ)) ]

set_option backward.isDefEq.respectTransparency.types false in
/-- THE RUN: from any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Pair

end
-- ==== Proof.K.Keep.lean ====
/-
  No item of the program writes an argument array: the host stretches write their own results, a region changes only its
  output array. So both arguments hold their launch contents at every boundary, and the run's frame follows.
-/
import proofs.«152674_j2757369004769_1_alg».proof.Proof.K.Regions
import Idealize.ShloMosaic.Lib.StableHlo.Run

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_of (c : Dev nD) (r : Ref sig .tc) (h : r ∉ hostOps1_W) : W2 m ρ c r = W1 m ρ c r :=
  StableHlo.after_of_writes_sub hostOps1 _ hostOps1_writes h
theorem W4_of (c : Dev nD) (r : Ref sig .tc) (h : r ∉ hostOps2_W) : W4 m ρ c r = W3 m ρ c r :=
  StableHlo.after_of_writes_sub hostOps2 _ hostOps2_writes h
theorem W6_of (c : Dev nD) (r : Ref sig .tc) (h : r ∉ hostOps3_W) : W6 m ρ c r = W5 m ρ c r :=
  StableHlo.after_of_writes_sub hostOps3 _ hostOps3_writes h
theorem W7_of (c : Dev nD) (r : Ref sig .tc) (h : r ∉ hostOps3_1_W) : W7 m ρ c r = W6 m ρ c r :=
  StableHlo.after_of_writes_sub hostOps3_1 _ hostOps3_1_writes h

/-- An array no item writes holds its launch contents at every boundary. -/
theorem keep (c : Dev nD) (r : Ref sig .tc) (h1 : r ∉ hostOps1_W) (h2 : r ∉ hostOps2_W) (h3 : r ∉ hostOps3_W) (h4 : r ∉ hostOps3_1_W)
    (n0 : r ≠ main_call0_v0) (n1 : r ≠ main_call1_v0) (n2 : r ≠ main_call2_v0) :
    W7 m ρ c r = m ((c : Thread nD τ).loc r) ∧ W4 m ρ c r = m ((c : Thread nD τ).loc r) ∧ W2 m ρ c r = m ((c : Thread nD τ).loc r) := by
  have e1 : W1 m ρ c r = m ((c : Thread nD τ).loc r) := W1_of_ne m ρ c r n0
  have e2 : W2 m ρ c r = m ((c : Thread nD τ).loc r) := (W2_of m ρ c r h1).trans e1
  have e3 : W3 m ρ c r = m ((c : Thread nD τ).loc r) := (W3_of_ne m ρ c r n1).trans e2
  have e4 : W4 m ρ c r = m ((c : Thread nD τ).loc r) := (W4_of m ρ c r h2).trans e3
  have e5 : W5 m ρ c r = m ((c : Thread nD τ).loc r) := (W5_of_ne m ρ c r n2).trans e4
  have e6 : W6 m ρ c r = m ((c : Thread nD τ).loc r) := (W6_of m ρ c r h3).trans e5
  exact ⟨(W7_of m ρ c r h4).trans e6, e4, e2⟩

theorem W7_arg0 (c : Dev nD) : W7 m ρ c main_arg0 = m ((c : Thread nD τ).loc main_arg0) :=
  (keep m ρ c main_arg0 (by decide) (by decide) (by decide) (by decide) (by decide) (by decide) (by decide)).1
theorem W7_arg1 (c : Dev nD) : W7 m ρ c main_arg1 = m ((c : Thread nD τ).loc main_arg1) :=
  (keep m ρ c main_arg1 (by decide) (by decide) (by decide) (by decide) (by decide) (by decide) (by decide)).1

/-- THE FRAME: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W7_arg0 m ρ c),
    (h c _ (mem_uc main_arg1 (by decide))).trans (W7_arg1 m ρ c)⟩) (run_all m ρ)

end Cert.Kernel.Pair

end
-- ==== Proof.KI.Base0.lean ====
/-
  One pairwise-distance region (region 0) of the multi-bandwidth kernel sum: the grid is 4 x 4 tiles; at the first tile
  the one-row accumulator is cleared, at every tile five lane-masked partial sums are added onto it, and at the last
  tile the accumulator is copied into the output row. This file fixes the vocabulary the three control cases share:
  the two conditions as functions of the grid coordinates and their closed forms over the sixteen points, where the
  output window is idle, the staging and accumulator memrefs, and the region invariant with the accumulator split off.
-/
import proofs.«152674_j2757369004769_1_alg».proof.Proof.Gen.KernelIdeal.Launch
import proofs.«152674_j2757369004769_1_alg».proof.Proof.Gen.KernelIdeal.Skeleton
import proofs.«152674_j2757369004769_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: both grid coordinates are 0. -/
abbrev first0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem first0_iff : ∀ t : Fin cfg0.N, first0 (grid0.coords t) ↔ t.val = 0 :=
  (by decide +kernel : ∀ t : Fin grid0.N, first0 (grid0.coords t) ↔ t.val = 0)

/-- The body's last condition: both grid coordinates are 3. -/
abbrev last0 (i : grid0.Coords) : Prop := k0_cond2 i = 1#1
/-- It holds at point 15 only. -/
theorem last0_iff : ∀ t : Fin cfg0.N, last0 (grid0.coords t) ↔ t.val = 15 :=
  (by decide +kernel : ∀ t : Fin grid0.N, last0 (grid0.coords t) ↔ t.val = 15)

/-- The two input windows are never idle. -/
theorem live0_0 : ∀ t : Fin cfg0.N, cfg0.idle 0 (grid0.coords t) = false := by decide +kernel
theorem live0_1 : ∀ t : Fin cfg0.N, cfg0.idle 1 (grid0.coords t) = false := by decide +kernel
/-- The output window is idle, and not written back, away from the last point; live at the last point. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-- The output's staging buffer as a view, through which its contents are stated. -/
abbrev VO0 : View sig .tc .vmem S1x128 .f32 := (Memref.whole cc0_stg2_0 : Memref sig .tc .vmem S1x128 .f32).view
/-- Each window's current staging memref at point `t`, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0 : Memref sig .tc .vmem S1x128 .f32 := Memref.whole cc0_scratch0
abbrev VS0 : View sig .tc .vmem S1x128 .f32 := scM0.view

/-- The core's other scoped buffers that are no staging buffer of this region (the other regions' staging buffers and
    accumulators), each at some contents: they ride through the region untouched. -/
def others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The class invariant with the accumulator split off as a memref owned at some contents. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA Pipeline.scopedRest others0
  rw [bigSep_erase (i := cc0_scratch0) (by decide)]
  simp only [scM0, owns_whole]
  rfl

end Cert.KernelIdeal.Pair

end
-- ==== Proof.KI.RunA0.lean ====
/-
  Region 0, the first tile: the accumulator is cleared and the five lane-masked partial sums of the tile are added onto it; the output row is left untouched. The body's run on any whole staging memrefs, the pieces the accumulator ends with found by the run.
-/
import proofs.«152674_j2757369004769_1_alg».proof.Proof.KI.Base0

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first tile: from the two input blocks `x0`, `x1`, the output buffer at `xi` (handed back untouched) and the
    accumulator at anything, it runs to the continuation with the inputs as they were and the accumulator with its pieces written. -/
noncomputable def run0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first0 i) (hc1 : ¬last0 i)
    (x0 x1 : Vec F S1024x256 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__pair_kernel i arg2 harg2 arg3 harg3 arg4 harg4 arg5 harg5) K } := by
  refine ⟨?_, fun xi E K => ?run⟩
  case run =>
    simp only [cc0__pair_kernel_eq_skeleton]; unfold cc0__pair_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Pair

end
-- ==== Proof.KI.RunB0.lean ====
/-
  Region 0, a middle tile: the five lane-masked partial sums of the tile are added onto what the accumulator held; the output row is left untouched.
-/
import proofs.«152674_j2757369004769_1_alg».proof.Proof.KI.RunA0

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: from the two input blocks, the output buffer at `xi` (handed back untouched) and the
    accumulator at what the tile before left (`xs`). -/
noncomputable def run0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : ¬last0 i)
    (x0 x1 : Vec F S1024x256 .f32) (xs : Vec F S1x128 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__pair_kernel i arg2 harg2 arg3 harg3 arg4 harg4 arg5 harg5) K } := by
  refine ⟨?_, fun xi E K => ?run⟩
  case run =>
    simp only [cc0__pair_kernel_eq_skeleton]; unfold cc0__pair_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Pair

end
-- ==== Proof.KI.RunC0.lean ====
/-
  Region 0, the last tile: the five lane-masked partial sums of the tile are added onto what the accumulator held, and the accumulator is copied into the output row.
-/
import proofs.«152674_j2757369004769_1_alg».proof.Proof.KI.RunB0

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last tile: from the two input blocks, the output buffer at anything and the accumulator at what the tile
    before left (`xs`); the output buffer and the accumulator end with their pieces written. -/
noncomputable def run0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) :
    Σ' (LO : List (View.Piece (Elt F) S1x128 .f32)), { LS : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__pair_kernel i arg2 harg2 arg3 harg3 arg4 harg4 arg5 harg5) K } := by
  refine ⟨?_, ?_, fun E K => ?run⟩
  case run =>
    simp only [cc0__pair_kernel_eq_skeleton]; unfold cc0__pair_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Pair

end
-- ==== Proof.KI.Points0.lean ====
/-
  Region 0, point by point: what the accumulator and the output's staging buffer hold after each of the sixteen tiles (a recursion on the tile: the first tile's case at 0, the last tile's at 15, a middle tile's between, each over what the tile before left in the accumulator), the region invariant carrying the accumulator at those contents, the proof data over any region-entry contents, and the body's obligation at every tile.
-/
import proofs.«152674_j2757369004769_1_alg».proof.Proof.KI.RunC0

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output's staging buffer where the body stores nothing into it: a placeholder nothing consults. -/
def idleOut0 : Vec F S1x128 .f32 := VO0.read (Elt F) (VO0.writes (Elt F) VO0.junk [])

/-! ## What each case leaves -/

theorem scover0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first0 i) (hc1 : ¬last0 i)
    (x0 x1 : Vec F S1024x256 .f32) (y : S1x128.Idx) : ∃ pc ∈ (run0_A c i arg2 harg2 arg3 harg3 arg4 harg4 arg5 harg5 hc0 hc1 x0 x1).1, y ∈ pc.1.set :=
  View.cover_of_tiledL (run0_A c i arg2 harg2 arg3 harg3 arg4 harg4 arg5 harg5 hc0 hc1 x0 x1).1 S1x128.size (by sl_kernel_rfl) y
/-- The accumulator after the first tile. -/
def sout0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first0 i) (hc1 : ¬last0 i)
    (x0 x1 : Vec F S1024x256 .f32) : Vec F S1x128 .f32 :=
  VS0.read (Elt F) (VS0.writes (Elt F) VS0.junk (run0_A c i arg2 harg2 arg3 harg3 arg4 harg4 arg5 harg5 hc0 hc1 x0 x1).1)

theorem scover0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : ¬last0 i)
    (x0 x1 : Vec F S1024x256 .f32) (xs : Vec F S1x128 .f32) (y : S1x128.Idx) : ∃ pc ∈ (run0_B c i arg2 harg2 arg3 harg3 arg4 harg4 arg5 harg5 hc0 hc1 x0 x1 xs).1, y ∈ pc.1.set :=
  View.cover_of_tiledL (run0_B c i arg2 harg2 arg3 harg3 arg4 harg4 arg5 harg5 hc0 hc1 x0 x1 xs).1 S1x128.size (by sl_kernel_rfl) y
/-- The accumulator after a middle tile, over what the tile before left. -/
def sout0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : ¬last0 i)
    (x0 x1 : Vec F S1024x256 .f32) (xs : Vec F S1x128 .f32) : Vec F S1x128 .f32 :=
  VS0.read (Elt F) (VS0.writes (Elt F) VS0.junk (run0_B c i arg2 harg2 arg3 harg3 arg4 harg4 arg5 harg5 hc0 hc1 x0 x1 xs).1)

theorem cover0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) (y : S1x128.Idx) : ∃ pc ∈ (run0_C c i arg2 harg2 arg3 harg3 arg4 harg4 arg5 harg5 hc0 hc1 x0 x1 xs).1, y ∈ pc.1.set :=
  View.cover_of_tiledL (run0_C c i arg2 harg2 arg3 harg3 arg4 harg4 arg5 harg5 hc0 hc1 x0 x1 xs).1 S1x128.size (by sl_kernel_rfl) y
/-- The output's staging buffer after the last tile. -/
def out0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) : Vec F S1x128 .f32 :=
  VO0.read (Elt F) (VO0.writes (Elt F) VO0.junk (run0_C c i arg2 harg2 arg3 harg3 arg4 harg4 arg5 harg5 hc0 hc1 x0 x1 xs).1)
theorem scover0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) (y : S1x128.Idx) : ∃ pc ∈ (run0_C c i arg2 harg2 arg3 harg3 arg4 harg4 arg5 harg5 hc0 hc1 x0 x1 xs).2.1, y ∈ pc.1.set :=
  View.cover_of_tiledL (run0_C c i arg2 harg2 arg3 harg3 arg4 harg4 arg5 harg5 hc0 hc1 x0 x1 xs).2.1 S1x128.size (by sl_kernel_rfl) y
/-- The accumulator after the last tile. -/
def sout0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) : Vec F S1x128 .f32 :=
  VS0.read (Elt F) (VS0.writes (Elt F) VS0.junk (run0_C c i arg2 harg2 arg3 harg3 arg4 harg4 arg5 harg5 hc0 hc1 x0 x1 xs).2.1)

/-! ## The accumulation, point by point -/

/-- What the output's staging buffer and the accumulator hold after the body at position `n`. -/
def outsAt0 (c : Dev nD) : (n : ℕ) → n < cfg0.N → Vec F S1x128 .f32 × Vec F S1x128 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((first0_iff ⟨0, hn⟩).mpr rfl) (fun h => absurd ((last0_iff ⟨0, hn⟩).mp h) (show ¬ (0 : ℕ) = 15 by decide)) (iblk0 V c 0 ⟨0, hn⟩) (iblk0 V c 1 ⟨0, hn⟩))
  | n + 1, hn =>
    if h2 : n + 1 = 15 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((first0_iff ⟨n + 1, hn⟩).mp h) (Nat.succ_ne_zero n)) ((last0_iff ⟨n + 1, hn⟩).mpr h2) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((first0_iff ⟨n + 1, hn⟩).mp h) (Nat.succ_ne_zero n)) ((last0_iff ⟨n + 1, hn⟩).mpr h2) (iblk0 V c 0 ⟨n + 1, hn⟩) (iblk0 V c 1 ⟨n + 1, hn⟩) (outsAt0 c n (Nat.lt_of_succ_lt hn)).2)
    else
      (idleOut0,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((first0_iff ⟨n + 1, hn⟩).mp h) (Nat.succ_ne_zero n)) (fun h => h2 ((last0_iff ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) (h1 : ¬t.val = 15) :
    outsAt0 V c t.val t.isLt = (idleOut0, sout0_A c (grid0.coords t) (ms0_0 t) (hs0_0 t) (ms0_1 t) (hs0_1 t) (ms0_2 t) (hs0_2 t) scM0 (Memref.isWhole_whole _) ((first0_iff t).mpr h0) (fun h => h1 ((last0_iff t).mp h)) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 15) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((first0_iff t).mp h)) (fun h => h1 ((last0_iff t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 15) :
    outsAt0 V c t.val t.isLt = (out0_C c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first tile the class's; afterwards the accumulator at what the
    tile before left, beside the other scoped buffers and the generator register. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ others0 (F := F) c) ∗ (∃ r, prngReg c r)) := by
  cases n with
  | zero => exact absurd rfl hz
  | succ n => rfl

/-! ## The proof data -/

/-- The proof data of the region on core `c` over the entry contents `V`: after the body at point `t` each input's buffer at
    its block and the output's at `outsAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any tile: the closed forms say which case the tile is in; the invariant hands the body the accumulator at what
    the tile before left (at anything at the first tile) and takes it back at this tile's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val = 0
  · have h1 : ¬t.val = 15 := by omega
    rw [Dat.leavesExact_idle (dat0 V c) 2 t (idle0_2 t (fun h => h1 ((last0_iff t).mp h))) (noFlush0_2 t (fun h => h1 ((last0_iff t).mp h)))]
    rw [outsAt0_A V c t h0 h1]
    unfold sout0_A; (try dsimp only)
    rw [PhiS0_castSucc V c t, PhiS0_zero V c _ _ h0, PhiA0_eq]
    iintro ⟨⟨⟨HS, Hoth⟩, Hg⟩, Ho, ⟨%d0, H0⟩, ⟨%d1, H1⟩, ⟨%d2, H2⟩⟩
    iapply ((run0_A c (grid0.coords t) _ _ _ _ _ _ _ _ ((first0_iff t).mpr h0) (fun h => h1 ((last0_iff t).mp h)) (iblk0 V c 0 t) (iblk0 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hg Hoth]
    · isplitl [HS Hoth]
      · isplitl [HS]
        · unfold owns; iexists _; isplitr
          swap; · iexact HS
          ipureintro; exact View.read_writes_of_cover _ _ _ _ _ (scover0_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 15
    · rw [show (dat0 V c).leavesExact 2 t = owns (c : Thread nD τ) (ms0_2 t) fullShare ((dat0 V c).after 2 t) from by
        unfold Dat.leavesExact; rw [live0_2 t ((last0_iff t).mpr h1)], after0_2]
      rw [outsAt0_C V c t h0 h1]
      unfold out0_C sout0_C; (try dsimp only)
      rw [PhiS0_castSucc V c t, PhiS0_pos V c _ _ h0]
      iintro ⟨⟨⟨HS, Hoth⟩, Hg⟩, Ho, ⟨%d0, H0⟩, ⟨%d1, H1⟩, ⟨%d2, H2⟩⟩
      iapply ((run0_C c (grid0.coords t) _ _ _ _ _ _ _ _ (fun h => h0 ((first0_iff t).mp h)) ((last0_iff t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idle0_2 t (fun h => h1 ((last0_iff t).mp h))) (noFlush0_2 t (fun h => h1 ((last0_iff t).mp h)))]
      rw [outsAt0_B V c t h0 h1]
      unfold sout0_B; (try dsimp only)
      rw [PhiS0_castSucc V c t, PhiS0_pos V c _ _ h0]
      iintro ⟨⟨⟨HS, Hoth⟩, Hg⟩, Ho, ⟨%d0, H0⟩, ⟨%d1, H1⟩, ⟨%d2, H2⟩⟩
      iapply ((run0_B c (grid0.coords t) _ _ _ _ _ _ _ _ (fun h => h0 ((first0_iff t).mp h)) (fun h => h1 ((last0_iff t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first tile. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last tile the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS, Hoth⟩, Hg⟩
  isplitl [HS Hoth]
  · isplitl [HS]
    · iexists _; iexact HS
    iexact Hoth
  iexact Hg

end Cert.KernelIdeal.Pair

end
-- ==== Proof.KI.Base1.lean ====
/-
  One pairwise-distance region (region 1) of the multi-bandwidth kernel sum: the grid is 4 x 4 tiles; at the first tile
  the one-row accumulator is cleared, at every tile five lane-masked partial sums are added onto it, and at the last
  tile the accumulator is copied into the output row. This file fixes the vocabulary the three control cases share:
  the two conditions as functions of the grid coordinates and their closed forms over the sixteen points, where the
  output window is idle, the staging and accumulator memrefs, and the region invariant with the accumulator split off.
-/
import proofs.«152674_j2757369004769_1_alg».proof.Proof.Gen.KernelIdeal.Launch
import proofs.«152674_j2757369004769_1_alg».proof.Proof.Gen.KernelIdeal.Skeleton
import proofs.«152674_j2757369004769_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: both grid coordinates are 0. -/
abbrev first1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem first1_iff : ∀ t : Fin cfg1.N, first1 (grid1.coords t) ↔ t.val = 0 :=
  (by decide +kernel : ∀ t : Fin grid1.N, first1 (grid1.coords t) ↔ t.val = 0)

/-- The body's last condition: both grid coordinates are 3. -/
abbrev last1 (i : grid1.Coords) : Prop := k1_cond2 i = 1#1
/-- It holds at point 15 only. -/
theorem last1_iff : ∀ t : Fin cfg1.N, last1 (grid1.coords t) ↔ t.val = 15 :=
  (by decide +kernel : ∀ t : Fin grid1.N, last1 (grid1.coords t) ↔ t.val = 15)

/-- The two input windows are never idle. -/
theorem live1_0 : ∀ t : Fin cfg1.N, cfg1.idle 0 (grid1.coords t) = false := by decide +kernel
theorem live1_1 : ∀ t : Fin cfg1.N, cfg1.idle 1 (grid1.coords t) = false := by decide +kernel
/-- The output window is idle, and not written back, away from the last point; live at the last point. -/
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-- The output's staging buffer as a view, through which its contents are stated. -/
abbrev VO1 : View sig .tc .vmem S1x128 .f32 := (Memref.whole cc1_stg2_0 : Memref sig .tc .vmem S1x128 .f32).view
/-- Each window's current staging memref at point `t`, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1 : Memref sig .tc .vmem S1x128 .f32 := Memref.whole cc1_scratch0
abbrev VS1 : View sig .tc .vmem S1x128 .f32 := scM1.view

/-- The core's other scoped buffers that are no staging buffer of this region (the other regions' staging buffers and
    accumulators), each at some contents: they ride through the region untouched. -/
def others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The class invariant with the accumulator split off as a memref owned at some contents. -/
theorem PhiA1_eq (c : Dev nD) :
    (Pipeline.ΦA spec1 c : sProp 𝕄)
      = iprop(((∃ d, owns (c : Thread nD τ) scM1 fullShare d) ∗ others1 (F := F) c) ∗ (∃ r, prngReg c r)) := by
  unfold Pipeline.ΦA Pipeline.scopedRest others1
  rw [bigSep_erase (i := cc1_scratch0) (by decide)]
  simp only [scM1, owns_whole]
  rfl

end Cert.KernelIdeal.Pair

end
-- ==== Proof.KI.RunA1.lean ====
/-
  Region 1, the first tile: the accumulator is cleared and the five lane-masked partial sums of the tile are added onto it; the output row is left untouched. The body's run on any whole staging memrefs, the pieces the accumulator ends with found by the run.
-/
import proofs.«152674_j2757369004769_1_alg».proof.Proof.KI.Base1

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first tile: from the two input blocks `x0`, `x1`, the output buffer at `xi` (handed back untouched) and the
    accumulator at anything, it runs to the continuation with the inputs as they were and the accumulator with its pieces written. -/
noncomputable def run1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first1 i) (hc1 : ¬last1 i)
    (x0 x1 : Vec F S1024x256 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__pair_kernel i arg2 harg2 arg3 harg3 arg4 harg4 arg5 harg5) K } := by
  refine ⟨?_, fun xi E K => ?run⟩
  case run =>
    simp only [cc1__pair_kernel_eq_skeleton]; unfold cc1__pair_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Pair

end
-- ==== Proof.KI.RunB1.lean ====
/-
  Region 1, a middle tile: the five lane-masked partial sums of the tile are added onto what the accumulator held; the output row is left untouched.
-/
import proofs.«152674_j2757369004769_1_alg».proof.Proof.KI.RunA1

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: from the two input blocks, the output buffer at `xi` (handed back untouched) and the
    accumulator at what the tile before left (`xs`). -/
noncomputable def run1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : ¬last1 i)
    (x0 x1 : Vec F S1024x256 .f32) (xs : Vec F S1x128 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__pair_kernel i arg2 harg2 arg3 harg3 arg4 harg4 arg5 harg5) K } := by
  refine ⟨?_, fun xi E K => ?run⟩
  case run =>
    simp only [cc1__pair_kernel_eq_skeleton]; unfold cc1__pair_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Pair

end
-- ==== Proof.KI.RunC1.lean ====
/-
  Region 1, the last tile: the five lane-masked partial sums of the tile are added onto what the accumulator held, and the accumulator is copied into the output row.
-/
import proofs.«152674_j2757369004769_1_alg».proof.Proof.KI.RunB1

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last tile: from the two input blocks, the output buffer at anything and the accumulator at what the tile
    before left (`xs`); the output buffer and the accumulator end with their pieces written. -/
noncomputable def run1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) :
    Σ' (LO : List (View.Piece (Elt F) S1x128 .f32)), { LS : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__pair_kernel i arg2 harg2 arg3 harg3 arg4 harg4 arg5 harg5) K } := by
  refine ⟨?_, ?_, fun E K => ?run⟩
  case run =>
    simp only [cc1__pair_kernel_eq_skeleton]; unfold cc1__pair_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Pair

end
-- ==== Proof.KI.Points1.lean ====
/-
  Region 1, point by point: what the accumulator and the output's staging buffer hold after each of the sixteen tiles (a recursion on the tile: the first tile's case at 0, the last tile's at 15, a middle tile's between, each over what the tile before left in the accumulator), the region invariant carrying the accumulator at those contents, the proof data over any region-entry contents, and the body's obligation at every tile.
-/
import proofs.«152674_j2757369004769_1_alg».proof.Proof.KI.RunC1

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output's staging buffer where the body stores nothing into it: a placeholder nothing consults. -/
def idleOut1 : Vec F S1x128 .f32 := VO1.read (Elt F) (VO1.writes (Elt F) VO1.junk [])

/-! ## What each case leaves -/

theorem scover1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first1 i) (hc1 : ¬last1 i)
    (x0 x1 : Vec F S1024x256 .f32) (y : S1x128.Idx) : ∃ pc ∈ (run1_A c i arg2 harg2 arg3 harg3 arg4 harg4 arg5 harg5 hc0 hc1 x0 x1).1, y ∈ pc.1.set :=
  View.cover_of_tiledL (run1_A c i arg2 harg2 arg3 harg3 arg4 harg4 arg5 harg5 hc0 hc1 x0 x1).1 S1x128.size (by sl_kernel_rfl) y
/-- The accumulator after the first tile. -/
def sout1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first1 i) (hc1 : ¬last1 i)
    (x0 x1 : Vec F S1024x256 .f32) : Vec F S1x128 .f32 :=
  VS1.read (Elt F) (VS1.writes (Elt F) VS1.junk (run1_A c i arg2 harg2 arg3 harg3 arg4 harg4 arg5 harg5 hc0 hc1 x0 x1).1)

theorem scover1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : ¬last1 i)
    (x0 x1 : Vec F S1024x256 .f32) (xs : Vec F S1x128 .f32) (y : S1x128.Idx) : ∃ pc ∈ (run1_B c i arg2 harg2 arg3 harg3 arg4 harg4 arg5 harg5 hc0 hc1 x0 x1 xs).1, y ∈ pc.1.set :=
  View.cover_of_tiledL (run1_B c i arg2 harg2 arg3 harg3 arg4 harg4 arg5 harg5 hc0 hc1 x0 x1 xs).1 S1x128.size (by sl_kernel_rfl) y
/-- The accumulator after a middle tile, over what the tile before left. -/
def sout1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : ¬last1 i)
    (x0 x1 : Vec F S1024x256 .f32) (xs : Vec F S1x128 .f32) : Vec F S1x128 .f32 :=
  VS1.read (Elt F) (VS1.writes (Elt F) VS1.junk (run1_B c i arg2 harg2 arg3 harg3 arg4 harg4 arg5 harg5 hc0 hc1 x0 x1 xs).1)

theorem cover1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) (y : S1x128.Idx) : ∃ pc ∈ (run1_C c i arg2 harg2 arg3 harg3 arg4 harg4 arg5 harg5 hc0 hc1 x0 x1 xs).1, y ∈ pc.1.set :=
  View.cover_of_tiledL (run1_C c i arg2 harg2 arg3 harg3 arg4 harg4 arg5 harg5 hc0 hc1 x0 x1 xs).1 S1x128.size (by sl_kernel_rfl) y
/-- The output's staging buffer after the last tile. -/
def out1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) : Vec F S1x128 .f32 :=
  VO1.read (Elt F) (VO1.writes (Elt F) VO1.junk (run1_C c i arg2 harg2 arg3 harg3 arg4 harg4 arg5 harg5 hc0 hc1 x0 x1 xs).1)
theorem scover1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) (y : S1x128.Idx) : ∃ pc ∈ (run1_C c i arg2 harg2 arg3 harg3 arg4 harg4 arg5 harg5 hc0 hc1 x0 x1 xs).2.1, y ∈ pc.1.set :=
  View.cover_of_tiledL (run1_C c i arg2 harg2 arg3 harg3 arg4 harg4 arg5 harg5 hc0 hc1 x0 x1 xs).2.1 S1x128.size (by sl_kernel_rfl) y
/-- The accumulator after the last tile. -/
def sout1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) : Vec F S1x128 .f32 :=
  VS1.read (Elt F) (VS1.writes (Elt F) VS1.junk (run1_C c i arg2 harg2 arg3 harg3 arg4 harg4 arg5 harg5 hc0 hc1 x0 x1 xs).2.1)

/-! ## The accumulation, point by point -/

/-- What the output's staging buffer and the accumulator hold after the body at position `n`. -/
def outsAt1 (c : Dev nD) : (n : ℕ) → n < cfg1.N → Vec F S1x128 .f32 × Vec F S1x128 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((first1_iff ⟨0, hn⟩).mpr rfl) (fun h => absurd ((last1_iff ⟨0, hn⟩).mp h) (show ¬ (0 : ℕ) = 15 by decide)) (iblk1 V c 0 ⟨0, hn⟩) (iblk1 V c 1 ⟨0, hn⟩))
  | n + 1, hn =>
    if h2 : n + 1 = 15 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((first1_iff ⟨n + 1, hn⟩).mp h) (Nat.succ_ne_zero n)) ((last1_iff ⟨n + 1, hn⟩).mpr h2) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((first1_iff ⟨n + 1, hn⟩).mp h) (Nat.succ_ne_zero n)) ((last1_iff ⟨n + 1, hn⟩).mpr h2) (iblk1 V c 0 ⟨n + 1, hn⟩) (iblk1 V c 1 ⟨n + 1, hn⟩) (outsAt1 c n (Nat.lt_of_succ_lt hn)).2)
    else
      (idleOut1,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((first1_iff ⟨n + 1, hn⟩).mp h) (Nat.succ_ne_zero n)) (fun h => h2 ((last1_iff ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val = 0) (h1 : ¬t.val = 15) :
    outsAt1 V c t.val t.isLt = (idleOut1, sout1_A c (grid1.coords t) (ms1_0 t) (hs1_0 t) (ms1_1 t) (hs1_1 t) (ms1_2 t) (hs1_2 t) scM1 (Memref.isWhole_whole _) ((first1_iff t).mpr h0) (fun h => h1 ((last1_iff t).mp h)) (iblk1 V c 0 t) (iblk1 V c 1 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 15) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((first1_iff t).mp h)) (fun h => h1 ((last1_iff t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 15) :
    outsAt1 V c t.val t.isLt = (out1_C c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first tile the class's; afterwards the accumulator at what the
    tile before left, beside the other scoped buffers and the generator register. -/
def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ others1 (F := F) c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ others1 (F := F) c) ∗ (∃ r, prngReg c r)) := by
  cases n with
  | zero => exact absurd rfl hz
  | succ n => rfl

/-! ## The proof data -/

/-- The proof data of the region on core `c` over the entry contents `V`: after the body at point `t` each input's buffer at
    its block and the output's at `outsAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any tile: the closed forms say which case the tile is in; the invariant hands the body the accumulator at what
    the tile before left (at anything at the first tile) and takes it back at this tile's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val = 0
  · have h1 : ¬t.val = 15 := by omega
    rw [Dat.leavesExact_idle (dat1 V c) 2 t (idle1_2 t (fun h => h1 ((last1_iff t).mp h))) (noFlush1_2 t (fun h => h1 ((last1_iff t).mp h)))]
    rw [outsAt1_A V c t h0 h1]
    unfold sout1_A; (try dsimp only)
    rw [PhiS1_castSucc V c t, PhiS1_zero V c _ _ h0, PhiA1_eq]
    iintro ⟨⟨⟨HS, Hoth⟩, Hg⟩, Ho, ⟨%d0, H0⟩, ⟨%d1, H1⟩, ⟨%d2, H2⟩⟩
    iapply ((run1_A c (grid1.coords t) _ _ _ _ _ _ _ _ ((first1_iff t).mpr h0) (fun h => h1 ((last1_iff t).mp h)) (iblk1 V c 0 t) (iblk1 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hg Hoth]
    · isplitl [HS Hoth]
      · isplitl [HS]
        · unfold owns; iexists _; isplitr
          swap; · iexact HS
          ipureintro; exact View.read_writes_of_cover _ _ _ _ _ (scover1_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 15
    · rw [show (dat1 V c).leavesExact 2 t = owns (c : Thread nD τ) (ms1_2 t) fullShare ((dat1 V c).after 2 t) from by
        unfold Dat.leavesExact; rw [live1_2 t ((last1_iff t).mpr h1)], after1_2]
      rw [outsAt1_C V c t h0 h1]
      unfold out1_C sout1_C; (try dsimp only)
      rw [PhiS1_castSucc V c t, PhiS1_pos V c _ _ h0]
      iintro ⟨⟨⟨HS, Hoth⟩, Hg⟩, Ho, ⟨%d0, H0⟩, ⟨%d1, H1⟩, ⟨%d2, H2⟩⟩
      iapply ((run1_C c (grid1.coords t) _ _ _ _ _ _ _ _ (fun h => h0 ((first1_iff t).mp h)) ((last1_iff t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (scover1_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idle1_2 t (fun h => h1 ((last1_iff t).mp h))) (noFlush1_2 t (fun h => h1 ((last1_iff t).mp h)))]
      rw [outsAt1_B V c t h0 h1]
      unfold sout1_B; (try dsimp only)
      rw [PhiS1_castSucc V c t, PhiS1_pos V c _ _ h0]
      iintro ⟨⟨⟨HS, Hoth⟩, Hg⟩, Ho, ⟨%d0, H0⟩, ⟨%d1, H1⟩, ⟨%d2, H2⟩⟩
      iapply ((run1_B c (grid1.coords t) _ _ _ _ _ _ _ _ (fun h => h0 ((first1_iff t).mp h)) (fun h => h1 ((last1_iff t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (scover1_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-- What the region is entered with (the class invariant) is the invariant before the first tile. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last tile the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS, Hoth⟩, Hg⟩
  isplitl [HS Hoth]
  · isplitl [HS]
    · iexists _; iexact HS
    iexact Hoth
  iexact Hg

end Cert.KernelIdeal.Pair

end
-- ==== Proof.KI.Base2.lean ====
/-
  One pairwise-distance region (region 2) of the multi-bandwidth kernel sum: the grid is 4 x 4 tiles; at the first tile
  the one-row accumulator is cleared, at every tile five lane-masked partial sums are added onto it, and at the last
  tile the accumulator is copied into the output row. This file fixes the vocabulary the three control cases share:
  the two conditions as functions of the grid coordinates and their closed forms over the sixteen points, where the
  output window is idle, the staging and accumulator memrefs, and the region invariant with the accumulator split off.
-/
import proofs.«152674_j2757369004769_1_alg».proof.Proof.Gen.KernelIdeal.Launch
import proofs.«152674_j2757369004769_1_alg».proof.Proof.Gen.KernelIdeal.Skeleton
import proofs.«152674_j2757369004769_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: both grid coordinates are 0. -/
abbrev first2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem first2_iff : ∀ t : Fin cfg2.N, first2 (grid2.coords t) ↔ t.val = 0 :=
  (by decide +kernel : ∀ t : Fin grid2.N, first2 (grid2.coords t) ↔ t.val = 0)

/-- The body's last condition: both grid coordinates are 3. -/
abbrev last2 (i : grid2.Coords) : Prop := k2_cond2 i = 1#1
/-- It holds at point 15 only. -/
theorem last2_iff : ∀ t : Fin cfg2.N, last2 (grid2.coords t) ↔ t.val = 15 :=
  (by decide +kernel : ∀ t : Fin grid2.N, last2 (grid2.coords t) ↔ t.val = 15)

/-- The two input windows are never idle. -/
theorem live2_0 : ∀ t : Fin cfg2.N, cfg2.idle 0 (grid2.coords t) = false := by decide +kernel
theorem live2_1 : ∀ t : Fin cfg2.N, cfg2.idle 1 (grid2.coords t) = false := by decide +kernel
/-- The output window is idle, and not written back, away from the last point; live at the last point. -/
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

/-- The output's staging buffer as a view, through which its contents are stated. -/
abbrev VO2 : View sig .tc .vmem S1x128 .f32 := (Memref.whole cc2_stg2_0 : Memref sig .tc .vmem S1x128 .f32).view
/-- Each window's current staging memref at point `t`, and its wholeness. -/
abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
/-- The accumulator: a whole scoped buffer of the kernel's own, carried from point to point. -/
abbrev scM2 : Memref sig .tc .vmem S1x128 .f32 := Memref.whole cc2_scratch0
abbrev VS2 : View sig .tc .vmem S1x128 .f32 := scM2.view

/-- The core's other scoped buffers that are no staging buffer of this region (the other regions' staging buffers and
    accumulators), each at some contents: they ride through the region untouched. -/
def others2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The class invariant with the accumulator split off as a memref owned at some contents. -/
theorem PhiA2_eq (c : Dev nD) :
    (Pipeline.ΦA spec2 c : sProp 𝕄)
      = iprop(((∃ d, owns (c : Thread nD τ) scM2 fullShare d) ∗ others2 (F := F) c) ∗ (∃ r, prngReg c r)) := by
  unfold Pipeline.ΦA Pipeline.scopedRest others2
  rw [bigSep_erase (i := cc2_scratch0) (by decide)]
  simp only [scM2, owns_whole]
  rfl

end Cert.KernelIdeal.Pair

end
-- ==== Proof.KI.RunA2.lean ====
/-
  Region 2, the first tile: the accumulator is cleared and the five lane-masked partial sums of the tile are added onto it; the output row is left untouched. The body's run on any whole staging memrefs, the pieces the accumulator ends with found by the run.
-/
import proofs.«152674_j2757369004769_1_alg».proof.Proof.KI.Base2

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first tile: from the two input blocks `x0`, `x1`, the output buffer at `xi` (handed back untouched) and the
    accumulator at anything, it runs to the continuation with the inputs as they were and the accumulator with its pieces written. -/
noncomputable def run2_A (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first2 i) (hc1 : ¬last2 i)
    (x0 x1 : Vec F S1024x256 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__pair_kernel i arg2 harg2 arg3 harg3 arg4 harg4 arg5 harg5) K } := by
  refine ⟨?_, fun xi E K => ?run⟩
  case run =>
    simp only [cc2__pair_kernel_eq_skeleton]; unfold cc2__pair_kernel_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Pair

end
-- ==== Proof.KI.RunB2.lean ====
/-
  Region 2, a middle tile: the five lane-masked partial sums of the tile are added onto what the accumulator held; the output row is left untouched.
-/
import proofs.«152674_j2757369004769_1_alg».proof.Proof.KI.RunA2

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: from the two input blocks, the output buffer at `xi` (handed back untouched) and the
    accumulator at what the tile before left (`xs`). -/
noncomputable def run2_B (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : ¬last2 i)
    (x0 x1 : Vec F S1024x256 .f32) (xs : Vec F S1x128 .f32) :
    { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__pair_kernel i arg2 harg2 arg3 harg3 arg4 harg4 arg5 harg5) K } := by
  refine ⟨?_, fun xi E K => ?run⟩
  case run =>
    simp only [cc2__pair_kernel_eq_skeleton]; unfold cc2__pair_kernel_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Pair

end
-- ==== Proof.KI.RunC2.lean ====
/-
  Region 2, the last tile: the five lane-masked partial sums of the tile are added onto what the accumulator held, and the accumulator is copied into the output row.
-/
import proofs.«152674_j2757369004769_1_alg».proof.Proof.KI.RunB2

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last tile: from the two input blocks, the output buffer at anything and the accumulator at what the tile
    before left (`xs`); the output buffer and the accumulator end with their pieces written. -/
noncomputable def run2_C (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) :
    Σ' (LO : List (View.Piece (Elt F) S1x128 .f32)), { LS : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc2__pair_kernel i arg2 harg2 arg3 harg3 arg4 harg4 arg5 harg5) K } := by
  refine ⟨?_, ?_, fun E K => ?run⟩
  case run =>
    simp only [cc2__pair_kernel_eq_skeleton]; unfold cc2__pair_kernel_skel
    simp only [k2_part1_eq_skeleton, k2_part2_eq_skeleton, k2_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Pair

end
-- ==== Proof.KI.Points2.lean ====
/-
  Region 2, point by point: what the accumulator and the output's staging buffer hold after each of the sixteen tiles (a recursion on the tile: the first tile's case at 0, the last tile's at 15, a middle tile's between, each over what the tile before left in the accumulator), the region invariant carrying the accumulator at those contents, the proof data over any region-entry contents, and the body's obligation at every tile.
-/
import proofs.«152674_j2757369004769_1_alg».proof.Proof.KI.RunC2

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The output's staging buffer where the body stores nothing into it: a placeholder nothing consults. -/
def idleOut2 : Vec F S1x128 .f32 := VO2.read (Elt F) (VO2.writes (Elt F) VO2.junk [])

/-! ## What each case leaves -/

theorem scover2_A (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first2 i) (hc1 : ¬last2 i)
    (x0 x1 : Vec F S1024x256 .f32) (y : S1x128.Idx) : ∃ pc ∈ (run2_A c i arg2 harg2 arg3 harg3 arg4 harg4 arg5 harg5 hc0 hc1 x0 x1).1, y ∈ pc.1.set :=
  View.cover_of_tiledL (run2_A c i arg2 harg2 arg3 harg3 arg4 harg4 arg5 harg5 hc0 hc1 x0 x1).1 S1x128.size (by sl_kernel_rfl) y
/-- The accumulator after the first tile. -/
def sout2_A (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first2 i) (hc1 : ¬last2 i)
    (x0 x1 : Vec F S1024x256 .f32) : Vec F S1x128 .f32 :=
  VS2.read (Elt F) (VS2.writes (Elt F) VS2.junk (run2_A c i arg2 harg2 arg3 harg3 arg4 harg4 arg5 harg5 hc0 hc1 x0 x1).1)

theorem scover2_B (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : ¬last2 i)
    (x0 x1 : Vec F S1024x256 .f32) (xs : Vec F S1x128 .f32) (y : S1x128.Idx) : ∃ pc ∈ (run2_B c i arg2 harg2 arg3 harg3 arg4 harg4 arg5 harg5 hc0 hc1 x0 x1 xs).1, y ∈ pc.1.set :=
  View.cover_of_tiledL (run2_B c i arg2 harg2 arg3 harg3 arg4 harg4 arg5 harg5 hc0 hc1 x0 x1 xs).1 S1x128.size (by sl_kernel_rfl) y
/-- The accumulator after a middle tile, over what the tile before left. -/
def sout2_B (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : ¬last2 i)
    (x0 x1 : Vec F S1024x256 .f32) (xs : Vec F S1x128 .f32) : Vec F S1x128 .f32 :=
  VS2.read (Elt F) (VS2.writes (Elt F) VS2.junk (run2_B c i arg2 harg2 arg3 harg3 arg4 harg4 arg5 harg5 hc0 hc1 x0 x1 xs).1)

theorem cover2_C (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) (y : S1x128.Idx) : ∃ pc ∈ (run2_C c i arg2 harg2 arg3 harg3 arg4 harg4 arg5 harg5 hc0 hc1 x0 x1 xs).1, y ∈ pc.1.set :=
  View.cover_of_tiledL (run2_C c i arg2 harg2 arg3 harg3 arg4 harg4 arg5 harg5 hc0 hc1 x0 x1 xs).1 S1x128.size (by sl_kernel_rfl) y
/-- The output's staging buffer after the last tile. -/
def out2_C (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) : Vec F S1x128 .f32 :=
  VO2.read (Elt F) (VO2.writes (Elt F) VO2.junk (run2_C c i arg2 harg2 arg3 harg3 arg4 harg4 arg5 harg5 hc0 hc1 x0 x1 xs).1)
theorem scover2_C (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) (y : S1x128.Idx) : ∃ pc ∈ (run2_C c i arg2 harg2 arg3 harg3 arg4 harg4 arg5 harg5 hc0 hc1 x0 x1 xs).2.1, y ∈ pc.1.set :=
  View.cover_of_tiledL (run2_C c i arg2 harg2 arg3 harg3 arg4 harg4 arg5 harg5 hc0 hc1 x0 x1 xs).2.1 S1x128.size (by sl_kernel_rfl) y
/-- The accumulator after the last tile. -/
def sout2_C (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) : Vec F S1x128 .f32 :=
  VS2.read (Elt F) (VS2.writes (Elt F) VS2.junk (run2_C c i arg2 harg2 arg3 harg3 arg4 harg4 arg5 harg5 hc0 hc1 x0 x1 xs).2.1)

/-! ## The accumulation, point by point -/

/-- What the output's staging buffer and the accumulator hold after the body at position `n`. -/
def outsAt2 (c : Dev nD) : (n : ℕ) → n < cfg2.N → Vec F S1x128 .f32 × Vec F S1x128 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((first2_iff ⟨0, hn⟩).mpr rfl) (fun h => absurd ((last2_iff ⟨0, hn⟩).mp h) (show ¬ (0 : ℕ) = 15 by decide)) (iblk2 V c 0 ⟨0, hn⟩) (iblk2 V c 1 ⟨0, hn⟩))
  | n + 1, hn =>
    if h2 : n + 1 = 15 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((first2_iff ⟨n + 1, hn⟩).mp h) (Nat.succ_ne_zero n)) ((last2_iff ⟨n + 1, hn⟩).mpr h2) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((first2_iff ⟨n + 1, hn⟩).mp h) (Nat.succ_ne_zero n)) ((last2_iff ⟨n + 1, hn⟩).mpr h2) (iblk2 V c 0 ⟨n + 1, hn⟩) (iblk2 V c 1 ⟨n + 1, hn⟩) (outsAt2 c n (Nat.lt_of_succ_lt hn)).2)
    else
      (idleOut2,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((first2_iff ⟨n + 1, hn⟩).mp h) (Nat.succ_ne_zero n)) (fun h => h2 ((last2_iff ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) (h1 : ¬t.val = 15) :
    outsAt2 V c t.val t.isLt = (idleOut2, sout2_A c (grid2.coords t) (ms2_0 t) (hs2_0 t) (ms2_1 t) (hs2_1 t) (ms2_2 t) (hs2_2 t) scM2 (Memref.isWhole_whole _) ((first2_iff t).mpr h0) (fun h => h1 ((last2_iff t).mp h)) (iblk2 V c 0 t) (iblk2 V c 1 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 15) :
    outsAt2 V c t.val t.isLt = (idleOut2, sout2_B c (grid2.coords t) (ms2_0 t) (hs2_0 t) (ms2_1 t) (hs2_1 t) (ms2_2 t) (hs2_2 t) scM2 (Memref.isWhole_whole _) (fun h => h0 ((first2_iff t).mp h)) (fun h => h1 ((last2_iff t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 15) :
    outsAt2 V c t.val t.isLt = (out2_C c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first tile the class's; afterwards the accumulator at what the
    tile before left, beside the other scoped buffers and the generator register. -/
def PhiS2 (c : Dev nD) : (n : ℕ) → n ≤ cfg2.N → sProp 𝕄
  | 0, _ => Pipeline.ΦA spec2 c
  | n + 1, hn => iprop((owns (c : Thread nD τ) scM2 fullShare ((outsAt2 V c n hn).2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare ((outsAt2 V c n hn).2) ∗ others2 (F := F) c) ∗ (∃ r, prngReg c r)) := rfl
theorem PhiS2_pos (c : Dev nD) (n : ℕ) (h : n ≤ cfg2.N) (hz : n ≠ 0) :
    PhiS2 V c n h = iprop((owns (c : Thread nD τ) scM2 fullShare ((outsAt2 V c (n - 1) (by omega)).2) ∗ others2 (F := F) c) ∗ (∃ r, prngReg c r)) := by
  cases n with
  | zero => exact absurd rfl hz
  | succ n => rfl

/-! ## The proof data -/

/-- The proof data of the region on core `c` over the entry contents `V`: after the body at point `t` each input's buffer at
    its block and the output's at `outsAt`; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any tile: the closed forms say which case the tile is in; the invariant hands the body the accumulator at what
    the tile before left (at anything at the first tile) and takes it back at this tile's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val = 0
  · have h1 : ¬t.val = 15 := by omega
    rw [Dat.leavesExact_idle (dat2 V c) 2 t (idle2_2 t (fun h => h1 ((last2_iff t).mp h))) (noFlush2_2 t (fun h => h1 ((last2_iff t).mp h)))]
    rw [outsAt2_A V c t h0 h1]
    unfold sout2_A; (try dsimp only)
    rw [PhiS2_castSucc V c t, PhiS2_zero V c _ _ h0, PhiA2_eq]
    iintro ⟨⟨⟨HS, Hoth⟩, Hg⟩, Ho, ⟨%d0, H0⟩, ⟨%d1, H1⟩, ⟨%d2, H2⟩⟩
    iapply ((run2_A c (grid2.coords t) _ _ _ _ _ _ _ _ ((first2_iff t).mpr h0) (fun h => h1 ((last2_iff t).mp h)) (iblk2 V c 0 t) (iblk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hg Hoth]
    · isplitl [HS Hoth]
      · isplitl [HS]
        · unfold owns; iexists _; isplitr
          swap; · iexact HS
          ipureintro; exact View.read_writes_of_cover _ _ _ _ _ (scover2_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 15
    · rw [show (dat2 V c).leavesExact 2 t = owns (c : Thread nD τ) (ms2_2 t) fullShare ((dat2 V c).after 2 t) from by
        unfold Dat.leavesExact; rw [live2_2 t ((last2_iff t).mpr h1)], after2_2]
      rw [outsAt2_C V c t h0 h1]
      unfold out2_C sout2_C; (try dsimp only)
      rw [PhiS2_castSucc V c t, PhiS2_pos V c _ _ h0]
      iintro ⟨⟨⟨HS, Hoth⟩, Hg⟩, Ho, ⟨%d0, H0⟩, ⟨%d1, H1⟩, ⟨%d2, H2⟩⟩
      iapply ((run2_C c (grid2.coords t) _ _ _ _ _ _ _ _ (fun h => h0 ((first2_iff t).mp h)) ((last2_iff t).mpr h1) (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (scover2_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idle2_2 t (fun h => h1 ((last2_iff t).mp h))) (noFlush2_2 t (fun h => h1 ((last2_iff t).mp h)))]
      rw [outsAt2_B V c t h0 h1]
      unfold sout2_B; (try dsimp only)
      rw [PhiS2_castSucc V c t, PhiS2_pos V c _ _ h0]
      iintro ⟨⟨⟨HS, Hoth⟩, Hg⟩, Ho, ⟨%d0, H0⟩, ⟨%d1, H1⟩, ⟨%d2, H2⟩⟩
      iapply ((run2_B c (grid2.coords t) _ _ _ _ _ _ _ _ (fun h => h0 ((first2_iff t).mp h)) (fun h => h1 ((last2_iff t).mp h)) (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (scover2_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every tile. -/
theorem body_obligation2 (c : Dev nD) : BodyObligation (dat2 (F := F) V c) (defs₀ (F := F)) Variants.none () Set.univ := fun t => by
  rw [bigSep_W2, bigSep_W2]
  exact sound_body2 V c t

/-- What the region is entered with (the class invariant) is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last tile the invariant gives the class invariant back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS, Hoth⟩, Hg⟩
  isplitl [HS Hoth]
  · isplitl [HS]
    · iexists _; iexact HS
    iexact Hoth
  iexact Hg

end Cert.KernelIdeal.Pair

end
-- ==== Proof.KI.Regions.lean ====
/-
  The whole program as a run: three pairwise-distance regions, each followed by the host lines that slice its output row to
  its first five lanes, then the host lines that total the lanes, scale, combine and take the square root. The contents of
  every unscoped buffer between two items are named by a fold through @main; each region is entered from the buffers at one
  boundary and left at the next, its output array at what the pipeline leaves and everything else as it was. Regions 0 and 1
  read ONE array through both input windows: its buffer is dealt between the windows, half a share each, at the entry and put
  back whole at the exit. The run ends with every unscoped buffer at the last boundary's contents.
-/
import proofs.«152674_j2757369004769_1_alg».proof.Proof.KI.Points0
import proofs.«152674_j2757369004769_1_alg».proof.Proof.KI.Points1
import proofs.«152674_j2757369004769_1_alg».proof.Proof.KI.Points2
import proofs.«152674_j2757369004769_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares
variable (V : (c : Dev nD) → (b : Ref sig .tc) → Buf (Elt F) ((c : Thread nD τ).loc b))

theorem arrays0_eq (c : Dev nD) (F0 : (w : Fin cfg0.W) → Buf (Elt F) ((cfg0.win w).arr.view.loc (c : Thread nD τ))) :
    ((dat0 V c).arrays F0 : sProp 𝕄)
      = iprop((((c : Thread nD τ).loc main_arg0) ↦{fullShare.left} F0 0) ∗ (((c : Thread nD τ).loc main_arg0) ↦{fullShare.right} F0 1)
          ∗ (((c : Thread nD τ).loc main_call0_v0) ↦{fullShare} F0 2)) := by
  unfold Dat.arrays
  rw [bigSep_W0]
  rw [(arr_whole0 0).set_eq_univ, (arr_whole0 2).set_eq_univ]
  rfl

theorem arrBufs0_eq (c : Dev nD) (X : (b : Ref sig .tc) → Buf (Elt F) ((c : Thread nD τ).loc b)) :
    (Pipeline.arrBufs spec0 c X : sProp 𝕄)
      = iprop((((c : Thread nD τ).loc main_arg0) ↦{fullShare} X main_arg0) ∗ (((c : Thread nD τ).loc main_call0_v0) ↦{fullShare} X main_call0_v0)) := by
  unfold Pipeline.arrBufs
  rw [show Finset.univ.image (Pipeline.arrRef spec0) = {main_arg0, main_call0_v0} from by decide]
  rw [bigSep_insert (by decide), bigSep_singleton]
  rfl

/-- At the region's entry: the two buffers behind the three windows' arrays, each whole, are the proof data's arrays —
    the one input array both input windows read dealt between them, half a share each. -/
theorem split0 (c : Dev nD) :
    (Pipeline.arrBufs spec0 c (V c) : sProp 𝕄) ⊢ (dat0 V c).arrays ((dat0 V c).arrAt · 0) := by
  rw [arrays0_eq, arrBufs0_eq]
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-- At the region's exit: the arrays at what the pipeline leaves are the two buffers whole again, the input array as it was
    and the output array at its final contents. -/
theorem join0 (c : Dev nD) (X : (b : Ref sig .tc) → Buf (Elt F) ((c : Thread nD τ).loc b))
    (h0 : X main_arg0 = V c main_arg0) (h2 : X main_call0_v0 = (dat0 V c).arrAt 2 cfg0.N) :
    ((dat0 V c).arrays ((dat0 V c).arrAt · cfg0.N) : sProp 𝕄) ⊢ Pipeline.arrBufs spec0 c X := by
  rw [arrays0_eq, arrBufs0_eq, (dat0 V c).arrAt_in 0 rfl, (dat0 V c).arrAt_in 1 rfl, h0, h2]
  iintro ⟨Hl, Hr, Ho⟩
  isplitl [Hl Hr]
  · iapply (pointsTo_share (PosShare.mem_left_op_right fullShare)).2
    isplitl [Hl]; · iexact Hl
    iexact Hr
  iexact Ho

theorem arrays1_eq (c : Dev nD) (F0 : (w : Fin cfg1.W) → Buf (Elt F) ((cfg1.win w).arr.view.loc (c : Thread nD τ))) :
    ((dat1 V c).arrays F0 : sProp 𝕄)
      = iprop((((c : Thread nD τ).loc main_arg1) ↦{fullShare.left} F0 0) ∗ (((c : Thread nD τ).loc main_arg1) ↦{fullShare.right} F0 1)
          ∗ (((c : Thread nD τ).loc main_call1_v0) ↦{fullShare} F0 2)) := by
  unfold Dat.arrays
  rw [bigSep_W1]
  rw [(arr_whole1 0).set_eq_univ, (arr_whole1 2).set_eq_univ]
  rfl

theorem arrBufs1_eq (c : Dev nD) (X : (b : Ref sig .tc) → Buf (Elt F) ((c : Thread nD τ).loc b)) :
    (Pipeline.arrBufs spec1 c X : sProp 𝕄)
      = iprop((((c : Thread nD τ).loc main_arg1) ↦{fullShare} X main_arg1) ∗ (((c : Thread nD τ).loc main_call1_v0) ↦{fullShare} X main_call1_v0)) := by
  unfold Pipeline.arrBufs
  rw [show Finset.univ.image (Pipeline.arrRef spec1) = {main_arg1, main_call1_v0} from by decide]
  rw [bigSep_insert (by decide), bigSep_singleton]
  rfl

/-- At the region's entry: the two buffers behind the three windows' arrays, each whole, are the proof data's arrays —
    the one input array both input windows read dealt between them, half a share each. -/
theorem split1 (c : Dev nD) :
    (Pipeline.arrBufs spec1 c (V c) : sProp 𝕄) ⊢ (dat1 V c).arrays ((dat1 V c).arrAt · 0) := by
  rw [arrays1_eq, arrBufs1_eq]
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-- At the region's exit: the arrays at what the pipeline leaves are the two buffers whole again, the input array as it was
    and the output array at its final contents. -/
theorem join1 (c : Dev nD) (X : (b : Ref sig .tc) → Buf (Elt F) ((c : Thread nD τ).loc b))
    (h0 : X main_arg1 = V c main_arg1) (h2 : X main_call1_v0 = (dat1 V c).arrAt 2 cfg1.N) :
    ((dat1 V c).arrays ((dat1 V c).arrAt · cfg1.N) : sProp 𝕄) ⊢ Pipeline.arrBufs spec1 c X := by
  rw [arrays1_eq, arrBufs1_eq, (dat1 V c).arrAt_in 0 rfl, (dat1 V c).arrAt_in 1 rfl, h0, h2]
  iintro ⟨Hl, Hr, Ho⟩
  isplitl [Hl Hr]
  · iapply (pointsTo_share (PosShare.mem_left_op_right fullShare)).2
    isplitl [Hl]; · iexact Hl
    iexact Hr
  iexact Ho

end Shares

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its output array at what the pipeline leaves, every other buffer as entered. -/
def W1 (c : Dev nD) : Valuation τ sig (Elt F) :=
  Function.update (W0 m ρ c) main_call0_v0 ((dat0 (V0 m ρ) c).arrAt 2 cfg0.N)
abbrev V1 : (c : Dev nD) → (b : Ref sig .tc) → Buf (Elt F) ((c : Thread nD τ).loc b) := fun c b => W1 m ρ c b
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
def W3 (c : Dev nD) : Valuation τ sig (Elt F) :=
  Function.update (W2 m ρ c) main_call1_v0 ((dat1 (V2 m ρ) c).arrAt 2 cfg1.N)
abbrev V3 : (c : Dev nD) → (b : Ref sig .tc) → Buf (Elt F) ((c : Thread nD τ).loc b) := fun c b => W3 m ρ c b
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Function.update (W4 m ρ c) main_call2_v0 ((dat2 (V4 m ρ) c).arrAt 2 cfg2.N)
abbrev V5 : (c : Dev nD) → (b : Ref sig .tc) → Buf (Elt F) ((c : Thread nD τ).loc b) := fun c b => W5 m ρ c b
abbrev W6 : Dev nD → Valuation τ sig (Elt F) := fun c => StableHlo.after hostOps3 (W5 m ρ c)
abbrev W7 : Dev nD → Valuation τ sig (Elt F) := fun c => StableHlo.after hostOps3_1 (W6 m ρ c)

theorem W1_out (c : Dev nD) : V1 m ρ c main_call0_v0 = (dat0 (V0 m ρ) c).arrAt 2 cfg0.N := by
  show W1 m ρ c _ = _
  unfold W1; exact Function.update_self ..
theorem W1_of_ne (c : Dev nD) (b : Ref sig .tc) (h : b ≠ main_call0_v0) : V1 m ρ c b = V0 m ρ c b := by
  show W1 m ρ c _ = W0 m ρ c _
  unfold W1; exact Function.update_of_ne (StableHlo.devRef_ne_of_ne h : (Proc.devRef .tc b : DevRef τ sig) ≠ Proc.devRef .tc main_call0_v0) ..
theorem W1_in (c : Dev nD) : V1 m ρ c main_arg0 = V0 m ρ c main_arg0 := W1_of_ne m ρ c main_arg0 (by decide)
theorem hrest0 (c : Dev nD) : ∀ b, b ∉ Finset.univ.image (Pipeline.arrRef spec0) → V1 m ρ c b = V0 m ρ c b :=
  fun b hb => W1_of_ne m ρ c b fun e => hb (Finset.mem_image.mpr ⟨2, Finset.mem_univ _, e.symm⟩)

theorem W3_out (c : Dev nD) : V3 m ρ c main_call1_v0 = (dat1 (V2 m ρ) c).arrAt 2 cfg1.N := by
  show W3 m ρ c _ = _
  unfold W3; exact Function.update_self ..
theorem W3_of_ne (c : Dev nD) (b : Ref sig .tc) (h : b ≠ main_call1_v0) : V3 m ρ c b = V2 m ρ c b := by
  show W3 m ρ c _ = W2 m ρ c _
  unfold W3; exact Function.update_of_ne (StableHlo.devRef_ne_of_ne h : (Proc.devRef .tc b : DevRef τ sig) ≠ Proc.devRef .tc main_call1_v0) ..
theorem W3_in (c : Dev nD) : V3 m ρ c main_arg1 = V2 m ρ c main_arg1 := W3_of_ne m ρ c main_arg1 (by decide)
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

theorem W5_out (c : Dev nD) : V5 m ρ c main_call2_v0 = (dat2 (V4 m ρ) c).arrAt 2 cfg2.N := by
  show W5 m ρ c _ = _
  unfold W5; exact Function.update_self ..
theorem W5_of_ne (c : Dev nD) (b : Ref sig .tc) (h : b ≠ main_call2_v0) : V5 m ρ c b = V4 m ρ c b := by
  show W5 m ρ c _ = W4 m ρ c _
  unfold W5; exact Function.update_of_ne (StableHlo.devRef_ne_of_ne h : (Proc.devRef .tc b : DevRef τ sig) ≠ Proc.devRef .tc main_call2_v0) ..
theorem hrest2 (c : Dev nD) : ∀ b, b ∉ Finset.univ.image (Pipeline.arrRef spec2) → V5 m ρ c b = V4 m ρ c b :=
  fun b hb => W5_of_ne m ρ c b fun e => hb (Finset.mem_image.mpr ⟨2, Finset.mem_univ _, e.symm⟩)
theorem hF2 (c : Dev nD) (w : Fin cfg2.W) : (dat2 (V4 m ρ) c).arrAt w cfg2.N = V5 m ρ c (Pipeline.arrRef spec2 w) :=
  match w with
  | ⟨0, _⟩ => ((dat2 (V4 m ρ) c).arrAt_in 0 rfl _).trans (W5_of_ne m ρ c main_arg0 (by decide)).symm
  | ⟨1, _⟩ => ((dat2 (V4 m ρ) c).arrAt_in 1 rfl _).trans (W5_of_ne m ρ c main_arg1 (by decide)).symm
  | ⟨2, _⟩ => (W5_out m ρ c).symm

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W0`, left at `W1`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit : (unscopedBufs c (V0 m ρ c) : sProp 𝕄) ⊢ iprop((pdats m ρ 0 c).arrays ((pdats m ρ 0 c).arrAt · 0) ∗ Pipeline.unscopedRest spec0 c (V0 m ρ c)) := by
      rw [Pipeline.unscopedBufs_split₀ cfgs 0 winFacts₀0.arr_unscoped c (V0 m ρ c)]
      exact sep_mono (split0 (V0 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V0 m ρ c)) ⊢ (unscopedBufs c (V1 m ρ c) : sProp 𝕄) := by
      rw [Pipeline.unscopedBufs_split₀ cfgs 0 winFacts₀0.arr_unscoped c (V1 m ρ c)]
      refine sep_mono (join0 (V0 m ρ) c (V1 m ρ c) (W1_in m ρ c) (W1_out m ρ c)) (Entails.of_eq ?_)
      unfold Pipeline.unscopedRest
      exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄) ⊢ iprop((pdats m ρ 1 c).arrays ((pdats m ρ 1 c).arrAt · 0) ∗ Pipeline.unscopedRest spec1 c (V2 m ρ c)) := by
      rw [Pipeline.unscopedBufs_split₀ cfgs 1 winFacts₀1.arr_unscoped c (V2 m ρ c)]
      exact sep_mono (split1 (V2 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c)) ⊢ (unscopedBufs c (V3 m ρ c) : sProp 𝕄) := by
      rw [Pipeline.unscopedBufs_split₀ cfgs 1 winFacts₀1.arr_unscoped c (V3 m ρ c)]
      refine sep_mono (join1 (V2 m ρ) c (V3 m ρ c) (W3_in m ρ c) (W3_out m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. -/
def reg2 : Pipeline.RegionSeg (pcfgs (F := F)) adm (pdats m ρ) () defs₀ 𝒱₀ L lv 2 where
  win := launch2.win.to₀
  block_pos := block_pos2
  stage_whole := stage_whole2
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .host (hseg hostOps3_1 hostOps3_1_sub hostOps3_1_fresh (W6 m ρ)) ]

set_option backward.isDefEq.respectTransparency.types false in
/-- THE RUN: from any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Pair

end
-- ==== Proof.KI.Keep.lean ====
/-
  No item of the program writes an argument array: the host stretches write their own results, a region changes only its
  output array. So both arguments hold their launch contents at every boundary, and the run's frame follows.
-/
import proofs.«152674_j2757369004769_1_alg».proof.Proof.KI.Regions
import Idealize.ShloMosaic.Lib.StableHlo.Run

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_of (c : Dev nD) (r : Ref sig .tc) (h : r ∉ hostOps1_W) : W2 m ρ c r = W1 m ρ c r :=
  StableHlo.after_of_writes_sub hostOps1 _ hostOps1_writes h
theorem W4_of (c : Dev nD) (r : Ref sig .tc) (h : r ∉ hostOps2_W) : W4 m ρ c r = W3 m ρ c r :=
  StableHlo.after_of_writes_sub hostOps2 _ hostOps2_writes h
theorem W6_of (c : Dev nD) (r : Ref sig .tc) (h : r ∉ hostOps3_W) : W6 m ρ c r = W5 m ρ c r :=
  StableHlo.after_of_writes_sub hostOps3 _ hostOps3_writes h
theorem W7_of (c : Dev nD) (r : Ref sig .tc) (h : r ∉ hostOps3_1_W) : W7 m ρ c r = W6 m ρ c r :=
  StableHlo.after_of_writes_sub hostOps3_1 _ hostOps3_1_writes h

/-- An array no item writes holds its launch contents at every boundary. -/
theorem keep (c : Dev nD) (r : Ref sig .tc) (h1 : r ∉ hostOps1_W) (h2 : r ∉ hostOps2_W) (h3 : r ∉ hostOps3_W) (h4 : r ∉ hostOps3_1_W)
    (n0 : r ≠ main_call0_v0) (n1 : r ≠ main_call1_v0) (n2 : r ≠ main_call2_v0) :
    W7 m ρ c r = m ((c : Thread nD τ).loc r) ∧ W4 m ρ c r = m ((c : Thread nD τ).loc r) ∧ W2 m ρ c r = m ((c : Thread nD τ).loc r) := by
  have e1 : W1 m ρ c r = m ((c : Thread nD τ).loc r) := W1_of_ne m ρ c r n0
  have e2 : W2 m ρ c r = m ((c : Thread nD τ).loc r) := (W2_of m ρ c r h1).trans e1
  have e3 : W3 m ρ c r = m ((c : Thread nD τ).loc r) := (W3_of_ne m ρ c r n1).trans e2
  have e4 : W4 m ρ c r = m ((c : Thread nD τ).loc r) := (W4_of m ρ c r h2).trans e3
  have e5 : W5 m ρ c r = m ((c : Thread nD τ).loc r) := (W5_of_ne m ρ c r n2).trans e4
  have e6 : W6 m ρ c r = m ((c : Thread nD τ).loc r) := (W6_of m ρ c r h3).trans e5
  exact ⟨(W7_of m ρ c r h4).trans e6, e4, e2⟩

theorem W7_arg0 (c : Dev nD) : W7 m ρ c main_arg0 = m ((c : Thread nD τ).loc main_arg0) :=
  (keep m ρ c main_arg0 (by decide) (by decide) (by decide) (by decide) (by decide) (by decide) (by decide)).1
theorem W7_arg1 (c : Dev nD) : W7 m ρ c main_arg1 = m ((c : Thread nD τ).loc main_arg1) :=
  (keep m ρ c main_arg1 (by decide) (by decide) (by decide) (by decide) (by decide) (by decide) (by decide)).1

/-- THE FRAME: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W7_arg0 m ρ c),
    (h c _ (mem_uc main_arg1 (by decide))).trans (W7_arg1 m ρ c)⟩) (run_all m ρ)

end Cert.KernelIdeal.Pair

end
-- ==== Proof.KI.Acc0.lean ====
/-
  Region 0: what each control case leaves in the accumulator and in the output row, as ONE term of the tile's two input blocks and of what the tile before left: the five lane-masked partial sums added in turn.
-/
import proofs.«152674_j2757369004769_1_alg».proof.Proof.KI.Points0
import Idealize.ShloMosaic.Lib.Pipeline.Value

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

/-- One tile's update of the accumulator: the five lane-masked partial sums of the tile added, one after the other, onto `s`. -/
def acc0 (x0 x1 : Vec F S1024x256 .f32) (s : Vec F S1x128 .f32) : Vec F S1x128 .f32 :=
  k0_pay10 (k0_pay2 x0 x1) (iota .tc S1x128 32 [1] iota_S1x128_d1_w32)
    (k0_pay9 (k0_pay2 x0 x1) (iota .tc S1x128 32 [1] iota_S1x128_d1_w32)
      (k0_pay8 (k0_pay2 x0 x1) (iota .tc S1x128 32 [1] iota_S1x128_d1_w32)
        (k0_pay7 (k0_pay2 x0 x1) (iota .tc S1x128 32 [1] iota_S1x128_d1_w32)
          (k0_pay6 k0_pay3 s (k0_pay4 x0 x1) k0_pay5))))

theorem soutA0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first0 i) (hc1 : ¬last0 i)
    (x0 x1 : Vec F S1024x256 .f32) :
    sout0_A c i arg2 harg2 arg3 harg3 arg4 harg4 arg5 harg5 hc0 hc1 x0 x1 = acc0 x0 x1 (k0_pay1 (F := F)) := by
  unfold sout0_A
  rw [View.read_writes_eq_canon _ _ _ (scover0_A c i arg2 harg2 arg3 harg3 arg4 harg4 arg5 harg5 hc0 hc1 x0 x1)]
  unfold run0_A
  dsimp only
  try sl_unfold_words
  rw [View.canon_cons_unit_zero hz0]
  simp only [View.readCov_cons_toLoadRect, View.readAt_eq_ld, harg2.read_unread, harg3.read_unread,
    View.ld_unit_zero (S := S1024x256) hz0]
  rfl

theorem soutB0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : ¬last0 i)
    (x0 x1 : Vec F S1024x256 .f32) (xs : Vec F S1x128 .f32) :
    sout0_B c i arg2 harg2 arg3 harg3 arg4 harg4 arg5 harg5 hc0 hc1 x0 x1 xs = acc0 x0 x1 xs := by
  unfold sout0_B
  rw [View.read_writes_eq_canon _ _ _ (scover0_B c i arg2 harg2 arg3 harg3 arg4 harg4 arg5 harg5 hc0 hc1 x0 x1 xs)]
  unfold run0_B
  dsimp only
  try sl_unfold_words
  rw [View.canon_cons_unit_zero hz0]
  simp only [View.readCov_cons_toLoadRect, View.readAt_eq_ld, harg2.read_unread, harg3.read_unread, harg5.read_unread,
    View.ld_unit_zero (S := S1024x256) hz0, View.ld_unit_zero (S := S1x128) hz0]
  rfl

theorem soutC0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) :
    sout0_C c i arg2 harg2 arg3 harg3 arg4 harg4 arg5 harg5 hc0 hc1 x0 x1 xs = acc0 x0 x1 xs := by
  unfold sout0_C
  rw [View.read_writes_eq_canon _ _ _ (scover0_C c i arg2 harg2 arg3 harg3 arg4 harg4 arg5 harg5 hc0 hc1 x0 x1 xs)]
  unfold run0_C
  dsimp only
  try sl_unfold_words
  rw [View.canon_cons_unit_zero hz0]
  simp only [View.readCov_cons_toLoadRect, View.readAt_eq_ld, harg2.read_unread, harg3.read_unread, harg5.read_unread,
    View.ld_unit_zero (S := S1024x256) hz0, View.ld_unit_zero (S := S1x128) hz0]
  rfl

theorem outC0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first0 i) (hc1 : last0 i)
    (x0 x1 : Vec F S1024x256 .f32) (xs : Vec F S1x128 .f32) :
    out0_C c i arg2 harg2 arg3 harg3 arg4 harg4 arg5 harg5 hc0 hc1 x0 x1 xs = acc0 x0 x1 xs := by
  unfold out0_C
  rw [View.read_writes_eq_canon _ _ _ (cover0_C c i arg2 harg2 arg3 harg3 arg4 harg4 arg5 harg5 hc0 hc1 x0 x1 xs)]
  unfold run0_C
  dsimp only
  try sl_unfold_words
  rw [View.canon_cons_unit_zero hz0]
  simp only [View.readCov_cons_toLoadRect, View.readAt_eq_ld, harg2.read_unread, harg3.read_unread, harg5.read_unread,
    View.ld_unit_zero (S := S1024x256) hz0, View.ld_unit_zero (S := S1x128) hz0]
  rfl

end Cert.KernelIdeal.Pair

end
-- ==== Proof.Spec.lean ====
/-
  The mathematics both programs compute, over the extended reals: for two 4096 x 256 arrays X, Y the squared distance of row
  i of X and row j of Y by the Gram identity, clamped below at zero,

      sqd X Y i j = max (|X i|² + |Y j|² − 2 · ⟨X i, Y j⟩) 0,

  the sum over all 4096² pairs of exp (c · sqd X Y i j) for a coefficient c (one per bandwidth), the mean over pairs and
  bandwidths in the two groupings the programs use, and the final statistic sqrt (m11 − 2 · m12 + m22). Float literals stay
  the words the programs carry; only their relations are ever evaluated.
-/
import Idealize.ShloMosaic.PureOps.Ideal
import Idealize.ShloMosaic.Lib.ValueIdx

noncomputable section

namespace Cert.Mmd

open Idealize.ShloMosaic

/-- A 4096 x 256 array of extended reals. -/
abbrev Mat : Type := (⟨2, ![4096, 256]⟩ : Shape).Idx → EReal

/-- The literals' values: 2.0, 0.0, 16.0, 2^24, 5.0, 5 · 2^24. -/
def two : EReal := Ideal.ofBits .f32 0x40000000#32
def zero : EReal := Ideal.ofBits .f32 0x00000000#32
def sixteen : EReal := Ideal.ofBits .f32 0x41800000#32
def pairs : EReal := Ideal.ofBits .f32 0x4B800000#32
def five : EReal := Ideal.ofBits .f32 0x40A00000#32
def pairs5 : EReal := Ideal.ofBits .f32 0x4CA00000#32

/-- The squared norm of row `i`. -/
def rowSq (X : Mat) (i : Fin 4096) : EReal := ∑ k : Fin 256, X (ValueIdx.ix2 i k) * X (ValueIdx.ix2 i k)
/-- The inner product of row `i` of `X` and row `j` of `Y`. -/
def rowDot (X Y : Mat) (i j : Fin 4096) : EReal := ∑ k : Fin 256, X (ValueIdx.ix2 i k) * Y (ValueIdx.ix2 j k)
/-- The clamped squared distance by the Gram identity. -/
def sqd (X Y : Mat) (i j : Fin 4096) : EReal := max ((rowSq X i + rowSq Y j) - two * rowDot X Y i j) zero
/-- The sum over all pairs of rows of exp (c · squared distance). -/
def ksum (c : EReal) (X Y : Mat) : EReal := ∑ i : Fin 4096, ∑ j : Fin 4096, Ideal.exp (c * sqd X Y i j)

/-- The reference's five coefficients: minus sixteen times each bandwidth's literal. -/
def rc (g : BitVec 32) : EReal := -(sixteen * Ideal.ofBits .f32 g)
/-- The reference's mean over pairs at one bandwidth: the total from zero, divided by the number of pairs. -/
def rterm (g : BitVec 32) (X Y : Mat) : EReal := Ideal.div (zero + ksum (rc g) X Y) pairs
/-- The reference's mean over pairs and bandwidths: the five per-bandwidth means added from zero in order, divided by five. -/
def refMean (X Y : Mat) : EReal :=
  Ideal.div (((((zero + rterm 0x3F000000#32 X Y) + rterm 0x3E000000#32 X Y) + rterm 0x3CA3D70A#32 X Y) + rterm 0x3BA3D70A#32 X Y)
    + rterm 0x3AA3D70A#32 X Y) five
/-- The reference's result. -/
def refResult (X1 X2 : Mat) : EReal := Ideal.sqrt ((refMean X1 X1 - two * refMean X1 X2) + refMean X2 X2)

/-- The kernel's five coefficients, as the words it carries. -/
def kc : Fin 5 → EReal := ![Ideal.ofBits .f32 0xC1000000#32, Ideal.ofBits .f32 0xC0000000#32, Ideal.ofBits .f32 0xBEA3D70A#32,
  Ideal.ofBits .f32 0xBDA3D70A#32, Ideal.ofBits .f32 0xBCA3D70A#32]
/-- The kernel's mean over pairs and bandwidths: the five totals added from zero, divided by five times the number of pairs. -/
def kerMean (X Y : Mat) : EReal := Ideal.div (zero + ∑ l : Fin 5, ksum (kc l) X Y) pairs5
/-- The kernel's result. -/
def kerResult (X1 X2 : Mat) : EReal := Ideal.sqrt ((kerMean X1 X1 - two * kerMean X1 X2) + kerMean X2 X2)

end Cert.Mmd

end
-- ==== Proof.TileSpec.lean ====
/-
  One 1024 x 1024 tile of the pairwise computation, over two 1024 x 256 blocks of rows: the clamped squared distance of row p
  of the first block and row q of the second by the Gram identity, and the tile's sum of exp (c · squared distance).
-/
import proofs.«152674_j2757369004769_1_alg».proof.Proof.Spec

noncomputable section

namespace Cert.Mmd

open Idealize.ShloMosaic

/-- A 1024 x 256 block of rows. -/
abbrev Blk : Type := (⟨2, ![1024, 256]⟩ : Shape).Idx → EReal

def trowSq (x : Blk) (p : Fin 1024) : EReal := ∑ k : Fin 256, x (ValueIdx.ix2 p k) * x (ValueIdx.ix2 p k)
def tdot (x0 x1 : Blk) (p q : Fin 1024) : EReal := ∑ k : Fin 256, x0 (ValueIdx.ix2 p k) * x1 (ValueIdx.ix2 q k)
def tsqd (x0 x1 : Blk) (p q : Fin 1024) : EReal := max ((trowSq x0 p + trowSq x1 q) - two * tdot x0 x1 p q) zero
/-- The tile's sum of exp (c · squared distance) over its 1024² pairs. -/
def tsum (c : EReal) (x0 x1 : Blk) : EReal := ∑ p : Fin 1024, ∑ q : Fin 1024, Ideal.exp (c * tsqd x0 x1 p q)

/-- One tile's update of an accumulator lane: the five bandwidths' tile sums, each added on its own lane and zero elsewhere. -/
def laneStep (x0 x1 : Blk) (l : Fin 128) (s : EReal) : EReal :=
  ((((s + (if l.val = 0 then tsum (kc 0) x0 x1 else zero)) + (if l.val = 1 then tsum (kc 1) x0 x1 else zero))
      + (if l.val = 2 then tsum (kc 2) x0 x1 else zero)) + (if l.val = 3 then tsum (kc 3) x0 x1 else zero))
    + (if l.val = 4 then tsum (kc 4) x0 x1 else zero)

/-- Row `p` of block `a` of a 4096-row array: row 1024 · a + p. -/
def cat (a : Fin 4) (p : Fin 1024) : Fin 4096 := ⟨1024 * a.val + p.val, by have := a.isLt; have := p.isLt; omega⟩
/-- Block `a` of the rows of a 4096 x 256 array. -/
def rows (X : Mat) (a : Fin 4) : Blk := fun y => X (ValueIdx.ix2 (cat a (y 0)) (y 1))
/-- The tile the grid visits at step `n` (row-major over the 4 x 4 grid): block row n / 4, block column n % 4. -/
def tileRow (n : ℕ) : Fin 4 := ⟨n / 4 % 4, Nat.mod_lt _ (by decide)⟩
def tileCol (n : ℕ) : Fin 4 := ⟨n % 4, Nat.mod_lt _ (by decide)⟩
/-- Lane `l` of the accumulator after the tiles 0 … n, from zero. -/
def accTot (X Y : Mat) (l : Fin 128) : ℕ → EReal
  | 0 => laneStep (rows X (tileRow 0)) (rows Y (tileCol 0)) l zero
  | n + 1 => laneStep (rows X (tileRow (n + 1))) (rows Y (tileCol (n + 1))) l (accTot X Y l n)

end Cert.Mmd

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibDotFreeAxis.lean ====
/-
  The free (non-contracted, non-batch) axes of a matrix product's operand indices.

  A product's dimension numbers say, for every axis of each operand, where its coordinate comes from: a free axis of
  the left operand reads the output index at the axis's place among the left free axes (after the batch axes), a free
  axis of the right operand reads it after all of the left operand's. With no batch axes and one free axis on each
  side, the left operand's free coordinate is the output's coordinate 0 and the right operand's is the output's
  coordinate 1, whatever the contraction position is. These are the companions, for the free axes, of the
  library's statements about the single contracted axis.
-/
import Idealize.ShloMosaic.PureOps.Dims

namespace Cert.Lib.DotFreeAxis

open Idealize.ShloMosaic

variable {sl sr so : Shape} (d : DotDims sl sr so)

/-- No batch axes, one left free axis a: the left operand's coordinate on a is the output's coordinate 0. -/
theorem lhsIdx_val_of_free {a : Fin sl.rank} (hb : d.lhsBatch = []) (hn : d.lhsNonContracting = [a])
    (h0 : 0 < so.rank) (j : so.Idx) (k : d.contr.Idx) :
    (d.lhsIdx j k a).val = (j ⟨0, h0⟩).val := by
  have h1 : a ∉ d.lhsBatch := by rw [hb]; exact List.not_mem_nil
  have h2 : a ∈ d.lhsNonContracting := by rw [hn]; exact List.mem_singleton.mpr rfl
  unfold DotDims.lhsIdx
  rw [dif_neg h1, dif_pos h2]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axes, one free axis on each side: the right operand's coordinate on its free axis a is the output's
    coordinate 1. -/
theorem rhsIdx_val_of_free {a : Fin sr.rank} {a' : Fin sl.rank} (hb : d.lhsBatch = []) (hb' : d.rhsBatch = [])
    (hn' : d.lhsNonContracting = [a']) (hn : d.rhsNonContracting = [a])
    (h1 : 1 < so.rank) (j : so.Idx) (k : d.contr.Idx) :
    (d.rhsIdx j k a).val = (j ⟨1, h1⟩).val := by
  have h2 : a ∉ d.rhsBatch := by rw [hb']; exact List.not_mem_nil
  have h3 : a ∈ d.rhsNonContracting := by rw [hn]; exact List.mem_singleton.mpr rfl
  unfold DotDims.rhsIdx
  rw [dif_neg h2, dif_pos h3]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn', hn])

end Cert.Lib.DotFreeAxis
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.KI.Tile0.lean ====
/-
  The tile's payloads read at the extended reals (region 0's spelling; the other regions' are the same terms): the distance
  matrix entry by entry — the row norms by lane sums carried through a column and a row, the Gram term by the matrix unit's
  product of the first block and the transposed second block —, each bandwidth's partial sum as the tile's double sum, and one
  tile's update of the accumulator lane by lane.
-/
import proofs.«152674_j2757369004769_1_alg».proof.Proof.KI.Acc0
import proofs.«152674_j2757369004769_1_alg».proof.Proof.TileSpec
import proofs.«152674_j2757369004769_1_alg».proof.Proof.LibOneAxisDot
import proofs.«152674_j2757369004769_1_alg».proof.Proof.LibDotFreeAxis
import proofs.«152674_j2757369004769_1_alg».proof.Proof.LibKeepdimsColumn
import Idealize.ShloMosaic.PureOps.Ideal.Laws
import Idealize.ShloMosaic.Lib.ValueIdx
import Idealize.ShloMosaic.Lib.Pipeline.Value

set_option maxRecDepth 16384

noncomputable section

namespace Cert.KernelIdeal.Tile0

open Cert.KernelIdeal Cert.KernelIdeal.Gen Cert.Mmd
open Idealize.ShloMosaic Idealize.ShloMosaic.ValueIdx

/-- A row's squared norm: the lane sum of the entrywise square. -/
theorem rowSq_at (x : FVec Ideal S1024x256 .f32) (p : Fin 1024) :
    multiReduction .add [1] S1024 (mulf x x) 0x00000000#32 reduces_S1024x256_S1024 (.inl rfl) rfl (ix1 p) = trowSq x p := by
  refine (Ideal.multiReduction_add_single (mulf x x) 0x00000000#32 reduces_S1024x256_S1024 (.inl rfl) rfl (ix1 p)).trans ?_
  unfold trowSq
  refine Finset.sum_congr rfl fun k _ => ?_
  rw [mulf_apply]
  have e : reduces_S1024x256_S1024.lift (ix1 p) k = ix2 p k :=
    funext fun a => Fin.ext (by match a with | ⟨0, _⟩ => rfl | ⟨1, _⟩ => rfl)
  exact congrArg (fun i => x i * x i) e

/-- The Gram term: the matrix unit's product of the first block with the transposed second block, into zero. -/
theorem dot_at (x0 x1 : FVec Ideal S1024x256 .f32) (p q : Fin 1024) :
    matmul dot_S1024x256_S256x1024_S1024x1024_1_0_0_1_n_n none (truncf .bf16 x0 bitsLt_bf16_f32)
        (transpose S256x1024 [1, 0] (truncf .bf16 x1 bitsLt_bf16_f32) transposes_S1024x256_p1_0_S256x1024)
        (constant S1024x1024 .f32 0x00000000#32) (ix2 p q)
      = tdot x0 x1 p q := by
  refine (Cert.Lib.OneAxisDot.matmul_zero_apply_at dot_S1024x256_S256x1024_S1024x1024_1_0_0_1_n_n 256 rfl rfl none _ _ (ix2 p q)
    (fun k => ix2 p k) (fun k => ix2 k q) ?_ ?_).trans ?_
  · intro k; funext a; apply Fin.ext
    match a with
    | ⟨0, _⟩ => exact Cert.Lib.DotFreeAxis.lhsIdx_val_of_free _ rfl rfl (by decide) _ _
    | ⟨1, _⟩ => exact (DotDims.lhsIdx_val_of_single _ rfl _ _).trans (contrEquiv1_symm_val _ 256 rfl rfl k)
  · intro k; funext a; apply Fin.ext
    match a with
    | ⟨0, _⟩ => exact (DotDims.rhsIdx_val_of_single _ rfl _ _).trans (contrEquiv1_symm_val _ 256 rfl rfl k)
    | ⟨1, _⟩ => exact Cert.Lib.DotFreeAxis.rhsIdx_val_of_free _ rfl rfl rfl rfl (by decide) _ _
  · unfold tdot
    refine Finset.sum_congr rfl fun k _ => ?_
    rw [truncf_apply]
    refine congrArg (x0 (ix2 p k) * ·) ?_
    exact (transpose_apply [1, 0] _ transposes_S1024x256_p1_0_S256x1024 (ix2 k q) (ix2 q k)
      (fun b => by match b with | ⟨0, _⟩ => rfl | ⟨1, _⟩ => rfl)).trans (truncf_apply _ _ _)

/-- A row of per-column numbers carried to the matrix's shape: reshaped to a column, transposed to a row, broadcast down the rows. -/
theorem row_at {α : Type} (u : S1024.Idx → α) (p q : Fin 1024) :
    broadcastTo S1024x1024 (transpose S1x1024 [1, 0] (shapeCast S1024x1 u shapeCasts_S1024_S1024x1) transposes_S1024x1_p1_0_S1x1024)
        broadcasts_S1x1024_S1024x1024 (ix2 p q) = u (ix1 q) := by
  refine (broadcastTo_apply _ broadcasts_S1x1024_S1024x1024 (ix2 p q) (ix2 (n0 := 1) (n1 := 1024) ⟨0, Nat.one_pos⟩ q)
    (fun d => by match d with | ⟨0, _⟩ => rfl | ⟨1, _⟩ => rfl)).trans ?_
  refine (transpose_apply [1, 0] _ transposes_S1024x1_p1_0_S1x1024 _ (ix2 (n0 := 1024) (n1 := 1) q ⟨0, Nat.one_pos⟩)
    (fun b => by match b with | ⟨0, _⟩ => rfl | ⟨1, _⟩ => rfl)).trans ?_
  exact Cert.Lib.KeepdimsColumn.column_cast_at u shapeCasts_S1024_S1024x1 q

/-- The distance matrix, entry by entry. -/
theorem pay2_at (x0 x1 : FVec Ideal S1024x256 .f32) (p q : Fin 1024) :
    k0_pay2 (F := Ideal) x0 x1 (ix2 p q) = tsqd x0 x1 p q := by
  have hA := (Cert.Lib.KeepdimsColumn.column_at
      (multiReduction .add [1] S1024 (mulf x0 x0) 0x00000000#32 reduces_S1024x256_S1024 (.inl rfl) rfl)
      shapeCasts_S1024_S1024x1 broadcasts_S1024x1_S1024x1024 p q).trans (rowSq_at x0 p)
  have hB := (row_at (multiReduction .add [1] S1024 (mulf x1 x1) 0x00000000#32 reduces_S1024x256_S1024 (.inl rfl) rfl) p q).trans
      (rowSq_at x1 q)
  have hD := dot_at x0 x1 p q
  unfold k0_pay2 tsqd
  show max ((_ + _) - _ * _) _ = _
  rw [hA, hB, hD]
  rfl

/-- One bandwidth's partial sum over the tile: the sum over every entry of exp (coefficient · distance). -/
theorem partial_at (b : BitVec 32) (D : FVec Ideal S1024x1024 .f32) :
    extractAt ![0, 0, 0] (shapeCast S1x1x1 (multiReduction .add [1, 2] S1
        (shapeCast S1x1024x1024 (exp (mulf (broadcast S1024x1024 (Scalar.ofBits .f32 b : Ideal .f32)) D)) shapeCasts_S1024x1024_S1x1024x1024)
        0x00000000#32 reduces_S1x1024x1024_S1 (.inl rfl) rfl) shapeCasts_S1_S1x1x1) inpos_S1x1x1_p0_0_0
      = ∑ p : Fin 1024, ∑ q : Fin 1024, Ideal.exp (Ideal.ofBits .f32 b * D (ix2 p q)) := by
  unfold extractAt
  show multiReduction .add [1, 2] S1 _ 0x00000000#32 reduces_S1x1024x1024_S1 (.inl rfl) rfl _ = _
  refine (Ideal.multiReduction_add_total _ 0x00000000#32 reduces_S1x1024x1024_S1 (by decide) (.inl rfl) rfl _).trans ?_
  refine (Equiv.sum_comp (Shape.reshapeEquiv shapeCasts_S1024x1024_S1x1024x1024)
    (exp (mulf (broadcast S1024x1024 (Scalar.ofBits .f32 b : Ideal .f32)) D))).trans ?_
  refine (sum_idx2 _).trans ?_
  rfl

/-- Comparing a lane number with a constant below 128 selects exactly that lane. -/
theorem lane_pick {α : Type} (l : Fin 128) (k : ℕ) (hk : k < 128) (A B : α) :
    Scalar.select (IntOp.cmpi .eq (BitVec.ofNat 32 l.val) (BitVec.ofNat 32 k)) A B = if l.val = k then A else B := by
  unfold Scalar.select IntOp.cmpi
  by_cases h : l.val = k
  · simp [h]
  · have hne : (BitVec.ofNat 32 l.val) ≠ (BitVec.ofNat 32 k) := by
      intro e; apply h
      have e' := congrArg BitVec.toNat e
      simp only [BitVec.toNat_ofNat] at e'
      have hl := l.isLt
      omega
    have hb : (BitVec.ofNat 32 l.val == BitVec.ofNat 32 k) = false := by simpa [beq_eq_false_iff_ne] using hne
    simp [h, hb]

/-- A partial sum added onto one lane of the accumulator row and zero onto the others. -/
theorem masked_add (prev : FVec Ideal S1x128 .f32) (k : ℕ) (hk : k < 128) (P : EReal) (l : Fin 128) :
    addf prev (select (cmpi .eq (iota .tc S1x128 32 [1] iota_S1x128_d1_w32) (broadcast S1x128 (BitVec.ofNat 32 k)))
        (broadcast S1x128 P) (broadcast S1x128 (Scalar.ofBits .f32 0x00000000#32 : Ideal .f32))) (ix2 ⟨0, Nat.one_pos⟩ l)
      = prev (ix2 ⟨0, Nat.one_pos⟩ l) + (if l.val = k then P else zero) := by
  rw [addf_apply, select_apply]
  show _ + Scalar.select (IntOp.cmpi .eq (iota .tc S1x128 32 [1] iota_S1x128_d1_w32 (ix2 ⟨0, Nat.one_pos⟩ l)) (BitVec.ofNat 32 k)) P zero = _
  rw [iota_single_apply]
  exact congrArg (prev (ix2 ⟨0, Nat.one_pos⟩ l) + ·) (lane_pick l k hk P zero)

/-- The tile's partial sum at one bandwidth is the tile's double sum of exponentials. -/
theorem partial_total (b : BitVec 32) (x0 x1 : FVec Ideal S1024x256 .f32) :
    (∑ p : Fin 1024, ∑ q : Fin 1024, Ideal.exp (Ideal.ofBits .f32 b * k0_pay2 (F := Ideal) x0 x1 (ix2 p q)))
      = Cert.Mmd.tsum (Ideal.ofBits .f32 b) x0 x1 := by
  unfold Cert.Mmd.tsum
  exact Finset.sum_congr rfl fun p _ => Finset.sum_congr rfl fun q _ => by rw [pay2_at]

theorem pay6_at (x0 x1 : FVec Ideal S1024x256 .f32) (s : FVec Ideal S1x128 .f32) (l : Fin 128) :
    k0_pay6 (F := Ideal) k0_pay3 s (k0_pay4 x0 x1) k0_pay5 (ix2 ⟨0, Nat.one_pos⟩ l)
      = s (ix2 ⟨0, Nat.one_pos⟩ l) + (if l.val = 0 then Cert.Mmd.tsum (kc 0) x0 x1 else zero) := by
  unfold k0_pay6 k0_pay3 k0_pay4 k0_pay5
  dsimp only
  rw [shapeCast_self]
  refine (masked_add s 0 (by decide) _ l).trans ?_
  rw [partial_at, partial_total]
  rfl

theorem pay7_at (x0 x1 : FVec Ideal S1024x256 .f32) (s : FVec Ideal S1x128 .f32) (l : Fin 128) :
    k0_pay7 (F := Ideal) (k0_pay2 x0 x1) (iota .tc S1x128 32 [1] iota_S1x128_d1_w32) s (ix2 ⟨0, Nat.one_pos⟩ l)
      = s (ix2 ⟨0, Nat.one_pos⟩ l) + (if l.val = 1 then Cert.Mmd.tsum (kc 1) x0 x1 else zero) := by
  unfold k0_pay7
  dsimp only
  rw [shapeCast_self]
  refine (masked_add s 1 (by decide) _ l).trans ?_
  rw [partial_at, partial_total]
  rfl

theorem pay8_at (x0 x1 : FVec Ideal S1024x256 .f32) (s : FVec Ideal S1x128 .f32) (l : Fin 128) :
    k0_pay8 (F := Ideal) (k0_pay2 x0 x1) (iota .tc S1x128 32 [1] iota_S1x128_d1_w32) s (ix2 ⟨0, Nat.one_pos⟩ l)
      = s (ix2 ⟨0, Nat.one_pos⟩ l) + (if l.val = 2 then Cert.Mmd.tsum (kc 2) x0 x1 else zero) := by
  unfold k0_pay8
  dsimp only
  rw [shapeCast_self]
  refine (masked_add s 2 (by decide) _ l).trans ?_
  rw [partial_at, partial_total]
  rfl

theorem pay9_at (x0 x1 : FVec Ideal S1024x256 .f32) (s : FVec Ideal S1x128 .f32) (l : Fin 128) :
    k0_pay9 (F := Ideal) (k0_pay2 x0 x1) (iota .tc S1x128 32 [1] iota_S1x128_d1_w32) s (ix2 ⟨0, Nat.one_pos⟩ l)
      = s (ix2 ⟨0, Nat.one_pos⟩ l) + (if l.val = 3 then Cert.Mmd.tsum (kc 3) x0 x1 else zero) := by
  unfold k0_pay9
  dsimp only
  rw [shapeCast_self]
  refine (masked_add s 3 (by decide) _ l).trans ?_
  rw [partial_at, partial_total]
  rfl

theorem pay10_at (x0 x1 : FVec Ideal S1024x256 .f32) (s : FVec Ideal S1x128 .f32) (l : Fin 128) :
    k0_pay10 (F := Ideal) (k0_pay2 x0 x1) (iota .tc S1x128 32 [1] iota_S1x128_d1_w32) s (ix2 ⟨0, Nat.one_pos⟩ l)
      = s (ix2 ⟨0, Nat.one_pos⟩ l) + (if l.val = 4 then Cert.Mmd.tsum (kc 4) x0 x1 else zero) := by
  unfold k0_pay10
  dsimp only
  rw [shapeCast_self]
  refine (masked_add s 4 (by decide) _ l).trans ?_
  rw [partial_at, partial_total]
  rfl

/-- One tile's update of the accumulator, lane by lane. -/
theorem acc0_lane (x0 x1 : FVec Ideal S1024x256 .f32) (s : FVec Ideal S1x128 .f32) (l : Fin 128) :
    Cert.KernelIdeal.Pair.acc0 (F := Ideal) x0 x1 s (ix2 ⟨0, Nat.one_pos⟩ l) = laneStep x0 x1 l (s (ix2 ⟨0, Nat.one_pos⟩ l)) := by
  unfold Cert.KernelIdeal.Pair.acc0 laneStep
  rw [pay10_at, pay9_at, pay8_at, pay7_at, pay6_at]

end Cert.KernelIdeal.Tile0

end
-- ==== Proof.MmdAlgebra.lean ====
/-
  The algebra that joins the two programs' groupings of one statistic: the kernel's coefficient words are minus sixteen times
  the reference's; every pair sum of exponentials is non-negative, so dividing a sum of them by a positive constant is dividing
  each; a sum over the 4096 x 4096 pairs is the sum over the 4 x 4 tiles of each tile's sum; and the accumulator lane after the
  sixteenth tile is the whole pair sum of that lane's bandwidth.
-/
import proofs.«152674_j2757369004769_1_alg».proof.Proof.Spec
import proofs.«152674_j2757369004769_1_alg».proof.Proof.TileSpec

noncomputable section

namespace Cert.Mmd

open Idealize.ShloMosaic

/-- The words' values, as dyadic rationals. -/
private theorem w_sixteen : Ideal.ofBits .f32 0x41800000#32 = ((16 : ℝ) : EReal) := by
  simp [Ideal.ofBits, Ideal.ieee]
  norm_num [← EReal.coe_mul]
private theorem w_k0 : Ideal.ofBits .f32 0xC1000000#32 = ((-8 : ℝ) : EReal) := by
  simp [Ideal.ofBits, Ideal.ieee]
  norm_num [← EReal.coe_mul]
private theorem w_k1 : Ideal.ofBits .f32 0xC0000000#32 = ((-2 : ℝ) : EReal) := by
  simp [Ideal.ofBits, Ideal.ieee]
  norm_num [← EReal.coe_mul]
private theorem w_k2 : Ideal.ofBits .f32 0xBEA3D70A#32 = ((-(10737418 : ℝ) / 2 ^ 25 : ℝ) : EReal) := by
  simp [Ideal.ofBits, Ideal.ieee]
  norm_num [← EReal.coe_mul]
private theorem w_k3 : Ideal.ofBits .f32 0xBDA3D70A#32 = ((-(10737418 : ℝ) / 2 ^ 27 : ℝ) : EReal) := by
  simp [Ideal.ofBits, Ideal.ieee]
  norm_num [← EReal.coe_mul]
private theorem w_k4 : Ideal.ofBits .f32 0xBCA3D70A#32 = ((-(10737418 : ℝ) / 2 ^ 29 : ℝ) : EReal) := by
  simp [Ideal.ofBits, Ideal.ieee]
  norm_num [← EReal.coe_mul]
private theorem w_g0 : Ideal.ofBits .f32 0x3F000000#32 = ((1 / 2 : ℝ) : EReal) := by
  simp [Ideal.ofBits, Ideal.ieee]
  norm_num [← EReal.coe_mul]
private theorem w_g1 : Ideal.ofBits .f32 0x3E000000#32 = ((1 / 8 : ℝ) : EReal) := by
  simp [Ideal.ofBits, Ideal.ieee]
  norm_num [← EReal.coe_mul]
private theorem w_g2 : Ideal.ofBits .f32 0x3CA3D70A#32 = (((10737418 : ℝ) / 2 ^ 29 : ℝ) : EReal) := by
  simp [Ideal.ofBits, Ideal.ieee]
  norm_num [← EReal.coe_mul]
private theorem w_g3 : Ideal.ofBits .f32 0x3BA3D70A#32 = (((10737418 : ℝ) / 2 ^ 31 : ℝ) : EReal) := by
  simp [Ideal.ofBits, Ideal.ieee]
  norm_num [← EReal.coe_mul]
private theorem w_g4 : Ideal.ofBits .f32 0x3AA3D70A#32 = (((10737418 : ℝ) / 2 ^ 33 : ℝ) : EReal) := by
  simp [Ideal.ofBits, Ideal.ieee]
  norm_num [← EReal.coe_mul]

/-- Each kernel coefficient word is minus sixteen times the reference's bandwidth word, exactly. -/
theorem kc_eq_rc : kc 0 = rc 0x3F000000#32 ∧ kc 1 = rc 0x3E000000#32 ∧ kc 2 = rc 0x3CA3D70A#32
    ∧ kc 3 = rc 0x3BA3D70A#32 ∧ kc 4 = rc 0x3AA3D70A#32 := by
  refine ⟨?_, ?_, ?_, ?_, ?_⟩
  · show Ideal.ofBits .f32 0xC1000000#32 = -(Ideal.ofBits .f32 0x41800000#32 * Ideal.ofBits .f32 0x3F000000#32)
    rw [w_sixteen, w_k0, w_g0, ← EReal.coe_mul, ← EReal.coe_neg]; norm_num
  · show Ideal.ofBits .f32 0xC0000000#32 = -(Ideal.ofBits .f32 0x41800000#32 * Ideal.ofBits .f32 0x3E000000#32)
    rw [w_sixteen, w_k1, w_g1, ← EReal.coe_mul, ← EReal.coe_neg]; norm_num
  · show Ideal.ofBits .f32 0xBEA3D70A#32 = -(Ideal.ofBits .f32 0x41800000#32 * Ideal.ofBits .f32 0x3CA3D70A#32)
    rw [w_sixteen, w_k2, w_g2, ← EReal.coe_mul, ← EReal.coe_neg]; norm_num
  · show Ideal.ofBits .f32 0xBDA3D70A#32 = -(Ideal.ofBits .f32 0x41800000#32 * Ideal.ofBits .f32 0x3BA3D70A#32)
    rw [w_sixteen, w_k3, w_g3, ← EReal.coe_mul, ← EReal.coe_neg]; norm_num
  · show Ideal.ofBits .f32 0xBCA3D70A#32 = -(Ideal.ofBits .f32 0x41800000#32 * Ideal.ofBits .f32 0x3AA3D70A#32)
    rw [w_sixteen, w_k4, w_g4, ← EReal.coe_mul, ← EReal.coe_neg]; norm_num

/-- The extended exponential is non-negative everywhere. -/
private theorem exp_nonneg (x : EReal) : 0 ≤ Ideal.exp x := by
  induction x using EReal.rec with
  | bot => exact le_refl _
  | coe r => exact EReal.coe_nonneg.mpr (Real.exp_pos r).le
  | top => exact le_top

/-- A pair sum of exponentials is non-negative. -/
theorem ksum_nonneg (c : EReal) (X Y : Mat) : 0 ≤ ksum c X Y := by
  unfold ksum
  exact Finset.sum_nonneg fun i _ => Finset.sum_nonneg fun j _ => exp_nonneg _

/-- The divisor words' values. -/
private theorem zero_eq : zero = 0 := by simp [zero, Ideal.ofBits, Ideal.ieee]
private theorem pairs_eq : pairs = ((16777216 : ℝ) : EReal) := by
  simp [pairs, Ideal.ofBits, Ideal.ieee]
  norm_num [← EReal.coe_mul]
private theorem five_eq : five = ((5 : ℝ) : EReal) := by
  simp [five, Ideal.ofBits, Ideal.ieee]
  norm_num [← EReal.coe_mul]
private theorem pairs5_eq : pairs5 = ((83886080 : ℝ) : EReal) := by
  simp [pairs5, Ideal.ofBits, Ideal.ieee]
  norm_num [← EReal.coe_mul, ← EReal.coe_pow]

/-- The two groupings of the mean over pairs and bandwidths agree. -/
theorem kerMean_eq_refMean (X Y : Mat) : kerMean X Y = refMean X Y := by
  obtain ⟨h0, h1, h2, h3, h4⟩ := kc_eq_rc
  have n0 := ksum_nonneg (kc 0) X Y
  have n1 := ksum_nonneg (kc 1) X Y
  have n2 := ksum_nonneg (kc 2) X Y
  have n3 := ksum_nonneg (kc 3) X Y
  have n4 := ksum_nonneg (kc 4) X Y
  unfold kerMean refMean rterm
  rw [← h0, ← h1, ← h2, ← h3, ← h4, zero_eq, pairs_eq, five_eq, pairs5_eq]
  have da : ∀ x : EReal, Ideal.div x ((16777216 : ℝ) : EReal) = x * ((1 / 16777216 : ℝ) : EReal) :=
    fun x => Ideal.div_coe (by norm_num) x
  have db : ∀ x : EReal, Ideal.div x ((5 : ℝ) : EReal) = x * ((1 / 5 : ℝ) : EReal) :=
    fun x => Ideal.div_coe (by norm_num) x
  have dc : ∀ x : EReal, Ideal.div x ((83886080 : ℝ) : EReal) = x * ((1 / 83886080 : ℝ) : EReal) :=
    fun x => Ideal.div_coe (by norm_num) x
  simp only [da, db, dc, zero_add, Fin.sum_univ_five]
  rw [← EReal.right_distrib_of_nonneg n0 n1, ← EReal.right_distrib_of_nonneg (add_nonneg n0 n1) n2,
    ← EReal.right_distrib_of_nonneg (add_nonneg (add_nonneg n0 n1) n2) n3,
    ← EReal.right_distrib_of_nonneg (add_nonneg (add_nonneg (add_nonneg n0 n1) n2) n3) n4,
    mul_assoc, ← EReal.coe_mul]
  norm_num

theorem kerResult_eq_refResult (X1 X2 : Mat) : kerResult X1 X2 = refResult X1 X2 := by
  unfold kerResult refResult
  rw [kerMean_eq_refMean, kerMean_eq_refMean, kerMean_eq_refMean]

/-- A tile's squared distances are the whole arrays' at the tile's rows. -/
theorem tsqd_rows (X Y : Mat) (a b : Fin 4) (p q : Fin 1024) :
    tsqd (rows X a) (rows Y b) p q = sqd X Y (cat a p) (cat b q) := by
  rfl

/-- The 4096 rows are the four blocks of 1024 rows, one after another. -/
private def catEquiv : Fin 4 × Fin 1024 ≃ Fin 4096 where
  toFun ap := cat ap.1 ap.2
  invFun i := (⟨i.val / 1024, by have := i.isLt; omega⟩, ⟨i.val % 1024, Nat.mod_lt _ (by norm_num)⟩)
  left_inv := by
    rintro ⟨a, p⟩
    have := a.isLt; have := p.isLt
    ext
    · show (1024 * a.val + p.val) / 1024 = a.val
      omega
    · show (1024 * a.val + p.val) % 1024 = p.val
      omega
  right_inv := by
    intro i
    ext
    show 1024 * (i.val / 1024) + i.val % 1024 = i.val
    omega

/-- A sum over the 4096 rows is the sum over the blocks of each block's sum. -/
private theorem sum_cat {M : Type*} [AddCommMonoid M] (f : Fin 4096 → M) :
    ∑ i : Fin 4096, f i = ∑ a : Fin 4, ∑ p : Fin 1024, f (cat a p) := by
  rw [← Fintype.sum_prod_type' (fun a p => f (cat a p))]
  exact (Equiv.sum_comp catEquiv f).symm

/-- The sixteen grid steps are the pairs of a block row and a block column. -/
private def tileEquiv : Fin 16 ≃ Fin 4 × Fin 4 where
  toFun t := (tileRow t.val, tileCol t.val)
  invFun ab := ⟨4 * ab.1.val + ab.2.val, by have := ab.1.isLt; have := ab.2.isLt; omega⟩
  left_inv := by
    intro t
    have := t.isLt
    ext
    show 4 * (t.val / 4 % 4) + t.val % 4 = t.val
    omega
  right_inv := by
    rintro ⟨a, b⟩
    have := a.isLt; have := b.isLt
    ext
    · show (4 * a.val + b.val) / 4 % 4 = a.val
      omega
    · show (4 * a.val + b.val) % 4 = b.val
      omega

/-- The sixteen tiles' sums add up to the whole pair sum. -/
theorem ksum_tiles (c : EReal) (X Y : Mat) :
    ∑ t : Fin 16, tsum c (rows X (tileRow t.val)) (rows Y (tileCol t.val)) = ksum c X Y := by
  have hts : ∀ a b : Fin 4, tsum c (rows X a) (rows Y b)
      = ∑ p : Fin 1024, ∑ q : Fin 1024, Ideal.exp (c * sqd X Y (cat a p) (cat b q)) := by
    intro a b
    unfold tsum
    simp only [tsqd_rows]
  rw [show (∑ t : Fin 16, tsum c (rows X (tileRow t.val)) (rows Y (tileCol t.val)))
      = ∑ ab : Fin 4 × Fin 4, tsum c (rows X ab.1) (rows Y ab.2) from
    Equiv.sum_comp tileEquiv (fun ab : Fin 4 × Fin 4 => tsum c (rows X ab.1) (rows Y ab.2))]
  rw [Fintype.sum_prod_type]
  unfold ksum
  rw [sum_cat]
  refine Finset.sum_congr rfl fun a _ => ?_
  simp only [hts]
  rw [Finset.sum_comm]
  refine Finset.sum_congr rfl fun p _ => ?_
  exact (sum_cat (fun j => Ideal.exp (c * sqd X Y (cat a p) j))).symm

/-- On a lane below five, a tile's update adds that lane's bandwidth's tile sum and nothing else. -/
private theorem laneStep_lt (x0 x1 : Blk) (l : Fin 128) (hl : l.val < 5) (s : EReal) :
    laneStep x0 x1 l s = s + tsum (kc ⟨l.val, hl⟩) x0 x1 := by
  obtain ⟨v, hv⟩ := l
  have hl' : v < 5 := hl
  unfold laneStep
  interval_cases v <;> simp [zero_eq] <;> rfl

/-- The accumulator lane after the tiles 0 … n is the sum of their tile sums. -/
private theorem accTot_eq (X Y : Mat) (l : Fin 128) (hl : l.val < 5) (n : ℕ) :
    accTot X Y l n
      = ∑ t ∈ Finset.range (n + 1), tsum (kc ⟨l.val, hl⟩) (rows X (tileRow t)) (rows Y (tileCol t)) := by
  induction n with
  | zero => rw [accTot, laneStep_lt _ _ l hl, zero_eq, zero_add, Finset.sum_range_one]
  | succ n ih => rw [accTot, laneStep_lt _ _ l hl, ih, Finset.sum_range_succ _ (n + 1)]

/-- Lane l < 5 of the accumulator after the sixteenth tile is the whole pair sum of bandwidth l. -/
theorem accTot_last (X Y : Mat) (l : Fin 128) (hl : l.val < 5) : accTot X Y l 15 = ksum (kc ⟨l.val, hl⟩) X Y := by
  rw [accTot_eq X Y l hl, ← ksum_tiles]
  exact (Fin.sum_univ_eq_sum_range
    (fun t => tsum (kc ⟨l.val, hl⟩) (rows X (tileRow t)) (rows Y (tileCol t))) 16).symm

end Cert.Mmd

end
-- ==== Proof.KI.Fold0.lean ====
/-
  Region 0, read at the extended reals: each input window's block at tile t is a block of 1024 rows of its array (block row
  t / 4 for the first window, block column t % 4 for the second); by induction on the tile, lane l of the accumulator after
  tile n is the fold of the lane's tile updates from zero; the one write-back, at the last tile, covers the output row, so the
  output array ends holding the accumulator's contents after the sixteenth tile.
-/
import proofs.«152674_j2757369004769_1_alg».proof.Proof.KI.Tile0
import proofs.«152674_j2757369004769_1_alg».proof.Proof.MmdAlgebra
import Idealize.ShloMosaic.Lib.Pipeline.Value

set_option maxRecDepth 16384

noncomputable section

namespace Cert.KernelIdeal.Fold0

open Cert.KernelIdeal Cert.KernelIdeal.Gen Cert.KernelIdeal.Pair Cert.Mmd
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The windows' block indices over the grid: the first input window moves with the grid's first coordinate, the second
    with its second; the output window stays. -/
theorem idx_facts : ∀ t : Fin cfg0.N, win0_0.index t 0 = t.val / 4 ∧ win0_0.index t 1 = 0
    ∧ win0_1.index t 0 = t.val % 4 ∧ win0_1.index t 1 = 0 :=
  (by decide +kernel : ∀ t : Fin grid0.N, win0_0.index t 0 = t.val / 4 ∧ win0_0.index t 1 = 0
    ∧ win0_1.index t 0 = t.val % 4 ∧ win0_1.index t 1 = 0)

theorem iblk_0_eq (c : Dev nD) (t : Fin cfg0.N) :
    (iblk0 V c 0 t : Blk) = rows (V c main_arg0 : Mat) (tileRow t.val) := by
  have hN : t.val < 16 := lt_of_lt_of_eq t.isLt (show cfg0.N = 16 from N_0)
  funext y
  unfold iblk0 rows
  rw [View.read_apply]
  show (V c main_arg0 : Mat) _ = (V c main_arg0 : Mat) _
  refine congrArg (V c main_arg0 : Mat) (funext fun a => Fin.ext ?_)
  match a with
  | ⟨0, _⟩ =>
    show win0_0.index t 0 * 1024 + 1 * (y 0).val = 1024 * (t.val / 4 % 4) + (y 0).val
    rw [(idx_facts t).1]; omega
  | ⟨1, _⟩ =>
    show win0_0.index t 1 * 256 + 1 * (y 1).val = (y 1).val
    rw [(idx_facts t).2.1]; omega

theorem iblk_1_eq (c : Dev nD) (t : Fin cfg0.N) :
    (iblk0 V c 1 t : Blk) = rows (V c main_arg0 : Mat) (tileCol t.val) := by
  funext y
  unfold iblk0 rows
  rw [View.read_apply]
  show (V c main_arg0 : Mat) _ = (V c main_arg0 : Mat) _
  refine congrArg (V c main_arg0 : Mat) (funext fun a => Fin.ext ?_)
  match a with
  | ⟨0, _⟩ =>
    show win0_1.index t 0 * 1024 + 1 * (y 0).val = 1024 * (t.val % 4) + (y 0).val
    rw [(idx_facts t).2.2.1]; omega
  | ⟨1, _⟩ =>
    show win0_1.index t 1 * 256 + 1 * (y 1).val = (y 1).val
    rw [(idx_facts t).2.2.2]; omega

/-- The cleared accumulator is zero on every lane. -/
theorem pay1_lane (l : Fin 128) : (k0_pay1 (F := Ideal)) (ix2 ⟨0, Nat.one_pos⟩ l) = zero := by
  unfold k0_pay1
  try dsimp only
  rw [shapeCast_self]
  rfl

/-- Lane l of the accumulator after tile n is the fold of the lane's tile updates from zero. -/
theorem scratch_lane (c : Dev nD) (l : Fin 128) : ∀ (n : ℕ) (hn : n < cfg0.N),
    ((outsAt0 V c n hn).2 : FVec Ideal S1x128 .f32) (ix2 ⟨0, Nat.one_pos⟩ l) = accTot (V c main_arg0 : Mat) (V c main_arg0 : Mat) l n
  | 0, hn => by
    rw [show outsAt0 V c 0 hn = _ from outsAt0_A V c ⟨0, hn⟩ rfl (show ¬ (0 : ℕ) = 15 by decide)]
    dsimp only
    rw [soutA0_eq, Cert.KernelIdeal.Tile0.acc0_lane, pay1_lane, iblk_0_eq, iblk_1_eq]
    rfl
  | n + 1, hn => by
    have ih := scratch_lane c l n (Nat.lt_of_succ_lt hn)
    by_cases h15 : n + 1 = 15
    · rw [show outsAt0 V c (n + 1) hn = _ from outsAt0_C V c ⟨n + 1, hn⟩ (Nat.succ_ne_zero n) h15]
      dsimp only
      rw [soutC0_eq, Cert.KernelIdeal.Tile0.acc0_lane, iblk_0_eq, iblk_1_eq]
      show laneStep _ _ l ((outsAt0 V c n _).2 (ix2 ⟨0, Nat.one_pos⟩ l)) = _
      rw [ih]
      rfl
    · rw [show outsAt0 V c (n + 1) hn = _ from outsAt0_B V c ⟨n + 1, hn⟩ (Nat.succ_ne_zero n) h15]
      dsimp only
      rw [soutB0_eq, Cert.KernelIdeal.Tile0.acc0_lane, iblk_0_eq, iblk_1_eq]
      show laneStep _ _ l ((outsAt0 V c n _).2 (ix2 ⟨0, Nat.one_pos⟩ l)) = _
      rw [ih]
      rfl

/-- The last tile's point. -/
def tLast : Fin cfg0.N := ⟨15, by rw [show cfg0.N = 16 from N_0]; decide⟩

/-- Lane l of the output's staging buffer after the last tile: the accumulator after the sixteenth tile. -/
theorem out_lane (c : Dev nD) (l : Fin 128) :
    ((outsAt0 V c tLast.val tLast.isLt).1 : FVec Ideal S1x128 .f32) (ix2 ⟨0, Nat.one_pos⟩ l) = accTot (V c main_arg0 : Mat) (V c main_arg0 : Mat) l 15 := by
  have ih := scratch_lane V c l 14 (by rw [show cfg0.N = 16 from N_0]; decide)
  rw [show outsAt0 V c tLast.val tLast.isLt = _ from outsAt0_C V c tLast (show ¬ (15 : ℕ) = 0 by decide) rfl]
  dsimp only
  rw [outC0_eq, Cert.KernelIdeal.Tile0.acc0_lane, iblk_0_eq, iblk_1_eq]
  show laneStep _ _ l ((outsAt0 V c 14 _).2 (ix2 ⟨0, Nat.one_pos⟩ l)) = _
  rw [ih]
  rfl

theorem hzz : (![0, 0] : Fin 2 → Nat) = fun _ => 0 := funext fun a => by fin_cases a <;> rfl

/-- The one write-back, at the last tile, writes the staging buffer's contents: the output window's only block, read through
    zero offsets, is the whole row. -/
theorem flushed_eq (c : Dev nD) (t : Fin cfg0.N) (hf : (cfg0.win 2).flush t = true) :
    (dat0 V c).flushed 2 t = ((cfg0.win 2).blk t).view.read (Elt Ideal) ((outsAt0 V c tLast.val tLast.isLt).1) := by
  have hN : cfg0.N = 16 := N_0
  have h1 : t.val = 15 := by have := (flush0_2 t).mp hf; have := t.isLt; omega
  obtain rfl : t = tLast := Fin.ext h1
  show (cfg0.win 2).cut (grid0.coords tLast) ((dat0 V c).after 2 tLast) = _
  rw [after0_2]
  have hz' : (fun a => win0_2.index tLast a * main_call0_v0.ty.shape.size a) = fun _ => 0 := funext fun a => by fin_cases a <;> decide
  exact (Memref.read_access_unit_zero (Elt Ideal) main_call0_v0 hz' (fun a => by rw [congrFun hz' a]; simp) ((outsAt0 V c tLast.val tLast.isLt).1)).symm

/-- So the output array ends holding the staging buffer's contents after the last tile. -/
theorem final_out (c : Dev nD) : (dat0 V c).arrAt 2 cfg0.N = (outsAt0 V c tLast.val tLast.isLt).1 :=
  (dat0 V c).arrAt_eq_of_cover 2 ((outsAt0 V c tLast.val tLast.isLt).1) (flushed_eq V c) fun i =>
    ⟨tLast, (flush0_2 tLast).mpr rfl, by
      show i ∈ ((View.whole main_call0_v0).slice (win0_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 128 from by decide +kernel]; omega⟩

/-- The region's result: lane l < 5 of the output row is the whole pair sum of bandwidth l. -/
theorem region_lane (c : Dev nD) (l : Fin 128) (hl : l.val < 5) :
    ((dat0 V c).arrAt 2 cfg0.N : FVec Ideal S1x128 .f32) (ix2 ⟨0, Nat.one_pos⟩ l) = ksum (kc ⟨l.val, hl⟩) (V c main_arg0 : Mat) (V c main_arg0 : Mat) := by
  rw [final_out, out_lane, accTot_last _ _ l hl]

end Cert.KernelIdeal.Fold0

end
-- ==== Proof.KI.Acc1.lean ====
/-
  Region 1: what each control case leaves in the accumulator and in the output row, as ONE term of the tile's two input blocks and of what the tile before left: the five lane-masked partial sums added in turn.
-/
import proofs.«152674_j2757369004769_1_alg».proof.Proof.KI.Points1
import Idealize.ShloMosaic.Lib.Pipeline.Value

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

/-- One tile's update of the accumulator: the five lane-masked partial sums of the tile added, one after the other, onto `s`. -/
def acc1 (x0 x1 : Vec F S1024x256 .f32) (s : Vec F S1x128 .f32) : Vec F S1x128 .f32 :=
  k1_pay10 (k1_pay2 x0 x1) (iota .tc S1x128 32 [1] iota_S1x128_d1_w32)
    (k1_pay9 (k1_pay2 x0 x1) (iota .tc S1x128 32 [1] iota_S1x128_d1_w32)
      (k1_pay8 (k1_pay2 x0 x1) (iota .tc S1x128 32 [1] iota_S1x128_d1_w32)
        (k1_pay7 (k1_pay2 x0 x1) (iota .tc S1x128 32 [1] iota_S1x128_d1_w32)
          (k1_pay6 k1_pay3 s (k1_pay4 x0 x1) k1_pay5))))

theorem soutA1_eq (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first1 i) (hc1 : ¬last1 i)
    (x0 x1 : Vec F S1024x256 .f32) :
    sout1_A c i arg2 harg2 arg3 harg3 arg4 harg4 arg5 harg5 hc0 hc1 x0 x1 = acc1 x0 x1 (k1_pay1 (F := F)) := by
  unfold sout1_A
  rw [View.read_writes_eq_canon _ _ _ (scover1_A c i arg2 harg2 arg3 harg3 arg4 harg4 arg5 harg5 hc0 hc1 x0 x1)]
  unfold run1_A
  dsimp only
  try sl_unfold_words
  rw [View.canon_cons_unit_zero hz1]
  simp only [View.readCov_cons_toLoadRect, View.readAt_eq_ld, harg2.read_unread, harg3.read_unread,
    View.ld_unit_zero (S := S1024x256) hz1]
  rfl

theorem soutB1_eq (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : ¬last1 i)
    (x0 x1 : Vec F S1024x256 .f32) (xs : Vec F S1x128 .f32) :
    sout1_B c i arg2 harg2 arg3 harg3 arg4 harg4 arg5 harg5 hc0 hc1 x0 x1 xs = acc1 x0 x1 xs := by
  unfold sout1_B
  rw [View.read_writes_eq_canon _ _ _ (scover1_B c i arg2 harg2 arg3 harg3 arg4 harg4 arg5 harg5 hc0 hc1 x0 x1 xs)]
  unfold run1_B
  dsimp only
  try sl_unfold_words
  rw [View.canon_cons_unit_zero hz1]
  simp only [View.readCov_cons_toLoadRect, View.readAt_eq_ld, harg2.read_unread, harg3.read_unread, harg5.read_unread,
    View.ld_unit_zero (S := S1024x256) hz1, View.ld_unit_zero (S := S1x128) hz1]
  rfl

theorem soutC1_eq (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) :
    sout1_C c i arg2 harg2 arg3 harg3 arg4 harg4 arg5 harg5 hc0 hc1 x0 x1 xs = acc1 x0 x1 xs := by
  unfold sout1_C
  rw [View.read_writes_eq_canon _ _ _ (scover1_C c i arg2 harg2 arg3 harg3 arg4 harg4 arg5 harg5 hc0 hc1 x0 x1 xs)]
  unfold run1_C
  dsimp only
  try sl_unfold_words
  rw [View.canon_cons_unit_zero hz1]
  simp only [View.readCov_cons_toLoadRect, View.readAt_eq_ld, harg2.read_unread, harg3.read_unread, harg5.read_unread,
    View.ld_unit_zero (S := S1024x256) hz1, View.ld_unit_zero (S := S1x128) hz1]
  rfl

theorem outC1_eq (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first1 i) (hc1 : last1 i)
    (x0 x1 : Vec F S1024x256 .f32) (xs : Vec F S1x128 .f32) :
    out1_C c i arg2 harg2 arg3 harg3 arg4 harg4 arg5 harg5 hc0 hc1 x0 x1 xs = acc1 x0 x1 xs := by
  unfold out1_C
  rw [View.read_writes_eq_canon _ _ _ (cover1_C c i arg2 harg2 arg3 harg3 arg4 harg4 arg5 harg5 hc0 hc1 x0 x1 xs)]
  unfold run1_C
  dsimp only
  try sl_unfold_words
  rw [View.canon_cons_unit_zero hz1]
  simp only [View.readCov_cons_toLoadRect, View.readAt_eq_ld, harg2.read_unread, harg3.read_unread, harg5.read_unread,
    View.ld_unit_zero (S := S1024x256) hz1, View.ld_unit_zero (S := S1x128) hz1]
  rfl

end Cert.KernelIdeal.Pair

end
-- ==== Proof.KI.Tile1.lean ====
/-
  The tile's payloads read at the extended reals (region 1's spelling; the other regions' are the same terms): the distance
  matrix entry by entry — the row norms by lane sums carried through a column and a row, the Gram term by the matrix unit's
  product of the first block and the transposed second block —, each bandwidth's partial sum as the tile's double sum, and one
  tile's update of the accumulator lane by lane.
-/
import proofs.«152674_j2757369004769_1_alg».proof.Proof.KI.Acc1
import proofs.«152674_j2757369004769_1_alg».proof.Proof.TileSpec
import proofs.«152674_j2757369004769_1_alg».proof.Proof.LibOneAxisDot
import proofs.«152674_j2757369004769_1_alg».proof.Proof.LibDotFreeAxis
import proofs.«152674_j2757369004769_1_alg».proof.Proof.LibKeepdimsColumn
import Idealize.ShloMosaic.PureOps.Ideal.Laws
import Idealize.ShloMosaic.Lib.ValueIdx
import Idealize.ShloMosaic.Lib.Pipeline.Value

set_option maxRecDepth 16384

noncomputable section

namespace Cert.KernelIdeal.Tile1

open Cert.KernelIdeal Cert.KernelIdeal.Gen Cert.Mmd
open Idealize.ShloMosaic Idealize.ShloMosaic.ValueIdx

/-- A row's squared norm: the lane sum of the entrywise square. -/
theorem rowSq_at (x : FVec Ideal S1024x256 .f32) (p : Fin 1024) :
    multiReduction .add [1] S1024 (mulf x x) 0x00000000#32 reduces_S1024x256_S1024 (.inl rfl) rfl (ix1 p) = trowSq x p := by
  refine (Ideal.multiReduction_add_single (mulf x x) 0x00000000#32 reduces_S1024x256_S1024 (.inl rfl) rfl (ix1 p)).trans ?_
  unfold trowSq
  refine Finset.sum_congr rfl fun k _ => ?_
  rw [mulf_apply]
  have e : reduces_S1024x256_S1024.lift (ix1 p) k = ix2 p k :=
    funext fun a => Fin.ext (by match a with | ⟨0, _⟩ => rfl | ⟨1, _⟩ => rfl)
  exact congrArg (fun i => x i * x i) e

/-- The Gram term: the matrix unit's product of the first block with the transposed second block, into zero. -/
theorem dot_at (x0 x1 : FVec Ideal S1024x256 .f32) (p q : Fin 1024) :
    matmul dot_S1024x256_S256x1024_S1024x1024_1_0_0_1_n_n none (truncf .bf16 x0 bitsLt_bf16_f32)
        (transpose S256x1024 [1, 0] (truncf .bf16 x1 bitsLt_bf16_f32) transposes_S1024x256_p1_0_S256x1024)
        (constant S1024x1024 .f32 0x00000000#32) (ix2 p q)
      = tdot x0 x1 p q := by
  refine (Cert.Lib.OneAxisDot.matmul_zero_apply_at dot_S1024x256_S256x1024_S1024x1024_1_0_0_1_n_n 256 rfl rfl none _ _ (ix2 p q)
    (fun k => ix2 p k) (fun k => ix2 k q) ?_ ?_).trans ?_
  · intro k; funext a; apply Fin.ext
    match a with
    | ⟨0, _⟩ => exact Cert.Lib.DotFreeAxis.lhsIdx_val_of_free _ rfl rfl (by decide) _ _
    | ⟨1, _⟩ => exact (DotDims.lhsIdx_val_of_single _ rfl _ _).trans (contrEquiv1_symm_val _ 256 rfl rfl k)
  · intro k; funext a; apply Fin.ext
    match a with
    | ⟨0, _⟩ => exact (DotDims.rhsIdx_val_of_single _ rfl _ _).trans (contrEquiv1_symm_val _ 256 rfl rfl k)
    | ⟨1, _⟩ => exact Cert.Lib.DotFreeAxis.rhsIdx_val_of_free _ rfl rfl rfl rfl (by decide) _ _
  · unfold tdot
    refine Finset.sum_congr rfl fun k _ => ?_
    rw [truncf_apply]
    refine congrArg (x0 (ix2 p k) * ·) ?_
    exact (transpose_apply [1, 0] _ transposes_S1024x256_p1_0_S256x1024 (ix2 k q) (ix2 q k)
      (fun b => by match b with | ⟨0, _⟩ => rfl | ⟨1, _⟩ => rfl)).trans (truncf_apply _ _ _)

/-- A row of per-column numbers carried to the matrix's shape: reshaped to a column, transposed to a row, broadcast down the rows. -/
theorem row_at {α : Type} (u : S1024.Idx → α) (p q : Fin 1024) :
    broadcastTo S1024x1024 (transpose S1x1024 [1, 0] (shapeCast S1024x1 u shapeCasts_S1024_S1024x1) transposes_S1024x1_p1_0_S1x1024)
        broadcasts_S1x1024_S1024x1024 (ix2 p q) = u (ix1 q) := by
  refine (broadcastTo_apply _ broadcasts_S1x1024_S1024x1024 (ix2 p q) (ix2 (n0 := 1) (n1 := 1024) ⟨0, Nat.one_pos⟩ q)
    (fun d => by match d with | ⟨0, _⟩ => rfl | ⟨1, _⟩ => rfl)).trans ?_
  refine (transpose_apply [1, 0] _ transposes_S1024x1_p1_0_S1x1024 _ (ix2 (n0 := 1024) (n1 := 1) q ⟨0, Nat.one_pos⟩)
    (fun b => by match b with | ⟨0, _⟩ => rfl | ⟨1, _⟩ => rfl)).trans ?_
  exact Cert.Lib.KeepdimsColumn.column_cast_at u shapeCasts_S1024_S1024x1 q

/-- The distance matrix, entry by entry. -/
theorem pay2_at (x0 x1 : FVec Ideal S1024x256 .f32) (p q : Fin 1024) :
    k1_pay2 (F := Ideal) x0 x1 (ix2 p q) = tsqd x0 x1 p q := by
  have hA := (Cert.Lib.KeepdimsColumn.column_at
      (multiReduction .add [1] S1024 (mulf x0 x0) 0x00000000#32 reduces_S1024x256_S1024 (.inl rfl) rfl)
      shapeCasts_S1024_S1024x1 broadcasts_S1024x1_S1024x1024 p q).trans (rowSq_at x0 p)
  have hB := (row_at (multiReduction .add [1] S1024 (mulf x1 x1) 0x00000000#32 reduces_S1024x256_S1024 (.inl rfl) rfl) p q).trans
      (rowSq_at x1 q)
  have hD := dot_at x0 x1 p q
  unfold k1_pay2 tsqd
  show max ((_ + _) - _ * _) _ = _
  rw [hA, hB, hD]
  rfl

/-- One bandwidth's partial sum over the tile: the sum over every entry of exp (coefficient · distance). -/
theorem partial_at (b : BitVec 32) (D : FVec Ideal S1024x1024 .f32) :
    extractAt ![0, 0, 0] (shapeCast S1x1x1 (multiReduction .add [1, 2] S1
        (shapeCast S1x1024x1024 (exp (mulf (broadcast S1024x1024 (Scalar.ofBits .f32 b : Ideal .f32)) D)) shapeCasts_S1024x1024_S1x1024x1024)
        0x00000000#32 reduces_S1x1024x1024_S1 (.inl rfl) rfl) shapeCasts_S1_S1x1x1) inpos_S1x1x1_p0_0_0
      = ∑ p : Fin 1024, ∑ q : Fin 1024, Ideal.exp (Ideal.ofBits .f32 b * D (ix2 p q)) := by
  unfold extractAt
  show multiReduction .add [1, 2] S1 _ 0x00000000#32 reduces_S1x1024x1024_S1 (.inl rfl) rfl _ = _
  refine (Ideal.multiReduction_add_total _ 0x00000000#32 reduces_S1x1024x1024_S1 (by decide) (.inl rfl) rfl _).trans ?_
  refine (Equiv.sum_comp (Shape.reshapeEquiv shapeCasts_S1024x1024_S1x1024x1024)
    (exp (mulf (broadcast S1024x1024 (Scalar.ofBits .f32 b : Ideal .f32)) D))).trans ?_
  refine (sum_idx2 _).trans ?_
  rfl

/-- Comparing a lane number with a constant below 128 selects exactly that lane. -/
theorem lane_pick {α : Type} (l : Fin 128) (k : ℕ) (hk : k < 128) (A B : α) :
    Scalar.select (IntOp.cmpi .eq (BitVec.ofNat 32 l.val) (BitVec.ofNat 32 k)) A B = if l.val = k then A else B := by
  unfold Scalar.select IntOp.cmpi
  by_cases h : l.val = k
  · simp [h]
  · have hne : (BitVec.ofNat 32 l.val) ≠ (BitVec.ofNat 32 k) := by
      intro e; apply h
      have e' := congrArg BitVec.toNat e
      simp only [BitVec.toNat_ofNat] at e'
      have hl := l.isLt
      omega
    have hb : (BitVec.ofNat 32 l.val == BitVec.ofNat 32 k) = false := by simpa [beq_eq_false_iff_ne] using hne
    simp [h, hb]

/-- A partial sum added onto one lane of the accumulator row and zero onto the others. -/
theorem masked_add (prev : FVec Ideal S1x128 .f32) (k : ℕ) (hk : k < 128) (P : EReal) (l : Fin 128) :
    addf prev (select (cmpi .eq (iota .tc S1x128 32 [1] iota_S1x128_d1_w32) (broadcast S1x128 (BitVec.ofNat 32 k)))
        (broadcast S1x128 P) (broadcast S1x128 (Scalar.ofBits .f32 0x00000000#32 : Ideal .f32))) (ix2 ⟨0, Nat.one_pos⟩ l)
      = prev (ix2 ⟨0, Nat.one_pos⟩ l) + (if l.val = k then P else zero) := by
  rw [addf_apply, select_apply]
  show _ + Scalar.select (IntOp.cmpi .eq (iota .tc S1x128 32 [1] iota_S1x128_d1_w32 (ix2 ⟨0, Nat.one_pos⟩ l)) (BitVec.ofNat 32 k)) P zero = _
  rw [iota_single_apply]
  exact congrArg (prev (ix2 ⟨0, Nat.one_pos⟩ l) + ·) (lane_pick l k hk P zero)

/-- The tile's partial sum at one bandwidth is the tile's double sum of exponentials. -/
theorem partial_total (b : BitVec 32) (x0 x1 : FVec Ideal S1024x256 .f32) :
    (∑ p : Fin 1024, ∑ q : Fin 1024, Ideal.exp (Ideal.ofBits .f32 b * k1_pay2 (F := Ideal) x0 x1 (ix2 p q)))
      = Cert.Mmd.tsum (Ideal.ofBits .f32 b) x0 x1 := by
  unfold Cert.Mmd.tsum
  exact Finset.sum_congr rfl fun p _ => Finset.sum_congr rfl fun q _ => by rw [pay2_at]

theorem pay6_at (x0 x1 : FVec Ideal S1024x256 .f32) (s : FVec Ideal S1x128 .f32) (l : Fin 128) :
    k1_pay6 (F := Ideal) k1_pay3 s (k1_pay4 x0 x1) k1_pay5 (ix2 ⟨0, Nat.one_pos⟩ l)
      = s (ix2 ⟨0, Nat.one_pos⟩ l) + (if l.val = 0 then Cert.Mmd.tsum (kc 0) x0 x1 else zero) := by
  unfold k1_pay6 k1_pay3 k1_pay4 k1_pay5
  dsimp only
  rw [shapeCast_self]
  refine (masked_add s 0 (by decide) _ l).trans ?_
  rw [partial_at, partial_total]
  rfl

theorem pay7_at (x0 x1 : FVec Ideal S1024x256 .f32) (s : FVec Ideal S1x128 .f32) (l : Fin 128) :
    k1_pay7 (F := Ideal) (k1_pay2 x0 x1) (iota .tc S1x128 32 [1] iota_S1x128_d1_w32) s (ix2 ⟨0, Nat.one_pos⟩ l)
      = s (ix2 ⟨0, Nat.one_pos⟩ l) + (if l.val = 1 then Cert.Mmd.tsum (kc 1) x0 x1 else zero) := by
  unfold k1_pay7
  dsimp only
  rw [shapeCast_self]
  refine (masked_add s 1 (by decide) _ l).trans ?_
  rw [partial_at, partial_total]
  rfl

theorem pay8_at (x0 x1 : FVec Ideal S1024x256 .f32) (s : FVec Ideal S1x128 .f32) (l : Fin 128) :
    k1_pay8 (F := Ideal) (k1_pay2 x0 x1) (iota .tc S1x128 32 [1] iota_S1x128_d1_w32) s (ix2 ⟨0, Nat.one_pos⟩ l)
      = s (ix2 ⟨0, Nat.one_pos⟩ l) + (if l.val = 2 then Cert.Mmd.tsum (kc 2) x0 x1 else zero) := by
  unfold k1_pay8
  dsimp only
  rw [shapeCast_self]
  refine (masked_add s 2 (by decide) _ l).trans ?_
  rw [partial_at, partial_total]
  rfl

theorem pay9_at (x0 x1 : FVec Ideal S1024x256 .f32) (s : FVec Ideal S1x128 .f32) (l : Fin 128) :
    k1_pay9 (F := Ideal) (k1_pay2 x0 x1) (iota .tc S1x128 32 [1] iota_S1x128_d1_w32) s (ix2 ⟨0, Nat.one_pos⟩ l)
      = s (ix2 ⟨0, Nat.one_pos⟩ l) + (if l.val = 3 then Cert.Mmd.tsum (kc 3) x0 x1 else zero) := by
  unfold k1_pay9
  dsimp only
  rw [shapeCast_self]
  refine (masked_add s 3 (by decide) _ l).trans ?_
  rw [partial_at, partial_total]
  rfl

theorem pay10_at (x0 x1 : FVec Ideal S1024x256 .f32) (s : FVec Ideal S1x128 .f32) (l : Fin 128) :
    k1_pay10 (F := Ideal) (k1_pay2 x0 x1) (iota .tc S1x128 32 [1] iota_S1x128_d1_w32) s (ix2 ⟨0, Nat.one_pos⟩ l)
      = s (ix2 ⟨0, Nat.one_pos⟩ l) + (if l.val = 4 then Cert.Mmd.tsum (kc 4) x0 x1 else zero) := by
  unfold k1_pay10
  dsimp only
  rw [shapeCast_self]
  refine (masked_add s 4 (by decide) _ l).trans ?_
  rw [partial_at, partial_total]
  rfl

/-- One tile's update of the accumulator, lane by lane. -/
theorem acc1_lane (x0 x1 : FVec Ideal S1024x256 .f32) (s : FVec Ideal S1x128 .f32) (l : Fin 128) :
    Cert.KernelIdeal.Pair.acc1 (F := Ideal) x0 x1 s (ix2 ⟨0, Nat.one_pos⟩ l) = laneStep x0 x1 l (s (ix2 ⟨0, Nat.one_pos⟩ l)) := by
  unfold Cert.KernelIdeal.Pair.acc1 laneStep
  rw [pay10_at, pay9_at, pay8_at, pay7_at, pay6_at]

end Cert.KernelIdeal.Tile1

end
-- ==== Proof.KI.Fold1.lean ====
/-
  Region 1, read at the extended reals: each input window's block at tile t is a block of 1024 rows of its array (block row
  t / 4 for the first window, block column t % 4 for the second); by induction on the tile, lane l of the accumulator after
  tile n is the fold of the lane's tile updates from zero; the one write-back, at the last tile, covers the output row, so the
  output array ends holding the accumulator's contents after the sixteenth tile.
-/
import proofs.«152674_j2757369004769_1_alg».proof.Proof.KI.Tile1
import proofs.«152674_j2757369004769_1_alg».proof.Proof.MmdAlgebra
import Idealize.ShloMosaic.Lib.Pipeline.Value

set_option maxRecDepth 16384

noncomputable section

namespace Cert.KernelIdeal.Fold1

open Cert.KernelIdeal Cert.KernelIdeal.Gen Cert.KernelIdeal.Pair Cert.Mmd
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The windows' block indices over the grid: the first input window moves with the grid's first coordinate, the second
    with its second; the output window stays. -/
theorem idx_facts : ∀ t : Fin cfg1.N, win1_0.index t 0 = t.val / 4 ∧ win1_0.index t 1 = 0
    ∧ win1_1.index t 0 = t.val % 4 ∧ win1_1.index t 1 = 0 :=
  (by decide +kernel : ∀ t : Fin grid1.N, win1_0.index t 0 = t.val / 4 ∧ win1_0.index t 1 = 0
    ∧ win1_1.index t 0 = t.val % 4 ∧ win1_1.index t 1 = 0)

theorem iblk_0_eq (c : Dev nD) (t : Fin cfg1.N) :
    (iblk1 V c 0 t : Blk) = rows (V c main_arg1 : Mat) (tileRow t.val) := by
  have hN : t.val < 16 := lt_of_lt_of_eq t.isLt (show cfg1.N = 16 from N_1)
  funext y
  unfold iblk1 rows
  rw [View.read_apply]
  show (V c main_arg1 : Mat) _ = (V c main_arg1 : Mat) _
  refine congrArg (V c main_arg1 : Mat) (funext fun a => Fin.ext ?_)
  match a with
  | ⟨0, _⟩ =>
    show win1_0.index t 0 * 1024 + 1 * (y 0).val = 1024 * (t.val / 4 % 4) + (y 0).val
    rw [(idx_facts t).1]; omega
  | ⟨1, _⟩ =>
    show win1_0.index t 1 * 256 + 1 * (y 1).val = (y 1).val
    rw [(idx_facts t).2.1]; omega

theorem iblk_1_eq (c : Dev nD) (t : Fin cfg1.N) :
    (iblk1 V c 1 t : Blk) = rows (V c main_arg1 : Mat) (tileCol t.val) := by
  funext y
  unfold iblk1 rows
  rw [View.read_apply]
  show (V c main_arg1 : Mat) _ = (V c main_arg1 : Mat) _
  refine congrArg (V c main_arg1 : Mat) (funext fun a => Fin.ext ?_)
  match a with
  | ⟨0, _⟩ =>
    show win1_1.index t 0 * 1024 + 1 * (y 0).val = 1024 * (t.val % 4) + (y 0).val
    rw [(idx_facts t).2.2.1]; omega
  | ⟨1, _⟩ =>
    show win1_1.index t 1 * 256 + 1 * (y 1).val = (y 1).val
    rw [(idx_facts t).2.2.2]; omega

/-- The cleared accumulator is zero on every lane. -/
theorem pay1_lane (l : Fin 128) : (k1_pay1 (F := Ideal)) (ix2 ⟨0, Nat.one_pos⟩ l) = zero := by
  unfold k1_pay1
  try dsimp only
  rw [shapeCast_self]
  rfl

/-- Lane l of the accumulator after tile n is the fold of the lane's tile updates from zero. -/
theorem scratch_lane (c : Dev nD) (l : Fin 128) : ∀ (n : ℕ) (hn : n < cfg1.N),
    ((outsAt1 V c n hn).2 : FVec Ideal S1x128 .f32) (ix2 ⟨0, Nat.one_pos⟩ l) = accTot (V c main_arg1 : Mat) (V c main_arg1 : Mat) l n
  | 0, hn => by
    rw [show outsAt1 V c 0 hn = _ from outsAt1_A V c ⟨0, hn⟩ rfl (show ¬ (0 : ℕ) = 15 by decide)]
    dsimp only
    rw [soutA1_eq, Cert.KernelIdeal.Tile1.acc1_lane, pay1_lane, iblk_0_eq, iblk_1_eq]
    rfl
  | n + 1, hn => by
    have ih := scratch_lane c l n (Nat.lt_of_succ_lt hn)
    by_cases h15 : n + 1 = 15
    · rw [show outsAt1 V c (n + 1) hn = _ from outsAt1_C V c ⟨n + 1, hn⟩ (Nat.succ_ne_zero n) h15]
      dsimp only
      rw [soutC1_eq, Cert.KernelIdeal.Tile1.acc1_lane, iblk_0_eq, iblk_1_eq]
      show laneStep _ _ l ((outsAt1 V c n _).2 (ix2 ⟨0, Nat.one_pos⟩ l)) = _
      rw [ih]
      rfl
    · rw [show outsAt1 V c (n + 1) hn = _ from outsAt1_B V c ⟨n + 1, hn⟩ (Nat.succ_ne_zero n) h15]
      dsimp only
      rw [soutB1_eq, Cert.KernelIdeal.Tile1.acc1_lane, iblk_0_eq, iblk_1_eq]
      show laneStep _ _ l ((outsAt1 V c n _).2 (ix2 ⟨0, Nat.one_pos⟩ l)) = _
      rw [ih]
      rfl

/-- The last tile's point. -/
def tLast : Fin cfg1.N := ⟨15, by rw [show cfg1.N = 16 from N_1]; decide⟩

/-- Lane l of the output's staging buffer after the last tile: the accumulator after the sixteenth tile. -/
theorem out_lane (c : Dev nD) (l : Fin 128) :
    ((outsAt1 V c tLast.val tLast.isLt).1 : FVec Ideal S1x128 .f32) (ix2 ⟨0, Nat.one_pos⟩ l) = accTot (V c main_arg1 : Mat) (V c main_arg1 : Mat) l 15 := by
  have ih := scratch_lane V c l 14 (by rw [show cfg1.N = 16 from N_1]; decide)
  rw [show outsAt1 V c tLast.val tLast.isLt = _ from outsAt1_C V c tLast (show ¬ (15 : ℕ) = 0 by decide) rfl]
  dsimp only
  rw [outC1_eq, Cert.KernelIdeal.Tile1.acc1_lane, iblk_0_eq, iblk_1_eq]
  show laneStep _ _ l ((outsAt1 V c 14 _).2 (ix2 ⟨0, Nat.one_pos⟩ l)) = _
  rw [ih]
  rfl

theorem hzz : (![0, 0] : Fin 2 → Nat) = fun _ => 0 := funext fun a => by fin_cases a <;> rfl

/-- The one write-back, at the last tile, writes the staging buffer's contents: the output window's only block, read through
    zero offsets, is the whole row. -/
theorem flushed_eq (c : Dev nD) (t : Fin cfg1.N) (hf : (cfg1.win 2).flush t = true) :
    (dat1 V c).flushed 2 t = ((cfg1.win 2).blk t).view.read (Elt Ideal) ((outsAt1 V c tLast.val tLast.isLt).1) := by
  have hN : cfg1.N = 16 := N_1
  have h1 : t.val = 15 := by have := (flush1_2 t).mp hf; have := t.isLt; omega
  obtain rfl : t = tLast := Fin.ext h1
  show (cfg1.win 2).cut (grid1.coords tLast) ((dat1 V c).after 2 tLast) = _
  rw [after1_2]
  have hz' : (fun a => win1_2.index tLast a * main_call1_v0.ty.shape.size a) = fun _ => 0 := funext fun a => by fin_cases a <;> decide
  exact (Memref.read_access_unit_zero (Elt Ideal) main_call1_v0 hz' (fun a => by rw [congrFun hz' a]; simp) ((outsAt1 V c tLast.val tLast.isLt).1)).symm

/-- So the output array ends holding the staging buffer's contents after the last tile. -/
theorem final_out (c : Dev nD) : (dat1 V c).arrAt 2 cfg1.N = (outsAt1 V c tLast.val tLast.isLt).1 :=
  (dat1 V c).arrAt_eq_of_cover 2 ((outsAt1 V c tLast.val tLast.isLt).1) (flushed_eq V c) fun i =>
    ⟨tLast, (flush1_2 tLast).mpr rfl, by
      show i ∈ ((View.whole main_call1_v0).slice (win1_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 128 from by decide +kernel]; omega⟩

/-- The region's result: lane l < 5 of the output row is the whole pair sum of bandwidth l. -/
theorem region_lane (c : Dev nD) (l : Fin 128) (hl : l.val < 5) :
    ((dat1 V c).arrAt 2 cfg1.N : FVec Ideal S1x128 .f32) (ix2 ⟨0, Nat.one_pos⟩ l) = ksum (kc ⟨l.val, hl⟩) (V c main_arg1 : Mat) (V c main_arg1 : Mat) := by
  rw [final_out, out_lane, accTot_last _ _ l hl]

end Cert.KernelIdeal.Fold1

end
-- ==== Proof.KI.Acc2.lean ====
/-
  Region 2: what each control case leaves in the accumulator and in the output row, as ONE term of the tile's two input blocks and of what the tile before left: the five lane-masked partial sums added in turn.
-/
import proofs.«152674_j2757369004769_1_alg».proof.Proof.KI.Points2
import Idealize.ShloMosaic.Lib.Pipeline.Value

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- One tile's update of the accumulator: the five lane-masked partial sums of the tile added, one after the other, onto `s`. -/
def acc2 (x0 x1 : Vec F S1024x256 .f32) (s : Vec F S1x128 .f32) : Vec F S1x128 .f32 :=
  k2_pay10 (k2_pay2 x0 x1) (iota .tc S1x128 32 [1] iota_S1x128_d1_w32)
    (k2_pay9 (k2_pay2 x0 x1) (iota .tc S1x128 32 [1] iota_S1x128_d1_w32)
      (k2_pay8 (k2_pay2 x0 x1) (iota .tc S1x128 32 [1] iota_S1x128_d1_w32)
        (k2_pay7 (k2_pay2 x0 x1) (iota .tc S1x128 32 [1] iota_S1x128_d1_w32)
          (k2_pay6 k2_pay3 s (k2_pay4 x0 x1) k2_pay5))))

theorem soutA2_eq (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : first2 i) (hc1 : ¬last2 i)
    (x0 x1 : Vec F S1024x256 .f32) :
    sout2_A c i arg2 harg2 arg3 harg3 arg4 harg4 arg5 harg5 hc0 hc1 x0 x1 = acc2 x0 x1 (k2_pay1 (F := F)) := by
  unfold sout2_A
  rw [View.read_writes_eq_canon _ _ _ (scover2_A c i arg2 harg2 arg3 harg3 arg4 harg4 arg5 harg5 hc0 hc1 x0 x1)]
  unfold run2_A
  dsimp only
  try sl_unfold_words
  rw [View.canon_cons_unit_zero hz2]
  simp only [View.readCov_cons_toLoadRect, View.readAt_eq_ld, harg2.read_unread, harg3.read_unread,
    View.ld_unit_zero (S := S1024x256) hz2]
  rfl

theorem soutB2_eq (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : ¬last2 i)
    (x0 x1 : Vec F S1024x256 .f32) (xs : Vec F S1x128 .f32) :
    sout2_B c i arg2 harg2 arg3 harg3 arg4 harg4 arg5 harg5 hc0 hc1 x0 x1 xs = acc2 x0 x1 xs := by
  unfold sout2_B
  rw [View.read_writes_eq_canon _ _ _ (scover2_B c i arg2 harg2 arg3 harg3 arg4 harg4 arg5 harg5 hc0 hc1 x0 x1 xs)]
  unfold run2_B
  dsimp only
  try sl_unfold_words
  rw [View.canon_cons_unit_zero hz2]
  simp only [View.readCov_cons_toLoadRect, View.readAt_eq_ld, harg2.read_unread, harg3.read_unread, harg5.read_unread,
    View.ld_unit_zero (S := S1024x256) hz2, View.ld_unit_zero (S := S1x128) hz2]
  rfl

theorem soutC2_eq (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) :
    sout2_C c i arg2 harg2 arg3 harg3 arg4 harg4 arg5 harg5 hc0 hc1 x0 x1 xs = acc2 x0 x1 xs := by
  unfold sout2_C
  rw [View.read_writes_eq_canon _ _ _ (scover2_C c i arg2 harg2 arg3 harg3 arg4 harg4 arg5 harg5 hc0 hc1 x0 x1 xs)]
  unfold run2_C
  dsimp only
  try sl_unfold_words
  rw [View.canon_cons_unit_zero hz2]
  simp only [View.readCov_cons_toLoadRect, View.readAt_eq_ld, harg2.read_unread, harg3.read_unread, harg5.read_unread,
    View.ld_unit_zero (S := S1024x256) hz2, View.ld_unit_zero (S := S1x128) hz2]
  rfl

theorem outC2_eq (c : Dev nD) (i : grid2.Coords) (arg2 : Memref sig .tc .vmem S1024x256 .f32) (harg2 : arg2.IsWhole) (arg3 : Memref sig .tc .vmem S1024x256 .f32) (harg3 : arg3.IsWhole) (arg4 : Memref sig .tc .vmem S1x128 .f32) (harg4 : arg4.IsWhole) (arg5 : Memref sig .tc .vmem S1x128 .f32) (harg5 : arg5.IsWhole) (hc0 : ¬first2 i) (hc1 : last2 i)
    (x0 x1 : Vec F S1024x256 .f32) (xs : Vec F S1x128 .f32) :
    out2_C c i arg2 harg2 arg3 harg3 arg4 harg4 arg5 harg5 hc0 hc1 x0 x1 xs = acc2 x0 x1 xs := by
  unfold out2_C
  rw [View.read_writes_eq_canon _ _ _ (cover2_C c i arg2 harg2 arg3 harg3 arg4 harg4 arg5 harg5 hc0 hc1 x0 x1 xs)]
  unfold run2_C
  dsimp only
  try sl_unfold_words
  rw [View.canon_cons_unit_zero hz2]
  simp only [View.readCov_cons_toLoadRect, View.readAt_eq_ld, harg2.read_unread, harg3.read_unread, harg5.read_unread,
    View.ld_unit_zero (S := S1024x256) hz2, View.ld_unit_zero (S := S1x128) hz2]
  rfl

end Cert.KernelIdeal.Pair

end
-- ==== Proof.KI.Tile2.lean ====
/-
  The tile's payloads read at the extended reals (region 2's spelling; the other regions' are the same terms): the distance
  matrix entry by entry — the row norms by lane sums carried through a column and a row, the Gram term by the matrix unit's
  product of the first block and the transposed second block —, each bandwidth's partial sum as the tile's double sum, and one
  tile's update of the accumulator lane by lane.
-/
import proofs.«152674_j2757369004769_1_alg».proof.Proof.KI.Acc2
import proofs.«152674_j2757369004769_1_alg».proof.Proof.TileSpec
import proofs.«152674_j2757369004769_1_alg».proof.Proof.LibOneAxisDot
import proofs.«152674_j2757369004769_1_alg».proof.Proof.LibDotFreeAxis
import proofs.«152674_j2757369004769_1_alg».proof.Proof.LibKeepdimsColumn
import Idealize.ShloMosaic.PureOps.Ideal.Laws
import Idealize.ShloMosaic.Lib.ValueIdx
import Idealize.ShloMosaic.Lib.Pipeline.Value

set_option maxRecDepth 16384

noncomputable section

namespace Cert.KernelIdeal.Tile2

open Cert.KernelIdeal Cert.KernelIdeal.Gen Cert.Mmd
open Idealize.ShloMosaic Idealize.ShloMosaic.ValueIdx

/-- A row's squared norm: the lane sum of the entrywise square. -/
theorem rowSq_at (x : FVec Ideal S1024x256 .f32) (p : Fin 1024) :
    multiReduction .add [1] S1024 (mulf x x) 0x00000000#32 reduces_S1024x256_S1024 (.inl rfl) rfl (ix1 p) = trowSq x p := by
  refine (Ideal.multiReduction_add_single (mulf x x) 0x00000000#32 reduces_S1024x256_S1024 (.inl rfl) rfl (ix1 p)).trans ?_
  unfold trowSq
  refine Finset.sum_congr rfl fun k _ => ?_
  rw [mulf_apply]
  have e : reduces_S1024x256_S1024.lift (ix1 p) k = ix2 p k :=
    funext fun a => Fin.ext (by match a with | ⟨0, _⟩ => rfl | ⟨1, _⟩ => rfl)
  exact congrArg (fun i => x i * x i) e

/-- The Gram term: the matrix unit's product of the first block with the transposed second block, into zero. -/
theorem dot_at (x0 x1 : FVec Ideal S1024x256 .f32) (p q : Fin 1024) :
    matmul dot_S1024x256_S256x1024_S1024x1024_1_0_0_1_n_n none (truncf .bf16 x0 bitsLt_bf16_f32)
        (transpose S256x1024 [1, 0] (truncf .bf16 x1 bitsLt_bf16_f32) transposes_S1024x256_p1_0_S256x1024)
        (constant S1024x1024 .f32 0x00000000#32) (ix2 p q)
      = tdot x0 x1 p q := by
  refine (Cert.Lib.OneAxisDot.matmul_zero_apply_at dot_S1024x256_S256x1024_S1024x1024_1_0_0_1_n_n 256 rfl rfl none _ _ (ix2 p q)
    (fun k => ix2 p k) (fun k => ix2 k q) ?_ ?_).trans ?_
  · intro k; funext a; apply Fin.ext
    match a with
    | ⟨0, _⟩ => exact Cert.Lib.DotFreeAxis.lhsIdx_val_of_free _ rfl rfl (by decide) _ _
    | ⟨1, _⟩ => exact (DotDims.lhsIdx_val_of_single _ rfl _ _).trans (contrEquiv1_symm_val _ 256 rfl rfl k)
  · intro k; funext a; apply Fin.ext
    match a with
    | ⟨0, _⟩ => exact (DotDims.rhsIdx_val_of_single _ rfl _ _).trans (contrEquiv1_symm_val _ 256 rfl rfl k)
    | ⟨1, _⟩ => exact Cert.Lib.DotFreeAxis.rhsIdx_val_of_free _ rfl rfl rfl rfl (by decide) _ _
  · unfold tdot
    refine Finset.sum_congr rfl fun k _ => ?_
    rw [truncf_apply]
    refine congrArg (x0 (ix2 p k) * ·) ?_
    exact (transpose_apply [1, 0] _ transposes_S1024x256_p1_0_S256x1024 (ix2 k q) (ix2 q k)
      (fun b => by match b with | ⟨0, _⟩ => rfl | ⟨1, _⟩ => rfl)).trans (truncf_apply _ _ _)

/-- A row of per-column numbers carried to the matrix's shape: reshaped to a column, transposed to a row, broadcast down the rows. -/
theorem row_at {α : Type} (u : S1024.Idx → α) (p q : Fin 1024) :
    broadcastTo S1024x1024 (transpose S1x1024 [1, 0] (shapeCast S1024x1 u shapeCasts_S1024_S1024x1) transposes_S1024x1_p1_0_S1x1024)
        broadcasts_S1x1024_S1024x1024 (ix2 p q) = u (ix1 q) := by
  refine (broadcastTo_apply _ broadcasts_S1x1024_S1024x1024 (ix2 p q) (ix2 (n0 := 1) (n1 := 1024) ⟨0, Nat.one_pos⟩ q)
    (fun d => by match d with | ⟨0, _⟩ => rfl | ⟨1, _⟩ => rfl)).trans ?_
  refine (transpose_apply [1, 0] _ transposes_S1024x1_p1_0_S1x1024 _ (ix2 (n0 := 1024) (n1 := 1) q ⟨0, Nat.one_pos⟩)
    (fun b => by match b with | ⟨0, _⟩ => rfl | ⟨1, _⟩ => rfl)).trans ?_
  exact Cert.Lib.KeepdimsColumn.column_cast_at u shapeCasts_S1024_S1024x1 q

/-- The distance matrix, entry by entry. -/
theorem pay2_at (x0 x1 : FVec Ideal S1024x256 .f32) (p q : Fin 1024) :
    k2_pay2 (F := Ideal) x0 x1 (ix2 p q) = tsqd x0 x1 p q := by
  have hA := (Cert.Lib.KeepdimsColumn.column_at
      (multiReduction .add [1] S1024 (mulf x0 x0) 0x00000000#32 reduces_S1024x256_S1024 (.inl rfl) rfl)
      shapeCasts_S1024_S1024x1 broadcasts_S1024x1_S1024x1024 p q).trans (rowSq_at x0 p)
  have hB := (row_at (multiReduction .add [1] S1024 (mulf x1 x1) 0x00000000#32 reduces_S1024x256_S1024 (.inl rfl) rfl) p q).trans
      (rowSq_at x1 q)
  have hD := dot_at x0 x1 p q
  unfold k2_pay2 tsqd
  show max ((_ + _) - _ * _) _ = _
  rw [hA, hB, hD]
  rfl

/-- One bandwidth's partial sum over the tile: the sum over every entry of exp (coefficient · distance). -/
theorem partial_at (b : BitVec 32) (D : FVec Ideal S1024x1024 .f32) :
    extractAt ![0, 0, 0] (shapeCast S1x1x1 (multiReduction .add [1, 2] S1
        (shapeCast S1x1024x1024 (exp (mulf (broadcast S1024x1024 (Scalar.ofBits .f32 b : Ideal .f32)) D)) shapeCasts_S1024x1024_S1x1024x1024)
        0x00000000#32 reduces_S1x1024x1024_S1 (.inl rfl) rfl) shapeCasts_S1_S1x1x1) inpos_S1x1x1_p0_0_0
      = ∑ p : Fin 1024, ∑ q : Fin 1024, Ideal.exp (Ideal.ofBits .f32 b * D (ix2 p q)) := by
  unfold extractAt
  show multiReduction .add [1, 2] S1 _ 0x00000000#32 reduces_S1x1024x1024_S1 (.inl rfl) rfl _ = _
  refine (Ideal.multiReduction_add_total _ 0x00000000#32 reduces_S1x1024x1024_S1 (by decide) (.inl rfl) rfl _).trans ?_
  refine (Equiv.sum_comp (Shape.reshapeEquiv shapeCasts_S1024x1024_S1x1024x1024)
    (exp (mulf (broadcast S1024x1024 (Scalar.ofBits .f32 b : Ideal .f32)) D))).trans ?_
  refine (sum_idx2 _).trans ?_
  rfl

/-- Comparing a lane number with a constant below 128 selects exactly that lane. -/
theorem lane_pick {α : Type} (l : Fin 128) (k : ℕ) (hk : k < 128) (A B : α) :
    Scalar.select (IntOp.cmpi .eq (BitVec.ofNat 32 l.val) (BitVec.ofNat 32 k)) A B = if l.val = k then A else B := by
  unfold Scalar.select IntOp.cmpi
  by_cases h : l.val = k
  · simp [h]
  · have hne : (BitVec.ofNat 32 l.val) ≠ (BitVec.ofNat 32 k) := by
      intro e; apply h
      have e' := congrArg BitVec.toNat e
      simp only [BitVec.toNat_ofNat] at e'
      have hl := l.isLt
      omega
    have hb : (BitVec.ofNat 32 l.val == BitVec.ofNat 32 k) = false := by simpa [beq_eq_false_iff_ne] using hne
    simp [h, hb]

/-- A partial sum added onto one lane of the accumulator row and zero onto the others. -/
theorem masked_add (prev : FVec Ideal S1x128 .f32) (k : ℕ) (hk : k < 128) (P : EReal) (l : Fin 128) :
    addf prev (select (cmpi .eq (iota .tc S1x128 32 [1] iota_S1x128_d1_w32) (broadcast S1x128 (BitVec.ofNat 32 k)))
        (broadcast S1x128 P) (broadcast S1x128 (Scalar.ofBits .f32 0x00000000#32 : Ideal .f32))) (ix2 ⟨0, Nat.one_pos⟩ l)
      = prev (ix2 ⟨0, Nat.one_pos⟩ l) + (if l.val = k then P else zero) := by
  rw [addf_apply, select_apply]
  show _ + Scalar.select (IntOp.cmpi .eq (iota .tc S1x128 32 [1] iota_S1x128_d1_w32 (ix2 ⟨0, Nat.one_pos⟩ l)) (BitVec.ofNat 32 k)) P zero = _
  rw [iota_single_apply]
  exact congrArg (prev (ix2 ⟨0, Nat.one_pos⟩ l) + ·) (lane_pick l k hk P zero)

/-- The tile's partial sum at one bandwidth is the tile's double sum of exponentials. -/
theorem partial_total (b : BitVec 32) (x0 x1 : FVec Ideal S1024x256 .f32) :
    (∑ p : Fin 1024, ∑ q : Fin 1024, Ideal.exp (Ideal.ofBits .f32 b * k2_pay2 (F := Ideal) x0 x1 (ix2 p q)))
      = Cert.Mmd.tsum (Ideal.ofBits .f32 b) x0 x1 := by
  unfold Cert.Mmd.tsum
  exact Finset.sum_congr rfl fun p _ => Finset.sum_congr rfl fun q _ => by rw [pay2_at]

theorem pay6_at (x0 x1 : FVec Ideal S1024x256 .f32) (s : FVec Ideal S1x128 .f32) (l : Fin 128) :
    k2_pay6 (F := Ideal) k2_pay3 s (k2_pay4 x0 x1) k2_pay5 (ix2 ⟨0, Nat.one_pos⟩ l)
      = s (ix2 ⟨0, Nat.one_pos⟩ l) + (if l.val = 0 then Cert.Mmd.tsum (kc 0) x0 x1 else zero) := by
  unfold k2_pay6 k2_pay3 k2_pay4 k2_pay5
  dsimp only
  rw [shapeCast_self]
  refine (masked_add s 0 (by decide) _ l).trans ?_
  rw [partial_at, partial_total]
  rfl

theorem pay7_at (x0 x1 : FVec Ideal S1024x256 .f32) (s : FVec Ideal S1x128 .f32) (l : Fin 128) :
    k2_pay7 (F := Ideal) (k2_pay2 x0 x1) (iota .tc S1x128 32 [1] iota_S1x128_d1_w32) s (ix2 ⟨0, Nat.one_pos⟩ l)
      = s (ix2 ⟨0, Nat.one_pos⟩ l) + (if l.val = 1 then Cert.Mmd.tsum (kc 1) x0 x1 else zero) := by
  unfold k2_pay7
  dsimp only
  rw [shapeCast_self]
  refine (masked_add s 1 (by decide) _ l).trans ?_
  rw [partial_at, partial_total]
  rfl

theorem pay8_at (x0 x1 : FVec Ideal S1024x256 .f32) (s : FVec Ideal S1x128 .f32) (l : Fin 128) :
    k2_pay8 (F := Ideal) (k2_pay2 x0 x1) (iota .tc S1x128 32 [1] iota_S1x128_d1_w32) s (ix2 ⟨0, Nat.one_pos⟩ l)
      = s (ix2 ⟨0, Nat.one_pos⟩ l) + (if l.val = 2 then Cert.Mmd.tsum (kc 2) x0 x1 else zero) := by
  unfold k2_pay8
  dsimp only
  rw [shapeCast_self]
  refine (masked_add s 2 (by decide) _ l).trans ?_
  rw [partial_at, partial_total]
  rfl

theorem pay9_at (x0 x1 : FVec Ideal S1024x256 .f32) (s : FVec Ideal S1x128 .f32) (l : Fin 128) :
    k2_pay9 (F := Ideal) (k2_pay2 x0 x1) (iota .tc S1x128 32 [1] iota_S1x128_d1_w32) s (ix2 ⟨0, Nat.one_pos⟩ l)
      = s (ix2 ⟨0, Nat.one_pos⟩ l) + (if l.val = 3 then Cert.Mmd.tsum (kc 3) x0 x1 else zero) := by
  unfold k2_pay9
  dsimp only
  rw [shapeCast_self]
  refine (masked_add s 3 (by decide) _ l).trans ?_
  rw [partial_at, partial_total]
  rfl

theorem pay10_at (x0 x1 : FVec Ideal S1024x256 .f32) (s : FVec Ideal S1x128 .f32) (l : Fin 128) :
    k2_pay10 (F := Ideal) (k2_pay2 x0 x1) (iota .tc S1x128 32 [1] iota_S1x128_d1_w32) s (ix2 ⟨0, Nat.one_pos⟩ l)
      = s (ix2 ⟨0, Nat.one_pos⟩ l) + (if l.val = 4 then Cert.Mmd.tsum (kc 4) x0 x1 else zero) := by
  unfold k2_pay10
  dsimp only
  rw [shapeCast_self]
  refine (masked_add s 4 (by decide) _ l).trans ?_
  rw [partial_at, partial_total]
  rfl

/-- One tile's update of the accumulator, lane by lane. -/
theorem acc2_lane (x0 x1 : FVec Ideal S1024x256 .f32) (s : FVec Ideal S1x128 .f32) (l : Fin 128) :
    Cert.KernelIdeal.Pair.acc2 (F := Ideal) x0 x1 s (ix2 ⟨0, Nat.one_pos⟩ l) = laneStep x0 x1 l (s (ix2 ⟨0, Nat.one_pos⟩ l)) := by
  unfold Cert.KernelIdeal.Pair.acc2 laneStep
  rw [pay10_at, pay9_at, pay8_at, pay7_at, pay6_at]

end Cert.KernelIdeal.Tile2

end
-- ==== Proof.KI.Fold2.lean ====
/-
  Region 2, read at the extended reals: each input window's block at tile t is a block of 1024 rows of its array (block row
  t / 4 for the first window, block column t % 4 for the second); by induction on the tile, lane l of the accumulator after
  tile n is the fold of the lane's tile updates from zero; the one write-back, at the last tile, covers the output row, so the
  output array ends holding the accumulator's contents after the sixteenth tile.
-/
import proofs.«152674_j2757369004769_1_alg».proof.Proof.KI.Tile2
import proofs.«152674_j2757369004769_1_alg».proof.Proof.MmdAlgebra
import Idealize.ShloMosaic.Lib.Pipeline.Value

set_option maxRecDepth 16384

noncomputable section

namespace Cert.KernelIdeal.Fold2

open Cert.KernelIdeal Cert.KernelIdeal.Gen Cert.KernelIdeal.Pair Cert.Mmd
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The windows' block indices over the grid: the first input window moves with the grid's first coordinate, the second
    with its second; the output window stays. -/
theorem idx_facts : ∀ t : Fin cfg2.N, win2_0.index t 0 = t.val / 4 ∧ win2_0.index t 1 = 0
    ∧ win2_1.index t 0 = t.val % 4 ∧ win2_1.index t 1 = 0 :=
  (by decide +kernel : ∀ t : Fin grid2.N, win2_0.index t 0 = t.val / 4 ∧ win2_0.index t 1 = 0
    ∧ win2_1.index t 0 = t.val % 4 ∧ win2_1.index t 1 = 0)

theorem iblk_0_eq (c : Dev nD) (t : Fin cfg2.N) :
    (iblk2 V c 0 t : Blk) = rows (V c main_arg0 : Mat) (tileRow t.val) := by
  have hN : t.val < 16 := lt_of_lt_of_eq t.isLt (show cfg2.N = 16 from N_2)
  funext y
  unfold iblk2 rows
  rw [View.read_apply]
  show (V c main_arg0 : Mat) _ = (V c main_arg0 : Mat) _
  refine congrArg (V c main_arg0 : Mat) (funext fun a => Fin.ext ?_)
  match a with
  | ⟨0, _⟩ =>
    show win2_0.index t 0 * 1024 + 1 * (y 0).val = 1024 * (t.val / 4 % 4) + (y 0).val
    rw [(idx_facts t).1]; omega
  | ⟨1, _⟩ =>
    show win2_0.index t 1 * 256 + 1 * (y 1).val = (y 1).val
    rw [(idx_facts t).2.1]; omega

theorem iblk_1_eq (c : Dev nD) (t : Fin cfg2.N) :
    (iblk2 V c 1 t : Blk) = rows (V c main_arg1 : Mat) (tileCol t.val) := by
  funext y
  unfold iblk2 rows
  rw [View.read_apply]
  show (V c main_arg1 : Mat) _ = (V c main_arg1 : Mat) _
  refine congrArg (V c main_arg1 : Mat) (funext fun a => Fin.ext ?_)
  match a with
  | ⟨0, _⟩ =>
    show win2_1.index t 0 * 1024 + 1 * (y 0).val = 1024 * (t.val % 4) + (y 0).val
    rw [(idx_facts t).2.2.1]; omega
  | ⟨1, _⟩ =>
    show win2_1.index t 1 * 256 + 1 * (y 1).val = (y 1).val
    rw [(idx_facts t).2.2.2]; omega

/-- The cleared accumulator is zero on every lane. -/
theorem pay1_lane (l : Fin 128) : (k2_pay1 (F := Ideal)) (ix2 ⟨0, Nat.one_pos⟩ l) = zero := by
  unfold k2_pay1
  try dsimp only
  rw [shapeCast_self]
  rfl

/-- Lane l of the accumulator after tile n is the fold of the lane's tile updates from zero. -/
theorem scratch_lane (c : Dev nD) (l : Fin 128) : ∀ (n : ℕ) (hn : n < cfg2.N),
    ((outsAt2 V c n hn).2 : FVec Ideal S1x128 .f32) (ix2 ⟨0, Nat.one_pos⟩ l) = accTot (V c main_arg0 : Mat) (V c main_arg1 : Mat) l n
  | 0, hn => by
    rw [show outsAt2 V c 0 hn = _ from outsAt2_A V c ⟨0, hn⟩ rfl (show ¬ (0 : ℕ) = 15 by decide)]
    dsimp only
    rw [soutA2_eq, Cert.KernelIdeal.Tile2.acc2_lane, pay1_lane, iblk_0_eq, iblk_1_eq]
    rfl
  | n + 1, hn => by
    have ih := scratch_lane c l n (Nat.lt_of_succ_lt hn)
    by_cases h15 : n + 1 = 15
    · rw [show outsAt2 V c (n + 1) hn = _ from outsAt2_C V c ⟨n + 1, hn⟩ (Nat.succ_ne_zero n) h15]
      dsimp only
      rw [soutC2_eq, Cert.KernelIdeal.Tile2.acc2_lane, iblk_0_eq, iblk_1_eq]
      show laneStep _ _ l ((outsAt2 V c n _).2 (ix2 ⟨0, Nat.one_pos⟩ l)) = _
      rw [ih]
      rfl
    · rw [show outsAt2 V c (n + 1) hn = _ from outsAt2_B V c ⟨n + 1, hn⟩ (Nat.succ_ne_zero n) h15]
      dsimp only
      rw [soutB2_eq, Cert.KernelIdeal.Tile2.acc2_lane, iblk_0_eq, iblk_1_eq]
      show laneStep _ _ l ((outsAt2 V c n _).2 (ix2 ⟨0, Nat.one_pos⟩ l)) = _
      rw [ih]
      rfl

/-- The last tile's point. -/
def tLast : Fin cfg2.N := ⟨15, by rw [show cfg2.N = 16 from N_2]; decide⟩

/-- Lane l of the output's staging buffer after the last tile: the accumulator after the sixteenth tile. -/
theorem out_lane (c : Dev nD) (l : Fin 128) :
    ((outsAt2 V c tLast.val tLast.isLt).1 : FVec Ideal S1x128 .f32) (ix2 ⟨0, Nat.one_pos⟩ l) = accTot (V c main_arg0 : Mat) (V c main_arg1 : Mat) l 15 := by
  have ih := scratch_lane V c l 14 (by rw [show cfg2.N = 16 from N_2]; decide)
  rw [show outsAt2 V c tLast.val tLast.isLt = _ from outsAt2_C V c tLast (show ¬ (15 : ℕ) = 0 by decide) rfl]
  dsimp only
  rw [outC2_eq, Cert.KernelIdeal.Tile2.acc2_lane, iblk_0_eq, iblk_1_eq]
  show laneStep _ _ l ((outsAt2 V c 14 _).2 (ix2 ⟨0, Nat.one_pos⟩ l)) = _
  rw [ih]
  rfl

theorem hzz : (![0, 0] : Fin 2 → Nat) = fun _ => 0 := funext fun a => by fin_cases a <;> rfl

/-- The one write-back, at the last tile, writes the staging buffer's contents: the output window's only block, read through
    zero offsets, is the whole row. -/
theorem flushed_eq (c : Dev nD) (t : Fin cfg2.N) (hf : (cfg2.win 2).flush t = true) :
    (dat2 V c).flushed 2 t = ((cfg2.win 2).blk t).view.read (Elt Ideal) ((outsAt2 V c tLast.val tLast.isLt).1) := by
  have hN : cfg2.N = 16 := N_2
  have h1 : t.val = 15 := by have := (flush2_2 t).mp hf; have := t.isLt; omega
  obtain rfl : t = tLast := Fin.ext h1
  show (cfg2.win 2).cut (grid2.coords tLast) ((dat2 V c).after 2 tLast) = _
  rw [after2_2]
  have hz' : (fun a => win2_2.index tLast a * main_call2_v0.ty.shape.size a) = fun _ => 0 := funext fun a => by fin_cases a <;> decide
  exact (Memref.read_access_unit_zero (Elt Ideal) main_call2_v0 hz' (fun a => by rw [congrFun hz' a]; simp) ((outsAt2 V c tLast.val tLast.isLt).1)).symm

/-- So the output array ends holding the staging buffer's contents after the last tile. -/
theorem final_out (c : Dev nD) : (dat2 V c).arrAt 2 cfg2.N = (outsAt2 V c tLast.val tLast.isLt).1 :=
  (dat2 V c).arrAt_eq_of_cover 2 ((outsAt2 V c tLast.val tLast.isLt).1) (flushed_eq V c) fun i =>
    ⟨tLast, (flush2_2 tLast).mpr rfl, by
      show i ∈ ((View.whole main_call2_v0).slice (win2_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win2_2.index tLast 0 * win2_2.size 0 ≤ (i 0 : Nat) ∧ (i 0 : Nat) < win2_2.index tLast 0 * win2_2.size 0 + win2_2.xsize (grid2.coords tLast) 0
                  rw [show win2_2.index tLast 0 * win2_2.size 0 = 0 from by decide +kernel, show win2_2.xsize (grid2.coords tLast) 0 = 1 from by decide +kernel]; omega
      | ⟨1, _⟩ => show win2_2.index tLast 1 * win2_2.size 1 ≤ (i 1 : Nat) ∧ (i 1 : Nat) < win2_2.index tLast 1 * win2_2.size 1 + win2_2.xsize (grid2.coords tLast) 1
                  rw [show win2_2.index tLast 1 * win2_2.size 1 = 0 from by decide +kernel, show win2_2.xsize (grid2.coords tLast) 1 = 128 from by decide +kernel]; omega⟩

/-- The region's result: lane l < 5 of the output row is the whole pair sum of bandwidth l. -/
theorem region_lane (c : Dev nD) (l : Fin 128) (hl : l.val < 5) :
    ((dat2 V c).arrAt 2 cfg2.N : FVec Ideal S1x128 .f32) (ix2 ⟨0, Nat.one_pos⟩ l) = ksum (kc ⟨l.val, hl⟩) (V c main_arg0 : Mat) (V c main_arg1 : Mat) := by
  rw [final_out, out_lane, accTot_last _ _ l hl]

end Cert.KernelIdeal.Fold2

end
-- ==== Proof.KI.Final.lean ====
/-
  The kernel program's run read to the end at the extended reals: each region's output row, sliced to its first five lanes and
  totalled, is the sum over the five bandwidths of the whole pair sums of the two arrays the region reads; the closing host
  lines scale the three totals, combine them and take the square root.
-/
import proofs.«152674_j2757369004769_1_alg».proof.Proof.KI.Keep
import proofs.«152674_j2757369004769_1_alg».proof.Proof.KI.Fold0
import proofs.«152674_j2757369004769_1_alg».proof.Proof.KI.Fold1
import proofs.«152674_j2757369004769_1_alg».proof.Proof.KI.Fold2
import proofs.«152674_j2757369004769_1_alg».proof.Proof.MmdAlgebra
import Idealize.ShloMosaic.Lib.StableHlo.Run
import Idealize.ShloMosaic.Lib.IdealHost
import Idealize.ShloMosaic.Lib.Pipeline.Value
import Idealize.ShloMosaic.PureOps.Ideal.Laws

set_option maxRecDepth 16384

noncomputable section

namespace Cert.KernelIdeal.Final

open Cert.KernelIdeal Cert.KernelIdeal.Gen Cert.KernelIdeal.Pair Cert.Mmd
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- An output row sliced to its first five lanes and flattened. -/
def five (R : FVec Ideal S1x128 .f32) : FVec Ideal S5 .f32 :=
  shapeCast S5 (extractStridedSlice S1x5 ![0, 0] R slices_S1x128_S1x5_0_0) shapeCasts_S1x5_S5

theorem five_at (R : FVec Ideal S1x128 .f32) (l : Fin 5) :
    five R (ix1 l) = R (ix2 ⟨0, Nat.one_pos⟩ ⟨l.val, by have := l.isLt; omega⟩) := by
  unfold five
  refine (shapeCast_apply _ shapeCasts_S1x5_S5 (ix1 l) (ix2 (n0 := 1) (n1 := 5) ⟨0, Nat.one_pos⟩ l) (by
    rw [Shape.rowMajor_val_one, Shape.rowMajor_val_two]
    show 0 * 5 + l.val = l.val
    omega)).trans ?_
  exact extractStridedSlice_apply ![0, 0] R slices_S1x128_S1x5_0_0 (ix2 (n0 := 1) (n1 := 5) ⟨0, Nat.one_pos⟩ l)
    (ix2 (n0 := 1) (n1 := 128) ⟨0, Nat.one_pos⟩ ⟨l.val, by have := l.isLt; omega⟩) (fun a => by
    match a with
    | ⟨0, _⟩ => rfl
    | ⟨1, _⟩ => show l.val = 0 + l.val; omega)

/-- A five-lane row totalled from zero and divided by five times the number of pairs. -/
def scaled (a : FVec Ideal S5 .f32) : FVec Ideal S_ .f32 :=
  Host.divf (F := Ideal) (Host.reduceAdd (F := Ideal) a (constant (F := Ideal) S_ .f32 0x00000000#32) reducesTo_S5_S_d0 h_S_)
    (constant (F := Ideal) S_ .f32 0x4CA00000#32)

/-- The closing host lines as one function of the three five-lane rows. -/
def tail (a b c : FVec Ideal S5 .f32) : FVec Ideal S_ .f32 :=
  Host.sqrt (F := Ideal) (addf (subf (scaled a) (mulf (constant (F := Ideal) S_ .f32 0x40000000#32) (scaled c))) (scaled b))

/-- The index set of a vector of n entries is Fin n. -/
def idxEquiv1 {n : Nat} : (⟨1, ![n]⟩ : Shape).Idx ≃ Fin n where
  toFun i := i 0
  invFun p := ix1 p
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scaled_at (a : FVec Ideal S5 .f32) (j : S_.Idx) :
    scaled a j = Ideal.div (zero + ∑ l : Fin 5, a (ix1 l)) pairs5 := by
  unfold scaled
  rw [hostDivf_apply, hostReduceAdd_apply]
  rw [Ideal.hostReduceAdd_total reducesTo_S5_S_d0 (fun b => b.elim0)]
  rw [sum_idx1]
  rfl

theorem W7_v12 (c : Dev nD) :
    (W7 m ρ c main_v12 : FVec Ideal S_ .f32) = tail (W6 m ρ c main_v0) (W6 m ρ c main_v1) (W6 m ρ c main_v2) := by
  show StableHlo.after hostOps3_1 (W6 m ρ c) (Proc.devRef .tc main_v12) = _
  after_results
  rfl

theorem W2_v0 (c : Dev nD) : (W2 m ρ c main_v0 : FVec Ideal S5 .f32) = five (W1 m ρ c main_call0_v0) := by
  show StableHlo.after hostOps1 (W1 m ρ c) (Proc.devRef .tc main_v0) = _
  after_results
  rfl
theorem W4_v1 (c : Dev nD) : (W4 m ρ c main_v1 : FVec Ideal S5 .f32) = five (W3 m ρ c main_call1_v0) := by
  show StableHlo.after hostOps2 (W3 m ρ c) (Proc.devRef .tc main_v1) = _
  after_results
  rfl
theorem W6_v2 (c : Dev nD) : (W6 m ρ c main_v2 : FVec Ideal S5 .f32) = five (W5 m ρ c main_call2_v0) := by
  show StableHlo.after hostOps3 (W5 m ρ c) (Proc.devRef .tc main_v2) = _
  after_results
  rfl

theorem W6_v0 (c : Dev nD) : W6 m ρ c main_v0 = W2 m ρ c main_v0 :=
  (W6_of m ρ c main_v0 (by decide)).trans ((W5_of_ne m ρ c main_v0 (by decide)).trans
    ((W4_of m ρ c main_v0 (by decide)).trans (W3_of_ne m ρ c main_v0 (by decide))))
theorem W6_v1 (c : Dev nD) : W6 m ρ c main_v1 = W4 m ρ c main_v1 :=
  (W6_of m ρ c main_v1 (by decide)).trans (W5_of_ne m ρ c main_v1 (by decide))

/-- The argument arrays as the regions find them: as launched. -/
theorem V2_arg1 (c : Dev nD) : V2 m ρ c main_arg1 = m ((c : Thread nD τ).loc main_arg1) :=
  (keep m ρ c main_arg1 (by decide) (by decide) (by decide) (by decide) (by decide) (by decide) (by decide)).2.2
theorem V4_arg0 (c : Dev nD) : V4 m ρ c main_arg0 = m ((c : Thread nD τ).loc main_arg0) :=
  (keep m ρ c main_arg0 (by decide) (by decide) (by decide) (by decide) (by decide) (by decide) (by decide)).2.1
theorem V4_arg1 (c : Dev nD) : V4 m ρ c main_arg1 = m ((c : Thread nD τ).loc main_arg1) :=
  (keep m ρ c main_arg1 (by decide) (by decide) (by decide) (by decide) (by decide) (by decide) (by decide)).2.1

/-- Each region's scaled total is the kernel-side mean of its two arrays. -/
theorem mean0 (c : Dev nD) (j : S_.Idx) :
    scaled (W6 m ρ c main_v0) j = kerMean (m ((c : Thread nD τ).loc main_arg0) : Mat) (m ((c : Thread nD τ).loc main_arg0) : Mat) := by
  rw [scaled_at, W6_v0, W2_v0]
  unfold kerMean
  refine congrArg (fun s => Ideal.div (zero + s) pairs5) (Finset.sum_congr rfl fun l _ => ?_)
  rw [five_at]
  show (V1 m ρ c main_call0_v0 : FVec Ideal S1x128 .f32) _ = _
  rw [W1_out]
  exact Cert.KernelIdeal.Fold0.region_lane (V0 m ρ) c ⟨l.val, by have := l.isLt; omega⟩ l.isLt

theorem mean1 (c : Dev nD) (j : S_.Idx) :
    scaled (W6 m ρ c main_v1) j = kerMean (m ((c : Thread nD τ).loc main_arg1) : Mat) (m ((c : Thread nD τ).loc main_arg1) : Mat) := by
  rw [scaled_at, W6_v1, W4_v1]
  unfold kerMean
  refine congrArg (fun s => Ideal.div (zero + s) pairs5) (Finset.sum_congr rfl fun l _ => ?_)
  rw [five_at]
  show (V3 m ρ c main_call1_v0 : FVec Ideal S1x128 .f32) _ = _
  rw [W3_out]
  refine (Cert.KernelIdeal.Fold1.region_lane (V2 m ρ) c ⟨l.val, by have := l.isLt; omega⟩ l.isLt).trans ?_
  rw [V2_arg1]

theorem mean2 (c : Dev nD) (j : S_.Idx) :
    scaled (W6 m ρ c main_v2) j = kerMean (m ((c : Thread nD τ).loc main_arg0) : Mat) (m ((c : Thread nD τ).loc main_arg1) : Mat) := by
  rw [scaled_at, W6_v2]
  unfold kerMean
  refine congrArg (fun s => Ideal.div (zero + s) pairs5) (Finset.sum_congr rfl fun l _ => ?_)
  rw [five_at]
  show (V5 m ρ c main_call2_v0 : FVec Ideal S1x128 .f32) _ = _
  rw [W5_out]
  refine (Cert.KernelIdeal.Fold2.region_lane (V4 m ρ) c ⟨l.val, by have := l.isLt; omega⟩ l.isLt).trans ?_
  rw [V4_arg0, V4_arg1]

/-- The kernel program's result. -/
theorem result (c : Dev nD) :
    (W7 m ρ c main_v12 : FVec Ideal S_ .f32)
      = fun _ => kerResult (m ((c : Thread nD τ).loc main_arg0) : Mat) (m ((c : Thread nD τ).loc main_arg1) : Mat) := by
  rw [W7_v12]
  funext j
  unfold tail kerResult
  show Ideal.sqrt ((scaled _ j - Ideal.ofBits .f32 0x40000000#32 * scaled _ j) + scaled _ j) = _
  rw [mean0, mean1, mean2]
  rfl

/-- THE VALUE RUN: the result at the kernel-side grouping of the statistic, the arguments as launched. -/
theorem run : θ_run defs (onTc (τ := τ) (main (F := Ideal))) ⟨m, fun _ => 0, ρ⟩ (fun r => ∀ c : Dev nD,
      r.2.mem ((c.tc : Thread nD τ).loc main_v12) = (fun _ => kerResult (m ((c : Thread nD τ).loc main_arg0) : Mat) (m ((c : Thread nD τ).loc main_arg1) : Mat))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_v12 (by decide))).trans (result m ρ c),
    (h c _ (mem_uc main_arg0 (by decide))).trans (W7_arg0 m ρ c),
    (h c _ (mem_uc main_arg1 (by decide))).trans (W7_arg1 m ρ c)⟩) (run_all m ρ)

end Cert.KernelIdeal.Final

end
-- ==== Proof.RefValue.lean ====
/-
  The reference program's result, read at the extended reals, is the statistic of Spec: for its two 4096 x 256 argument arrays
  X1, X2 the run composes, three times, the 4096 x 4096 array of clamped squared distances

      max (|X i|² + |Y j|² − 2 · ⟨X i, Y j⟩) 0

  (row norms by a sum over the second axis from zero, laid down the columns and along the rows; the inner products by the matrix
  product of X with the transpose of Y), at (X1, X1), (X2, X2) and (X1, X2). From each it takes, for five bandwidths, the sum over
  all pairs of exp (c · distance) from zero divided by the number of pairs, adds the five from zero and divides by five; the
  result is the square root of the first mean minus twice the cross mean plus the second mean. Each step below reads one of these
  compositions at an index as the corresponding definition of Spec; no literal is evaluated except the zero a sum starts from.
-/
import proofs.«152674_j2757369004769_1_alg».proof.Proof.Gen.ReferenceIdeal.Run
import proofs.«152674_j2757369004769_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.SL.Sem
open scoped BigOperators

/-- The clamped squared-distance array of two arrays, as the reference composes it. -/
def distTerm (X Y : FVec Ideal S4096x256 .f32) : FVec Ideal S4096x4096 .f32 :=
  maximumf (subf (addf (broadcastInDim S4096x4096 ![0, 1] bcast_S4096x1_S4096x4096_0_1 (broadcastInDim S4096x1 ![0] bcast_S4096_S4096x1_0 (Host.reduceAdd (mulf X X) (constant S_ .f32 0x00000000#32) reducesTo_S4096x256_S4096_d1 h_S_))) (broadcastInDim S4096x4096 ![0, 1] bcast_S1x4096_S4096x4096_0_1 (broadcastInDim S1x4096 ![1] bcast_S4096_S1x4096_1 (Host.reduceAdd (mulf Y Y) (constant S_ .f32 0x00000000#32) reducesTo_S4096x256_S4096_d1 h_S_)))) (mulf (broadcastInDim S4096x4096 ![] bcast_S_S4096x4096 (constant S_ .f32 0x40000000#32)) (Host.dotGeneral dot_S4096x256_S256x4096_S4096x4096_1_0_0_1_n_n none X (transpose S256x4096 [1, 0] Y transposes_S4096x256_S256x4096_1_0)))) (broadcastInDim S4096x4096 ![] bcast_S_S4096x4096 (constant S_ .f32 0x00000000#32))

theorem red1 : S4096x256.Reduces [1] S4096 := by decide

/-- The sum of squares along a row, read at the row's index. -/
theorem rowSq_read (X : FVec Ideal S4096x256 .f32) (i : Fin 4096) :
    Host.reduceAdd (mulf X X) (constant S_ .f32 0x00000000#32) reducesTo_S4096x256_S4096_d1 h_S_ (ix1 i) = Cert.Mmd.rowSq X i := by
  rw [hostReduceAdd_apply, Ideal.hostReduceAdd_single reducesTo_S4096x256_S4096_d1 red1]
  rw [constant_apply, Ideal.ofBits_zero_f32, zero_add]
  unfold Cert.Mmd.rowSq
  refine Finset.sum_congr rfl fun k _ => ?_
  have hl : red1.lift (ix1 i) k = ix2 i k := by
    funext a; apply Fin.ext
    match a with
    | ⟨0, _⟩ => rfl
    | ⟨1, _⟩ => rfl
  rw [mulf_apply, hl]
  rfl

theorem dot_eq : dot_S4096x256_S256x4096_S4096x4096_1_0_0_1_n_n = DotDims.plain 4096 256 4096 := rfl

theorem dot_read (X Y : FVec Ideal S4096x256 .f32) (i j : Fin 4096) :
    Host.dotGeneral dot_S4096x256_S256x4096_S4096x4096_1_0_0_1_n_n none X (transpose S256x4096 [1, 0] Y transposes_S4096x256_S256x4096_1_0) (ix2 i j) = Cert.Mmd.rowDot X Y i j := by
  rw [dot_eq]
  refine (StackMember.dotGeneral_plain_apply none X _ i j).trans ?_
  unfold Cert.Mmd.rowDot
  refine Finset.sum_congr rfl fun k _ => ?_
  rw [transpose_ix2_apply]

/-- A vector laid down the columns: every entry of row i reads the vector at i. -/
theorem colBcast_read (v : FVec Ideal S4096 .f32) (i j : Fin 4096) :
    broadcastInDim S4096x4096 ![0, 1] bcast_S4096x1_S4096x4096_0_1 (broadcastInDim S4096x1 ![0] bcast_S4096_S4096x1_0 v) (ix2 i j) = v (ix1 i) := by
  rw [broadcastInDim_apply _ _ _ (ix2 i j) (ix2 i (0 : Fin 1)) (fun a => match a with | ⟨0, _⟩ => rfl | ⟨1, _⟩ => rfl)]
  rw [broadcastInDim_apply _ _ _ (ix2 i (0 : Fin 1)) (ix1 i) (fun a => match a with | ⟨0, _⟩ => rfl)]

/-- A vector laid along the rows: every entry of column j reads the vector at j. -/
theorem rowBcast_read (v : FVec Ideal S4096 .f32) (i j : Fin 4096) :
    broadcastInDim S4096x4096 ![0, 1] bcast_S1x4096_S4096x4096_0_1 (broadcastInDim S1x4096 ![1] bcast_S4096_S1x4096_1 v) (ix2 i j) = v (ix1 j) := by
  rw [broadcastInDim_apply _ _ _ (ix2 i j) (ix2 (0 : Fin 1) j) (fun a => match a with | ⟨0, _⟩ => rfl | ⟨1, _⟩ => rfl)]
  rw [broadcastInDim_apply _ _ _ (ix2 (0 : Fin 1) j) (ix1 j) (fun a => match a with | ⟨0, _⟩ => rfl)]

/-- The composed array at (i, j) is the clamped squared distance of row i of X and row j of Y. -/
theorem distTerm_apply (X Y : FVec Ideal S4096x256 .f32) (i j : Fin 4096) :
    distTerm X Y (ix2 i j) = Cert.Mmd.sqd X Y i j := by
  unfold distTerm Cert.Mmd.sqd
  rw [maximumf_apply, subf_apply, addf_apply, mulf_apply, colBcast_read, rowBcast_read, rowSq_read, rowSq_read, dot_read,
    broadcastInDim_scalar_apply, broadcastInDim_scalar_apply, constant_apply, constant_apply]
  rfl

/-- The sum of a 4096 x 4096 array over both axes from the zero word. -/
theorem total_read (E : FVec Ideal S4096x4096 .f32) :
    Host.reduceAdd E (constant S_ .f32 0x00000000#32) reducesTo_S4096x4096_S_d0_1 h_S_ ix0
      = Cert.Mmd.zero + ∑ i : Fin 4096, ∑ j : Fin 4096, E (ix2 i j) := by
  rw [hostReduceAdd_apply, Ideal.hostReduceAdd_total reducesTo_S4096x4096_S_d0_1 (fun b => b.elim0), sum_idx2]
  rfl

/-- One bandwidth's mean over pairs, as the reference composes it from a distance array: the coefficient is minus sixteen times
    the bandwidth's literal, the exponentials are summed over all pairs from zero, and the total is divided by the number of pairs. -/
def termT (g : BitVec 32) (D : FVec Ideal S4096x4096 .f32) : FVec Ideal S_ .f32 :=
  Host.divf (Host.reduceAdd (Host.exp (mulf (broadcastInDim S4096x4096 ![] bcast_S_S4096x4096 (Host.negf (mulf (constant S_ .f32 0x41800000#32) (constant S_ .f32 g)))) D)) (constant S_ .f32 0x00000000#32) reducesTo_S4096x4096_S_d0_1 h_S_) (constant S_ .f32 0x4B800000#32)

theorem termT_read (g : BitVec 32) (X Y : FVec Ideal S4096x256 .f32) :
    termT g (distTerm X Y) ix0 = Cert.Mmd.rterm g X Y := by
  have hE : ∀ i j : Fin 4096, Host.exp (mulf (broadcastInDim S4096x4096 ![] bcast_S_S4096x4096 (Host.negf (mulf (constant S_ .f32 0x41800000#32) (constant S_ .f32 g)))) (distTerm X Y)) (ix2 i j)
      = Ideal.exp (Cert.Mmd.rc g * Cert.Mmd.sqd X Y i j) := by
    intro i j
    show Ideal.exp ((broadcastInDim S4096x4096 ![] bcast_S_S4096x4096 (Host.negf (F := Ideal) (mulf (constant S_ .f32 0x41800000#32) (constant S_ .f32 g))) (ix2 i j)) * distTerm X Y (ix2 i j)) = _
    rw [broadcastInDim_scalar_apply, distTerm_apply]
    rfl
  unfold termT Cert.Mmd.rterm Cert.Mmd.ksum
  rw [hostDivf_apply, total_read]
  simp only [hE]
  rfl

/-- The mean over pairs and bandwidths, as the reference composes it from a distance array: the five per-bandwidth means added
    from zero in order, divided by five. -/
def meanT (D : FVec Ideal S4096x4096 .f32) : FVec Ideal S_ .f32 :=
  Host.divf (addf (addf (addf (addf (addf (constant S_ .f32 0x00000000#32) (termT 0x3F000000#32 D)) (termT 0x3E000000#32 D)) (termT 0x3CA3D70A#32 D)) (termT 0x3BA3D70A#32 D)) (termT 0x3AA3D70A#32 D)) (constant S_ .f32 0x40A00000#32)

theorem meanT_read (X Y : FVec Ideal S4096x256 .f32) : meanT (distTerm X Y) ix0 = Cert.Mmd.refMean X Y := by
  unfold meanT Cert.Mmd.refMean
  rw [hostDivf_apply, addf_apply, addf_apply, addf_apply, addf_apply, addf_apply, termT_read, termT_read, termT_read, termT_read,
    termT_read]
  rfl

/-- The three distance arrays of the run are the composed array at (first, first), (second, second) and (first, second). -/
theorem v15_eq (V0 : Valuation τ sig (Elt Ideal)) :
    Cert.ReferenceIdeal.Value.res_main_v15 (F := Ideal) V0 = distTerm (V0 (Proc.devRef .tc main_arg0)) (V0 (Proc.devRef .tc main_arg0)) := rfl
theorem v31_eq (V0 : Valuation τ sig (Elt Ideal)) :
    Cert.ReferenceIdeal.Value.res_main_v31 (F := Ideal) V0 = distTerm (V0 (Proc.devRef .tc main_arg1)) (V0 (Proc.devRef .tc main_arg1)) := rfl
theorem v47_eq (V0 : Valuation τ sig (Elt Ideal)) :
    Cert.ReferenceIdeal.Value.res_main_v47 (F := Ideal) V0 = distTerm (V0 (Proc.devRef .tc main_arg0)) (V0 (Proc.devRef .tc main_arg1)) := rfl

set_option maxRecDepth 8192 in
/-- The run's value under the square root: the first mean minus twice the cross mean plus the second mean. -/
theorem v173_eq (V0 : Valuation τ sig (Elt Ideal)) :
    Cert.ReferenceIdeal.Value.res_main_v173 (F := Ideal) V0
      = addf (subf (meanT (Cert.ReferenceIdeal.Value.res_main_v15 (F := Ideal) V0))
          (mulf (constant S_ .f32 0x40000000#32) (meanT (Cert.ReferenceIdeal.Value.res_main_v47 (F := Ideal) V0))))
          (meanT (Cert.ReferenceIdeal.Value.res_main_v31 (F := Ideal) V0)) := rfl

/-- The reference's result, at the extended reals, is the statistic of its two argument arrays. -/
theorem ref_result (V0 : Valuation τ sig (Elt Ideal)) :
    Host.sqrt (F := Ideal) (s := S_) (φ := .f32) (Cert.ReferenceIdeal.Value.res_main_v173 (F := Ideal) V0)
      = fun _ => Cert.Mmd.refResult (V0 (Proc.devRef .tc main_arg0)) (V0 (Proc.devRef .tc main_arg1)) := by
  funext j
  rw [eq_ix0 j, v173_eq, v15_eq, v31_eq, v47_eq]
  show Ideal.sqrt ((meanT (distTerm (V0 (Proc.devRef .tc main_arg0)) (V0 (Proc.devRef .tc main_arg0))) ix0
      - Ideal.ofBits .f32 0x40000000#32 * meanT (distTerm (V0 (Proc.devRef .tc main_arg0)) (V0 (Proc.devRef .tc main_arg1))) ix0)
      + meanT (distTerm (V0 (Proc.devRef .tc main_arg1)) (V0 (Proc.devRef .tc main_arg1))) ix0) = _
  rw [meanT_read, meanT_read, meanT_read]
  rfl

end Cert.ReferenceIdeal.RefValue

end
-- ==== Proof.lean ====
/-
  The five claims. Both kernel programs (the printed one at bit patterns, its idealization at the extended reals) run as three
  pairwise-distance regions and four host stretches; no item writes an argument, which is their frame. At the extended reals
  the kernel accumulates, per region, the five bandwidths' sums of exp (c · squared distance) over sixteen tiles into five lanes
  of a row, then totals the lanes and divides by five times the number of pairs; the reference takes, per bandwidth, the mean
  over all pairs and then the mean of the five. The coefficient words agree exactly (each kernel word is minus sixteen times
  the reference's), every pair sum is non-negative, so the two groupings of the mean agree, and both programs end with
  sqrt (m11 − 2 · m12 + m22) of the same three means.
-/
import proofs.«152674_j2757369004769_1_alg».proof.Defs
import proofs.«152674_j2757369004769_1_alg».proof.Proof.Gen.Kernel
import proofs.«152674_j2757369004769_1_alg».proof.Proof.Gen.KernelIdeal
import proofs.«152674_j2757369004769_1_alg».proof.Proof.Gen.ReferenceIdeal
import proofs.«152674_j2757369004769_1_alg».proof.Proof.Gen.ReferenceIdeal.Run
import proofs.«152674_j2757369004769_1_alg».proof.Proof.Gen.Pre_finite_inputs
import proofs.«152674_j2757369004769_1_alg».proof.Proof.K.Keep
import proofs.«152674_j2757369004769_1_alg».proof.Proof.KI.Final
import proofs.«152674_j2757369004769_1_alg».proof.Proof.RefValue
import proofs.«152674_j2757369004769_1_alg».proof.Proof.MmdAlgebra
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Pair.frame (F := Bits) m ρ

theorem frame_ki : Cert.frame_KernelIdeal := fun m ρ _ => Cert.KernelIdeal.Pair.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the program's own text read at the extended reals. -/
theorem preserves : Cert.preserves_Kernel_KernelIdeal := trivial

/-- Both programs end with the same statistic of the two argument arrays. -/
theorem algebraic : Cert.algebraic_KernelIdeal_ReferenceIdeal := by
  intro m ρ m' ρ' _ hagree
  refine ⟨fun c => fun _ => Cert.Mmd.kerResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_result]
  funext _
  dsimp only
  rw [Cert.Mmd.kerResult_eq_refResult, ← (hagree c).1, ← (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
